-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v13_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v13_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x128 : Shape := ⟨3, ![8, 2048, 128]⟩
abbrev S8x2048x64 : Shape := ⟨3, ![8, 2048, 64]⟩
abbrev S128x64 : Shape := ⟨2, ![128, 64]⟩
abbrev S128 : Shape := ⟨1, ![128]⟩
abbrev S128x128 : Shape := ⟨2, ![128, 128]⟩
abbrev S64x128 : Shape := ⟨2, ![64, 128]⟩
abbrev S64 : Shape := ⟨1, ![64]⟩
abbrev S_ : Shape := ⟨0, ![]⟩

class Facts : Prop where
  bcast_S_S8x2048x128 : S_.BroadcastsInDim S8x2048x128 (![] : Fin 0 → Fin S8x2048x128.rank)
  reducesTo_S8x2048x128_S_d0_1_2 : S8x2048x128.ReducesTo [0, 1, 2] S_
  h_S_ : 0 < S_.numel
  bcast_S_S8x2048x64 : S_.BroadcastsInDim S8x2048x64 (![] : Fin 0 → Fin S8x2048x64.rank)
  reducesTo_S8x2048x64_S_d0_1_2 : S8x2048x64.ReducesTo [0, 1, 2] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_arg14 : FVec F S64 .f32) (main_v63 : IVec S_ 1) (main_v67 : IVec S_ 1) : IVec S_ 1 :=
  let main_v68 : IVec S_ 1 := andi main_v63 main_v67
  let main_v69 : FVec F S64 .f32 := Host.absf main_arg14
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  main_v73

def fn_part3 {F : FTy → Type} [FloatOps F] (main_arg11 : FVec F S128x128 .f32) (main_arg12 : FVec F S128 .f32) (main_arg13 : FVec F S64x128 .f32) (main_arg14 : FVec F S64 .f32) (main_v48 : IVec S_ 1) (main_v49 : FVec F S128x64 .f32) (main_v50 : FVec F S128x64 .f32) : IVec S_ 1 :=
  let main_v51 : IVec S128x64 1 := cmpf .olt main_v49 main_v50
  let main_c_19 : IVec S_ 1 := constantI S_ 1 1#1
  let main_v52 : IVec S_ 1 := (fun x v => Host.reduce IntOp.andi x v reducesTo_S128x64_S_d0_1 h_S_) main_v51 main_c_19
  let main_v53 : IVec S_ 1 := andi main_v48 main_v52
  let main_v54 : FVec F S128x128 .f32 := Host.absf main_arg11
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S64x128 .f32 := Host.absf main_arg13
  let main_cst_24 : FVec F S_ .f32 := constant S_ .f32 0x7F800000#32
  let main_v65 : FVec F S64x128 .f32 := broadcastInDim S64x128 ![] bcast_S_S64x128 main_cst_24
  let main_v66 : IVec S64x128 1 := cmpf .olt main_v64 main_v65
  let main_c_25 : IVec S_ 1 := constantI S_ 1 1#1
  let main_v67 : IVec S_ 1 := (fun x v => Host.reduce IntOp.andi x v reducesTo_S64x128_S_d0_1 h_S_) main_v66 main_c_25
  fn_part4 (F := F) main_arg14 main_v63 main_v67

def fn_part2 {F : FTy → Type} [FloatOps F] (main_arg7 : FVec F S128 .f32) (main_arg8 : FVec F S128x128 .f32) (main_arg9 : FVec F S128 .f32) (main_arg10 : FVec F S128x64 .f32) (main_arg11 : FVec F S128x128 .f32) (main_arg12 : FVec F S128 .f32) (main_arg13 : FVec F S64x128 .f32) (main_arg14 : FVec F S64 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x64 .f32 := Host.absf main_arg10
  let main_cst_18 : FVec F S_ .f32 := constant S_ .f32 0x7F800000#32
  let main_v50 : FVec F S128x64 .f32 := broadcastInDim S128x64 ![] bcast_S_S128x64 main_cst_18
  fn_part3 (F := F) main_arg11 main_arg12 main_arg13 main_arg14 main_v48 main_v49 main_v50

def fn_part1 {F : FTy → Type} [FloatOps F] (main_arg4 : FVec F S128x64 .f32) (main_arg5 : FVec F S128 .f32) (main_arg6 : FVec F S128x64 .f32) (main_arg7 : FVec F S128 .f32) (main_arg8 : FVec F S128x128 .f32) (main_arg9 : FVec F S128 .f32) (main_arg10 : FVec F S128x64 .f32) (main_arg11 : FVec F S128x128 .f32) (main_arg12 : FVec F S128 .f32) (main_arg13 : FVec F S64x128 .f32) (main_arg14 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg6
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S8x2048x128 .f32) (main_arg1 : FVec F S8x2048x64 .f32) (main_arg2 : FVec F S128x64 .f32) (main_arg3 : FVec F S128 .f32) (main_arg4 : FVec F S128x64 .f32) (main_arg5 : FVec F S128 .f32) (main_arg6 : FVec F S128x64 .f32) (main_arg7 : FVec F S128 .f32) (main_arg8 : FVec F S128x128 .f32) (main_arg9 : FVec F S128 .f32) (main_arg10 : FVec F S128x64 .f32) (main_arg11 : FVec F S128x128 .f32) (main_arg12 : FVec F S128 .f32) (main_arg13 : FVec F S64x128 .f32) (main_arg14 : FVec F S64 .f32) : IVec S_ 1 :=
  let main_v0 : FVec F S8x2048x128 .f32 := Host.absf main_arg0
  let main_cst : FVec F S_ .f32 := constant S_ .f32 0x7F800000#32
  let main_v1 : FVec F S8x2048x128 .f32 := broadcastInDim S8x2048x128 ![] bcast_S_S8x2048x128 main_cst
  let main_v2 : IVec S8x2048x128 1 := cmpf .olt main_v0 main_v1
  let main_c : IVec S_ 1 := constantI S_ 1 1#1
  let main_v3 : IVec S_ 1 := (fun x v => Host.reduce IntOp.andi x v reducesTo_S8x2048x128_S_d0_1_2 h_S_) main_v2 main_c
  let main_v4 : FVec F S8x2048x64 .f32 := Host.absf main_arg1
  let main_cst_0 : FVec F S_ .f32 := constant S_ .f32 0x7F800000#32
  let main_v5 : FVec F S8x2048x64 .f32 := broadcastInDim S8x2048x64 ![] bcast_S_S8x2048x64 main_cst_0
  let main_v6 : IVec S8x2048x64 1 := cmpf .olt main_v4 main_v5
  let main_c_1 : IVec S_ 1 := constantI S_ 1 1#1
  let main_v7 : IVec S_ 1 := (fun x v => Host.reduce IntOp.andi x v reducesTo_S8x2048x64_S_d0_1_2 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S8x2048x128 : Shape := ⟨3, ![8, 2048, 128]⟩
abbrev S8x2048x64 : Shape := ⟨3, ![8, 2048, 64]⟩
abbrev S128x64 : Shape := ⟨2, ![128, 64]⟩
abbrev S128 : Shape := ⟨1, ![128]⟩
abbrev S128x128 : Shape := ⟨2, ![128, 128]⟩
abbrev S64x128 : Shape := ⟨2, ![64, 128]⟩
abbrev S64 : Shape := ⟨1, ![64]⟩
abbrev S1x128 : Shape := ⟨2, ![1, 128]⟩
abbrev S1x64 : Shape := ⟨2, ![1, 64]⟩
abbrev S1x2048x128 : Shape := ⟨3, ![1, 2048, 128]⟩
abbrev S1x2048x64 : Shape := ⟨3, ![1, 2048, 64]⟩
abbrev S1x512x64 : Shape := ⟨3, ![1, 512, 64]⟩
abbrev S1x512x128 : Shape := ⟨3, ![1, 512, 128]⟩
abbrev S2048x128 : Shape := ⟨2, ![2048, 128]⟩
abbrev S512x64 : Shape := ⟨2, ![512, 64]⟩
abbrev S512x128 : Shape := ⟨2, ![512, 128]⟩
abbrev S128x2048 : Shape := ⟨2, ![128, 2048]⟩
abbrev S512x2048 : Shape := ⟨2, ![512, 2048]⟩
abbrev S512 : Shape := ⟨1, ![512]⟩
abbrev S512x1 : Shape := ⟨2, ![512, 1]⟩
abbrev S2048x64 : Shape := ⟨2, ![2048, 64]⟩

abbrev nBuf : Space → Nat
  | .hbm => 30
  | .vmem => 22
  | .smem => 0
  | _ => 0

abbrev bufTy : (tb : Table) → Fin (tcTables nBuf tb) → BufTy
  | .hbm, ⟨0, _⟩ => ⟨S8x2048x128, .f32⟩
  | .hbm, ⟨1, _⟩ => ⟨S8x2048x64, .f32⟩
  | .hbm, ⟨2, _⟩ => ⟨S128x64, .f32⟩
  | .hbm, ⟨3, _⟩ => ⟨S128, .f32⟩
  | .hbm, ⟨4, _⟩ => ⟨S128x64, .f32⟩
  | .hbm, ⟨5, _⟩ => ⟨S128, .f32⟩
  | .hbm, ⟨6, _⟩ => ⟨S128x64, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x64, .f32⟩
  | .hbm, ⟨11, _⟩ => ⟨S128x128, .f32⟩
  | .hbm, ⟨12, _⟩ => ⟨S128, .f32⟩
  | .hbm, ⟨13, _⟩ => ⟨S64x128, .f32⟩
  | .hbm, ⟨14, _⟩ => ⟨S64, .f32⟩
  | .hbm, ⟨15, _⟩ => ⟨S128x64, .bf16⟩
  | .hbm, ⟨16, _⟩ => ⟨S128x64, .bf16⟩
  | .hbm, ⟨17, _⟩ => ⟨S128x64, .bf16⟩
  | .hbm, ⟨18, _⟩ => ⟨S128x128, .bf16⟩
  | .hbm, ⟨19, _⟩ => ⟨S128x64, .bf16⟩
  | .hbm, ⟨20, _⟩ => ⟨S128x128, .bf16⟩
  | .hbm, ⟨21, _⟩ => ⟨S64x128, .bf16⟩
  | .hbm, ⟨22, _⟩ => ⟨S1x128, .f32⟩
  | .hbm, ⟨23, _⟩ => ⟨S1x128, .f32⟩
  | .hbm, ⟨24, _⟩ => ⟨S1x128, .f32⟩
  | .hbm, ⟨25, _⟩ => ⟨S1x128, .f32⟩
  | .hbm, ⟨26, _⟩ => ⟨S1x128, .f32⟩
  | .hbm, ⟨27, _⟩ => ⟨S1x64, .f32⟩
  | .hbm, ⟨28, _⟩ => ⟨S8x2048x64, .f32⟩
  | .hbm, ⟨29, _⟩ => ⟨S8x2048x128, .f32⟩
  | .local _ .vmem, ⟨0, _⟩ => ⟨S1x2048x128, .f32⟩
  | .local _ .vmem, ⟨1, _⟩ => ⟨S1x2048x128, .f32⟩
  | .local _ .vmem, ⟨2, _⟩ => ⟨S1x2048x64, .f32⟩
  | .local _ .vmem, ⟨3, _⟩ => ⟨S1x2048x64, .f32⟩
  | .local _ .vmem, ⟨4, _⟩ => ⟨S128x64, .bf16⟩
  | .local _ .vmem, ⟨5, _⟩ => ⟨S128x128, .bf16⟩
  | .local _ .vmem, ⟨6, _⟩ => ⟨S1x128, .f32⟩
  | .local _ .vmem, ⟨7, _⟩ => ⟨S128x64, .bf16⟩
  | .local _ .vmem, ⟨8, _⟩ => ⟨S1x128, .f32⟩
  | .local _ .vmem, ⟨9, _⟩ => ⟨S128x64, .bf16⟩
  | .local _ .vmem, ⟨10, _⟩ => ⟨S1x128, .f32⟩
  | .local _ .vmem, ⟨11, _⟩ => ⟨S128x64, .bf16⟩
  | .local _ .vmem, ⟨12, _⟩ => ⟨S1x128, .f32⟩
  | .local _ .vmem, ⟨13, _⟩ => ⟨S128x128, .bf16⟩
  | .local _ .vmem, ⟨14, _⟩ => ⟨S1x128, .f32⟩
  | .local _ .vmem, ⟨15, _⟩ => ⟨S64x128, .bf16⟩
  | .local _ .vmem, ⟨16, _⟩ => ⟨S1x64, .f32⟩
  | .local _ .vmem, ⟨17, _⟩ => ⟨S1x512x64, .f32⟩
  | .local _ .vmem, ⟨18, _⟩ => ⟨S1x512x64, .f32⟩
  | .local _ .vmem, ⟨19, _⟩ => ⟨S1x512x128, .f32⟩
  | .local _ .vmem, ⟨20, _⟩ => ⟨S1x512x128, .f32⟩
  | .local _ .vmem, ⟨21, _⟩ => ⟨S2048x128, .bf16⟩
  | _, _ => ⟨S8x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13_0 : Ref sig .tc := ⟨.hbm, 28, rfl⟩
abbrev main_v13_1 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg15_1 : Ref sig .tc := ⟨.vmem, 18, rfl⟩
abbrev cc0_stg16_0 : Ref sig .tc := ⟨.vmem, 19, rfl⟩
abbrev cc0_stg16_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem15_1 : DmaSem sig := 18
abbrev cc0_sem16_0 : DmaSem sig := 19
abbrev cc0_sem16_1 : DmaSem sig := 20

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c512_i32 : BitVec 32 := 512#32
  let v3 : BitVec 32 := Scalar.muli arg1 c512_i32
  v3
def k0_off1 (i : grid0.Coords) : Fin 3 → Nat :=
  let c0 : Index := 0#32
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  let c0_1 : Index := 0#32
  ![0, v5.toNat, 0]
def k0_off2 (i : grid0.Coords) : Fin 3 → Nat :=
  let c0_2 : Index := 0#32
  let arg1 : BitVec 32 := BitVec.ofNat 32 (i 1).val
  let c512_i32 : BitVec 32 := 512#32
  let v3 : BitVec 32 := Scalar.muli arg1 c512_i32
  let v4 : BitVec 32 := v3
  let v8 : Index := Scalar.indexCast v4
  let c0_3 : Index := 0#32
  ![0, v8.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S128x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x64 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S64x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x512x64 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

class Facts₀ : Prop where
  bitsLt_bf16_f32 : FTy.bits .bf16 < FTy.bits .f32
  shapeCasts_S128_S1x128 : S128.ShapeCasts S1x128
  shapeCasts_S64_S1x64 : S64.ShapeCasts S1x64
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  transposes_S128x128_p1_0_S128x128 : S128x128.Transposes [1, 0] S128x128
  broadcasts_S1x128_S2048x128 : S1x128.Broadcasts S2048x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  packedbf16_S2048x128_S2048x128_0_0 : (Rect.unit (s := S2048x128) ![0, 0] S2048x128.size inb_S2048x128_S2048x128_0_0).PackedRows (EltTy.packing .bf16)
  h_S1x512x64 : 0 < S1x512x64.numel
  shapeCasts_S1x512x64_S512x64 : S1x512x64.ShapeCasts S512x64
  h_S1x512x128 : 0 < S1x512x128.numel
  shapeCasts_S1x512x128_S512x128 : S1x512x128.ShapeCasts S512x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  transposes_S128x64_p1_0_S64x128 : S128x64.Transposes [1, 0] S64x128
  transposes_S2048x128_p1_0_S128x2048 : S2048x128.Transposes [1, 0] S128x2048
  reduces_S512x2048_S512 : S512x2048.Reduces [1] S512
  shapeCasts_S512_S512x1 : S512.ShapeCasts S512x1
  broadcasts_S512x1_S512x2048 : S512x1.Broadcasts S512x2048
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x128_S512x128 : S1x128.Broadcasts S512x128
  transposes_S64x128_p1_0_S128x64 : S64x128.Transposes [1, 0] S128x64
  broadcasts_S1x64_S512x64 : S1x64.Broadcasts S512x64
  inb_S1x512x64_S1x512x64_0_0_0 : ∀ a, (![0, 0, 0] : Fin 3 → Nat) a + S1x512x64.size a ≤ S1x512x64.size a
  shapeCasts_S512x64_S1x512x64 : S512x64.ShapeCasts S1x512x64
  inb_S1x512x128_S1x512x128_0_0_0 : ∀ a, (![0, 0, 0] : Fin 3 → Nat) a + S1x512x128.size a ≤ S1x512x128.size a
  shapeCasts_S512x128_S1x512x128 : S512x128.ShapeCasts S1x512x128
  dot_S2048x128_S128x128_S2048x128_1_0_0_1_n_n_wf : DotDims.WF S2048x128 S128x128 S2048x128 [1] [0] [0] [1] [] []
  dot_S512x64_S64x128_S512x128_1_0_0_1_n_n_wf : DotDims.WF S512x64 S64x128 S512x128 [1] [0] [0] [1] [] []
  dot_S512x128_S128x2048_S512x2048_1_0_0_1_n_n_wf : DotDims.WF S512x128 S128x2048 S512x2048 [1] [0] [0] [1] [] []
  dot_S512x2048_S2048x64_S512x64_1_0_0_1_n_n_wf : DotDims.WF S512x2048 S2048x64 S512x64 [1] [0] [0] [1] [] []
  dot_S512x128_S128x128_S512x128_1_0_0_1_n_n_wf : DotDims.WF S512x128 S128x128 S512x128 [1] [0] [0] [1] [] []
  dot_S512x128_S128x64_S512x64_1_0_0_1_n_n_wf : DotDims.WF S512x128 S128x64 S512x64 [1] [0] [0] [1] [] []
  hrank0 : 0 < grid0.rank
  k0_mult1_dvd : ∀ i : grid0.Coords, 512 ∣ (k0_mult1 i).toNat
  k0_off1_inb : ∀ i : grid0.Coords, ∀ a, (k0_off1 i) a + S1x512x64.size a ≤ S1x2048x64.size a
  k0_off2_inb : ∀ i : grid0.Coords, ∀ a, (k0_off2 i) a + S1x512x128.size a ≤ S1x2048x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x128.size a ≤ S8x2048x128.size a
  hwx0_0 : ∀ i : grid0.Coords, EltTy.bits .f32 = 32 ∨ (Rect.block (s := S8x2048x128) S1x2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S8x2048x64.size a
  hwx0_1 : ∀ i : grid0.Coords, EltTy.bits .f32 = 32 ∨ (Rect.block (s := S8x2048x64) S1x2048x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .bf16 = 32 ∨ (Rect.block (s := S128x64) S128x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .bf16 = 32 ∨ (Rect.block (s := S128x64) S128x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x64.size a ≤ S128x64.size a
  hwx0_7 : ∀ i : grid0.Coords, EltTy.bits .bf16 = 32 ∨ (Rect.block (s := S128x64) S128x64.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x64.size a ≤ S128x64.size a
  hwx0_9 : ∀ i : grid0.Coords, EltTy.bits .bf16 = 32 ∨ (Rect.block (s := S128x64) S128x64.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x128.size a ≤ S128x128.size a
  hwx0_11 : ∀ i : grid0.Coords, EltTy.bits .bf16 = 32 ∨ (Rect.block (s := S128x128) S128x128.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x128.size a
  hwx0_12 : ∀ i : grid0.Coords, EltTy.bits .f32 = 32 ∨ (Rect.block (s := S1x128) S1x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S64x128.size a ≤ S64x128.size a
  hwx0_13 : ∀ i : grid0.Coords, EltTy.bits .bf16 = 32 ∨ (Rect.block (s := S64x128) S64x128.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x64.size a ≤ S1x64.size a
  hwx0_14 : ∀ i : grid0.Coords, EltTy.bits .f32 = 32 ∨ (Rect.block (s := S1x64) S1x64.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1x512x64.size a ≤ S8x2048x64.size a
  hwx0_15 : ∀ i : grid0.Coords, EltTy.bits .f32 = 32 ∨ (Rect.block (s := S8x2048x64) S1x512x64.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S1x512x128.size a ≤ S8x2048x128.size a
  hwx0_16 : ∀ i : grid0.Coords, EltTy.bits .f32 = 32 ∨ (Rect.block (s := S8x2048x128) S1x512x128.size (cc0_transform_16 i) (hinb0_16 i)).WholeWords (EltTy.packing .f32)

variable [Facts₀]

def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S512x64_S64x128_S512x128_1_0_0_1_n_n : DotDims S512x64 S64x128 S512x128 where
  lhsContracting := [1]
  rhsContracting := [0]
  lhsNonContracting := [0]
  rhsNonContracting := [1]
  lhsBatch := []
  rhsBatch := []
  wf := dot_S512x64_S64x128_S512x128_1_0_0_1_n_n_wf
def dot_S512x128_S128x2048_S512x2048_1_0_0_1_n_n : DotDims S512x128 S128x2048 S512x2048 where
  lhsContracting := [1]
  rhsContracting := [0]
  lhsNonContracting := [0]
  rhsNonContracting := [1]
  lhsBatch := []
  rhsBatch := []
  wf := dot_S512x128_S128x2048_S512x2048_1_0_0_1_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf

abbrev win0_0 : Pipeline.Window sig grid0 :=
  Pipeline.Window.ofSpec (Memref.whole main_arg0) S1x2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1) S128x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v2) S128x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v9) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v3) S128x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v10) S1x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v6) S64x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v12) S1x64.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v13_0) S1x512x64.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v13_1) S1x512x128.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S8x2048x128 : Shape := ⟨3, ![8, 2048, 128]⟩
abbrev S8x2048x64 : Shape := ⟨3, ![8, 2048, 64]⟩
abbrev S128x64 : Shape := ⟨2, ![128, 64]⟩
abbrev S128 : Shape := ⟨1, ![128]⟩
abbrev S128x128 : Shape := ⟨2, ![128, 128]⟩
abbrev S64x128 : Shape := ⟨2, ![64, 128]⟩
abbrev S64 : Shape := ⟨1, ![64]⟩
abbrev S1x1x128 : Shape := ⟨3, ![1, 1, 128]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩
abbrev S1x1x64 : Shape := ⟨3, ![1, 1, 64]⟩

abbrev nBuf : Space → Nat
  | .hbm => 89
  | .vmem => 0
  | .smem => 0
  | _ => 0

abbrev bufTy : (tb : Table) → Fin (tcTables nBuf tb) → BufTy
  | .hbm, ⟨0, _⟩ => ⟨S8x2048x128, .f32⟩
  | .hbm, ⟨1, _⟩ => ⟨S8x2048x64, .f32⟩
  | .hbm, ⟨2, _⟩ => ⟨S128x64, .f32⟩
  | .hbm, ⟨3, _⟩ => ⟨S128, .f32⟩
  | .hbm, ⟨4, _⟩ => ⟨S128x64, .f32⟩
  | .hbm, ⟨5, _⟩ => ⟨S128, .f32⟩
  | .hbm, ⟨6, _⟩ => ⟨S128x64, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x64, .f32⟩
  | .hbm, ⟨11, _⟩ => ⟨S128x128, .f32⟩
  | .hbm, ⟨12, _⟩ => ⟨S128, .f32⟩
  | .hbm, ⟨13, _⟩ => ⟨S64x128, .f32⟩
  | .hbm, ⟨14, _⟩ => ⟨S64, .f32⟩
  | .hbm, ⟨15, _⟩ => ⟨S8x2048x128, .f32⟩
  | .hbm, ⟨16, _⟩ => ⟨S8x2048x128, .f32⟩
  | .hbm, ⟨17, _⟩ => ⟨S1x1x128, .f32⟩
  | .hbm, ⟨18, _⟩ => ⟨S8x2048x128, .f32⟩
  | .hbm, ⟨19, _⟩ => ⟨S8x2048x128, .f32⟩
  | .hbm, ⟨20, _⟩ => ⟨S8x2048x2048, .f32⟩
  | .hbm, ⟨21, _⟩ => ⟨S_, .f32⟩
  | .hbm, ⟨22, _⟩ => ⟨S_, .f32⟩
  | .hbm, ⟨23, _⟩ => ⟨S8x2048x2048, .f32⟩
  | .hbm, ⟨24, _⟩ => ⟨S8x2048x2048, .i1⟩
  | .hbm, ⟨25, _⟩ => ⟨S_, .f32⟩
  | .hbm, ⟨26, _⟩ => ⟨S8x2048x2048, .f32⟩
  | .hbm, ⟨27, _⟩ => ⟨S8x2048x2048, .f32⟩
  | .hbm, ⟨28, _⟩ => ⟨S8x2048x2048, .f32⟩
  | .hbm, ⟨29, _⟩ => ⟨S_, .f32⟩
  | .hbm, ⟨30, _⟩ => ⟨S8x2048, .f32⟩
  | .hbm, ⟨31, _⟩ => ⟨S_, .f32⟩
  | .hbm, ⟨32, _⟩ => ⟨S8x2048, .f32⟩
  | .hbm, ⟨33, _⟩ => ⟨S8x2048, .f32⟩
  | .hbm, ⟨34, _⟩ => ⟨S8x2048x1, .f32⟩
  | .hbm, ⟨35, _⟩ => ⟨S8x2048x2048, .f32⟩
  | .hbm, ⟨36, _⟩ => ⟨S8x2048x2048, .f32⟩
  | .hbm, ⟨37, _⟩ => ⟨S8x2048x2048, .f32⟩
  | .hbm, ⟨38, _⟩ => ⟨S_, .f32⟩
  | .hbm, ⟨39, _⟩ => ⟨S8x2048, .f32⟩
  | .hbm, ⟨40, _⟩ => ⟨S8x2048x1, .f32⟩
  | .hbm, ⟨41, _⟩ => ⟨S8x2048x2048, .f32⟩
  | .hbm, ⟨42, _⟩ => ⟨S8x2048x2048, .f32⟩
  | .hbm, ⟨43, _⟩ => ⟨S8x2048x64, .f32⟩
  | .hbm, ⟨44, _⟩ => ⟨S8x2048x128, .f32⟩
  | .hbm, ⟨45, _⟩ => ⟨S1x1x128, .f32⟩
  | .hbm, ⟨46, _⟩ => ⟨S8x2048x128, .f32⟩
  | .hbm, ⟨47, _⟩ => ⟨S8x2048x128, .f32⟩
  | .hbm, ⟨48, _⟩ => ⟨S8x2048x128, .f32⟩
  | .hbm, ⟨49, _⟩ => ⟨S8x2048x128, .f32⟩
  | .hbm, ⟨50, _⟩ => ⟨S_, .f32⟩
  | .hbm, ⟨51, _⟩ => ⟨S8x2048x128, .f32⟩
  | .hbm, ⟨52, _⟩ => ⟨S8x2048x128, .f32⟩
  | .hbm, ⟨53, _⟩ => ⟨S_, .f32⟩
  | .hbm, ⟨54, _⟩ => ⟨S8x2048x128, .f32⟩
  | .hbm, ⟨55, _⟩ => ⟨S8x2048x128, .f32⟩
  | .hbm, ⟨56, _⟩ => ⟨S8x2048x128, .f32⟩
  | .hbm, ⟨57, _⟩ => ⟨S1x1x128, .f32⟩
  | .hbm, ⟨58, _⟩ => ⟨S8x2048x128, .f32⟩
  | .hbm, ⟨59, _⟩ => ⟨S8x2048x128, .f32⟩
  | .hbm, ⟨60, _⟩ => ⟨S8x2048x128, .f32⟩
  | .hbm, ⟨61, _⟩ => ⟨S8x2048x128, .f32⟩
  | .hbm, ⟨62, _⟩ => ⟨S_, .f32⟩
  | .hbm, ⟨63, _⟩ => ⟨S8x2048x128, .f32⟩
  | .hbm, ⟨64, _⟩ => ⟨S8x2048x128, .f32⟩
  | .hbm, ⟨65, _⟩ => ⟨S_, .f32⟩
  | .hbm, ⟨66, _⟩ => ⟨S8x2048x128, .f32⟩
  | .hbm, ⟨67, _⟩ => ⟨S8x2048x128, .f32⟩
  | .hbm, ⟨68, _⟩ => ⟨S8x2048x128, .f32⟩
  | .hbm, ⟨69, _⟩ => ⟨S1x1x128, .f32⟩
  | .hbm, ⟨70, _⟩ => ⟨S8x2048x128, .f32⟩
  | .hbm, ⟨71, _⟩ => ⟨S8x2048x128, .f32⟩
  | .hbm, ⟨72, _⟩ => ⟨S8x2048x128, .f32⟩
  | .hbm, ⟨73, _⟩ => ⟨S8x2048x128, .f32⟩
  | .hbm, ⟨74, _⟩ => ⟨S8x2048x128, .f32⟩
  | .hbm, ⟨75, _⟩ => ⟨S1x1x128, .f32⟩
  | .hbm, ⟨76, _⟩ => ⟨S8x2048x128, .f32⟩
  | .hbm, ⟨77, _⟩ => ⟨S8x2048x128, .f32⟩
  | .hbm, ⟨78, _⟩ => ⟨S8x2048x128, .f32⟩
  | .hbm, ⟨79, _⟩ => ⟨S8x2048x128, .f32⟩
  | .hbm, ⟨80, _⟩ => ⟨S_, .f32⟩
  | .hbm, ⟨81, _⟩ => ⟨S8x2048x128, .f32⟩
  | .hbm, ⟨82, _⟩ => ⟨S8x2048x128, .f32⟩
  | .hbm, ⟨83, _⟩ => ⟨S8x2048x128, .f32⟩
  | .hbm, ⟨84, _⟩ => ⟨S8x2048x128, .f32⟩
  | .hbm, ⟨85, _⟩ => ⟨S8x2048x64, .f32⟩
  | .hbm, ⟨86, _⟩ => ⟨S1x1x64, .f32⟩
  | .hbm, ⟨87, _⟩ => ⟨S8x2048x64, .f32⟩
  | .hbm, ⟨88, _⟩ => ⟨S8x2048x64, .f32⟩
  | _, _ => ⟨S8x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst : Ref sig .tc := ⟨.hbm, 21, rfl⟩
abbrev main_call0_cst : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v6 : Ref sig .tc := ⟨.hbm, 28, rfl⟩
abbrev main_cst_0 : Ref sig .tc := ⟨.hbm, 29, rfl⟩
abbrev main_v7 : Ref sig .tc := ⟨.hbm, 30, rfl⟩
abbrev main_cst_1 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_cst_2 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_cst_3 : Ref sig .tc := ⟨.hbm, 50, rfl⟩
abbrev main_v25 : Ref sig .tc := ⟨.hbm, 51, rfl⟩
abbrev main_v26 : Ref sig .tc := ⟨.hbm, 52, rfl⟩
abbrev main_cst_4 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_5 : Ref sig .tc := ⟨.hbm, 62, rfl⟩
abbrev main_v35 : Ref sig .tc := ⟨.hbm, 63, rfl⟩
abbrev main_v36 : Ref sig .tc := ⟨.hbm, 64, rfl⟩
abbrev main_cst_6 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_7 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S8x2048x128_0_1_2 : S1x1x128.BroadcastsInDim S8x2048x128 (![0, 1, 2] : Fin 3 → Fin S8x2048x128.rank)
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  bcast_S_S8x2048x128 : S_.BroadcastsInDim S8x2048x128 (![] : Fin 0 → Fin S8x2048x128.rank)
  bcast_S64_S1x1x64_2 : S64.BroadcastsInDim S1x1x64 (![2] : Fin 1 → Fin S1x1x64.rank)
  bcast_S1x1x64_S8x2048x64_0_1_2 : S1x1x64.BroadcastsInDim S8x2048x64 (![0, 1, 2] : Fin 3 → Fin S8x2048x64.rank)
  dot_S8x2048x64_S128x64_S8x2048x128_2_1_01_0_n_n_wf : DotDims.WF S8x2048x64 S128x64 S8x2048x128 [2] [1] [0, 1] [0] [] []
  dot_S8x2048x128_S128x128_S8x2048x128_2_1_01_0_n_n_wf : DotDims.WF S8x2048x128 S128x128 S8x2048x128 [2] [1] [0, 1] [0] [] []
  dot_S8x2048x128_S8x2048x128_S8x2048x2048_2_2_1_1_0_0_wf : DotDims.WF S8x2048x128 S8x2048x128 S8x2048x2048 [2] [2] [1] [1] [0] [0]
  dot_S8x2048x2048_S8x2048x64_S8x2048x64_2_1_1_2_0_0_wf : DotDims.WF S8x2048x2048 S8x2048x64 S8x2048x64 [2] [1] [1] [2] [0] [0]
  dot_S8x2048x128_S64x128_S8x2048x64_2_1_01_0_n_n_wf : DotDims.WF S8x2048x128 S64x128 S8x2048x64 [2] [1] [0, 1] [0] [] []

variable [Facts₀]

def dot_S8x2048x64_S128x64_S8x2048x128_2_1_01_0_n_n : DotDims S8x2048x64 S128x64 S8x2048x128 where
  lhsContracting := [2]
  rhsContracting := [1]
  lhsNonContracting := [0, 1]
  rhsNonContracting := [0]
  lhsBatch := []
  rhsBatch := []
  wf := dot_S8x2048x64_S128x64_S8x2048x128_2_1_01_0_n_n_wf
def dot_S8x2048x128_S128x128_S8x2048x128_2_1_01_0_n_n : DotDims S8x2048x128 S128x128 S8x2048x128 where
  lhsContracting := [2]
  rhsContracting := [1]
  lhsNonContracting := [0, 1]
  rhsNonContracting := [0]
  lhsBatch := []
  rhsBatch := []
  wf := dot_S8x2048x128_S128x128_S8x2048x128_2_1_01_0_n_n_wf
def dot_S8x2048x128_S8x2048x128_S8x2048x2048_2_2_1_1_0_0 : DotDims S8x2048x128 S8x2048x128 S8x2048x2048 where
  lhsContracting := [2]
  rhsContracting := [2]
  lhsNonContracting := [1]
  rhsNonContracting := [1]
  lhsBatch := [0]
  rhsBatch := [0]
  wf := dot_S8x2048x128_S8x2048x128_S8x2048x2048_2_2_1_1_0_0_wf
def dot_S8x2048x2048_S8x2048x64_S8x2048x64_2_1_1_2_0_0 : DotDims S8x2048x2048 S8x2048x64 S8x2048x64 where
  lhsContracting := [2]
  rhsContracting := [1]
  lhsNonContracting := [1]
  rhsNonContracting := [2]
  lhsBatch := [0]
  rhsBatch := [0]
  wf := dot_S8x2048x2048_S8x2048x64_S8x2048x64_2_1_1_2_0_0_wf
def dot_S8x2048x128_S64x128_S8x2048x64_2_1_01_0_n_n : DotDims S8x2048x128 S64x128 S8x2048x64 where
  lhsContracting := [2]
  rhsContracting := [1]
  lhsNonContracting := [0, 1]
  rhsNonContracting := [0]
  lhsBatch := []
  rhsBatch := []
  wf := dot_S8x2048x128_S64x128_S8x2048x64_2_1_01_0_n_n_wf

class Facts : Prop extends Facts₀ where

variable [Facts]
-- ==== Proof.KPieces.lean ====
/-
  What one grid point leaves in the two output blocks and in the cached key rows, as values.

  A point's body loads the resident blocks whole, loads the 512 rows of the state block and of the input block that
  belong to its query tile, reads the cached key rows, and stores one block of new state and one block of output.
  At the first tile of a batch it first stores the key rows (one function of the state block, Wha2 and its bias) and
  then reads them back; at the other tiles it reads what the point before left. So both kinds of point leave the same
  two functions of the blocks and of the key rows they read (`tileH`, `tileY`); they differ only in which key rows
  those are.
-/
import proofs.«154985_j72576357368188_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.KPieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The query tile's 512 rows of the resident state block, and of the resident input block. -/
def qH (i : grid0.Coords) (x0 : Vec F S1x2048x128 .f32) : Vec F S1x512x128 .f32 :=
  View.ld x0 (Rect.unit (s := S1x2048x128) (k0_off2 i) S1x512x128.size (k0_off2_inb i))
def qX (i : grid0.Coords) (x1 : Vec F S1x2048x64 .f32) : Vec F S1x512x64 .f32 :=
  View.ld x1 (Rect.unit (s := S1x2048x64) (k0_off1 i) S1x512x64.size (k0_off1_inb i))

/-- The softmax weights of the tile's rows against the key rows `s`, and the two gates. -/
def tileAttn (i : grid0.Coords) (x1 : Vec F S1x2048x64 .f32) (x2 : Vec F S128x64 .bf16) (s : Vec F S2048x128 .bf16) :
    FVec F S512x2048 .bf16 := k0_pay8 (qX i x1) x2 s
def tileR (i : grid0.Coords) (x1 : Vec F S1x2048x64 .f32) (x2 : Vec F S128x64 .bf16) (x5 : Vec F S128x64 .bf16)
    (x6 : Vec F S1x128 .f32) (s : Vec F S2048x128 .bf16) : FVec F S512x128 .f32 :=
  k0_pay15 (k0_pay7 x1) (tileAttn i x1 x2 s) x5 x6
def tileZ (i : grid0.Coords) (x1 : Vec F S1x2048x64 .f32) (x2 : Vec F S128x64 .bf16) (x7 : Vec F S128x64 .bf16)
    (x8 : Vec F S1x128 .f32) (s : Vec F S2048x128 .bf16) : FVec F S512x128 .f32 :=
  k0_pay16 (k0_pay7 x1) (tileAttn i x1 x2 s) x7 x8

/-- The block of new state and the block of output the point stores. -/
def tileH (i : grid0.Coords) (x0 : Vec F S1x2048x128 .f32) (x1 : Vec F S1x2048x64 .f32) (x2 : Vec F S128x64 .bf16) (x5 : Vec F S128x64 .bf16) (x6 : Vec F S1x128 .f32) (x7 : Vec F S128x64 .bf16) (x8 : Vec F S1x128 .f32) (x9 : Vec F S128x64 .bf16) (x10 : Vec F S1x128 .f32) (x11 : Vec F S128x128 .bf16) (x12 : Vec F S1x128 .f32) (x13 : Vec F S64x128 .bf16) (x14 : Vec F S1x64 .f32) (s : Vec F S2048x128 .bf16) : Vec F S1x512x128 .f32 :=
  k0_pay3 (k0_pay6 (qH i x0)) (k0_pay10 x10) (k0_pay11 x11) (k0_pay12 x12) (tileR i x1 x2 x5 x6 s) (tileZ i x1 x2 x7 x8 s)
    (k0_pay17 (k0_pay5 (qX i x1))) (k0_pay18 x9) (constant S512x128 .f32 0x00000000#32)
def tileY (i : grid0.Coords) (x0 : Vec F S1x2048x128 .f32) (x1 : Vec F S1x2048x64 .f32) (x2 : Vec F S128x64 .bf16) (x5 : Vec F S128x64 .bf16) (x6 : Vec F S1x128 .f32) (x7 : Vec F S128x64 .bf16) (x8 : Vec F S1x128 .f32) (x9 : Vec F S128x64 .bf16) (x10 : Vec F S1x128 .f32) (x11 : Vec F S128x128 .bf16) (x12 : Vec F S1x128 .f32) (x13 : Vec F S64x128 .bf16) (x14 : Vec F S1x64 .f32) (s : Vec F S2048x128 .bf16) : Vec F S1x512x64 .f32 :=
  k0_pay2 (k0_pay6 (qH i x0)) (k0_pay10 x10) (k0_pay11 x11) (k0_pay12 x12) (k0_pay13 x13) (k0_pay14 x14)
    (tileR i x1 x2 x5 x6 s) (tileZ i x1 x2 x7 x8 s) (k0_pay17 (k0_pay5 (qX i x1))) (k0_pay18 x9)
    (constant S512x128 .f32 0x00000000#32)

/-- At a batch's first tile the point leaves, as key rows, the function of the state block, Wha2 and the bias. -/
theorem sout_A (c : Dev nD) (i : grid0.Coords) (arg2 : Memref sig .tc .vmem S1x2048x128 .f32) (harg2 : arg2.IsWhole) (arg3 : Memref sig .tc .vmem S1x2048x64 .f32) (harg3 : arg3.IsWhole) (arg4 : Memref sig .tc .vmem S128x64 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S128x64 .bf16) (harg7 : arg7.IsWhole) (arg8 : Memref sig .tc .vmem S1x128 .f32) (harg8 : arg8.IsWhole) (arg9 : Memref sig .tc .vmem S128x64 .bf16) (harg9 : arg9.IsWhole) (arg10 : Memref sig .tc .vmem S1x128 .f32) (harg10 : arg10.IsWhole) (arg11 : Memref sig .tc .vmem S128x64 .bf16) (harg11 : arg11.IsWhole) (arg12 : Memref sig .tc .vmem S1x128 .f32) (harg12 : arg12.IsWhole) (arg13 : Memref sig .tc .vmem S128x128 .bf16) (harg13 : arg13.IsWhole) (arg14 : Memref sig .tc .vmem S1x128 .f32) (harg14 : arg14.IsWhole) (arg15 : Memref sig .tc .vmem S64x128 .bf16) (harg15 : arg15.IsWhole) (arg16 : Memref sig .tc .vmem S1x64 .f32) (harg16 : arg16.IsWhole) (arg17 : Memref sig .tc .vmem S1x512x64 .f32) (harg17 : arg17.IsWhole) (arg18 : Memref sig .tc .vmem S1x512x128 .f32) (harg18 : arg18.IsWhole) (arg19 : Memref sig .tc .vmem S2048x128 .bf16) (harg19 : arg19.IsWhole) (hc0 : cond0_0 i)
    (x0 : Vec F S1x2048x128 .f32) (x1 : Vec F S1x2048x64 .f32) (x2 : Vec F S128x64 .bf16) (x3 : Vec F S128x128 .bf16) (x4 : Vec F S1x128 .f32) (x5 : Vec F S128x64 .bf16) (x6 : Vec F S1x128 .f32) (x7 : Vec F S128x64 .bf16) (x8 : Vec F S1x128 .f32) (x9 : Vec F S128x64 .bf16) (x10 : Vec F S1x128 .f32) (x11 : Vec F S128x128 .bf16) (x12 : Vec F S1x128 .f32) (x13 : Vec F S64x128 .bf16) (x14 : Vec F S1x64 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 = k0_pay4 x0 x3 x4 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14)]
  unfold kernelRun0_A
  dsimp only
  sl_unfold_run_names
  rw [View.canon_unit_zero (S := S2048x128) hz2]
  simp only [View.readAt_eq_ld, harg2.read_unread, harg3.read_unread, harg4.read_unread, harg5.read_unread, harg6.read_unread,
    harg7.read_unread, harg8.read_unread, harg9.read_unread, harg10.read_unread, harg11.read_unread, harg12.read_unread,
    harg13.read_unread, harg14.read_unread, harg15.read_unread, harg16.read_unread,
    View.ld_unit_zero (S := S1x2048x128) hz3, View.ld_unit_zero (S := S1x2048x64) hz3, View.ld_unit_zero (S := S128x64) hz2,
    View.ld_unit_zero (S := S128x128) hz2, View.ld_unit_zero (S := S1x128) hz2, View.ld_unit_zero (S := S64x128) hz2,
    View.ld_unit_zero (S := S1x64) hz2, View.ld_unit_zero (S := S2048x128) hz2]

/-- … and stores the tile's new state and output over the key rows it has just stored. -/
theorem out16_A (c : Dev nD) (i : grid0.Coords) (arg2 : Memref sig .tc .vmem S1x2048x128 .f32) (harg2 : arg2.IsWhole) (arg3 : Memref sig .tc .vmem S1x2048x64 .f32) (harg3 : arg3.IsWhole) (arg4 : Memref sig .tc .vmem S128x64 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S128x64 .bf16) (harg7 : arg7.IsWhole) (arg8 : Memref sig .tc .vmem S1x128 .f32) (harg8 : arg8.IsWhole) (arg9 : Memref sig .tc .vmem S128x64 .bf16) (harg9 : arg9.IsWhole) (arg10 : Memref sig .tc .vmem S1x128 .f32) (harg10 : arg10.IsWhole) (arg11 : Memref sig .tc .vmem S128x64 .bf16) (harg11 : arg11.IsWhole) (arg12 : Memref sig .tc .vmem S1x128 .f32) (harg12 : arg12.IsWhole) (arg13 : Memref sig .tc .vmem S128x128 .bf16) (harg13 : arg13.IsWhole) (arg14 : Memref sig .tc .vmem S1x128 .f32) (harg14 : arg14.IsWhole) (arg15 : Memref sig .tc .vmem S64x128 .bf16) (harg15 : arg15.IsWhole) (arg16 : Memref sig .tc .vmem S1x64 .f32) (harg16 : arg16.IsWhole) (arg17 : Memref sig .tc .vmem S1x512x64 .f32) (harg17 : arg17.IsWhole) (arg18 : Memref sig .tc .vmem S1x512x128 .f32) (harg18 : arg18.IsWhole) (arg19 : Memref sig .tc .vmem S2048x128 .bf16) (harg19 : arg19.IsWhole) (hc0 : cond0_0 i)
    (x0 : Vec F S1x2048x128 .f32) (x1 : Vec F S1x2048x64 .f32) (x2 : Vec F S128x64 .bf16) (x3 : Vec F S128x128 .bf16) (x4 : Vec F S1x128 .f32) (x5 : Vec F S128x64 .bf16) (x6 : Vec F S1x128 .f32) (x7 : Vec F S128x64 .bf16) (x8 : Vec F S1x128 .f32) (x9 : Vec F S128x64 .bf16) (x10 : Vec F S1x128 .f32) (x11 : Vec F S128x128 .bf16) (x12 : Vec F S1x128 .f32) (x13 : Vec F S64x128 .bf16) (x14 : Vec F S1x64 .f32) :
    out0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 = tileH i x0 x1 x2 x5 x6 x7 x8 x9 x10 x11 x12 x13 x14 (k0_pay4 x0 x3 x4) := by
  unfold out0_A_16
  rw [View.read_writes_eq_canon _ _ _ (cover0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14)]
  unfold kernelRun0_A
  dsimp only
  sl_unfold_run_names
  rw [View.canon_unit_zero (S := S1x512x128) hz3]
  simp only [View.readAt_eq_ld, harg2.read_unread, harg3.read_unread, harg4.read_unread, harg5.read_unread, harg6.read_unread,
    harg7.read_unread, harg8.read_unread, harg9.read_unread, harg10.read_unread, harg11.read_unread, harg12.read_unread,
    harg13.read_unread, harg14.read_unread, harg15.read_unread, harg16.read_unread,
    View.ld_unit_zero (S := S1x2048x128) hz3, View.ld_unit_zero (S := S1x2048x64) hz3, View.ld_unit_zero (S := S128x64) hz2,
    View.ld_unit_zero (S := S128x128) hz2, View.ld_unit_zero (S := S1x128) hz2, View.ld_unit_zero (S := S64x128) hz2,
    View.ld_unit_zero (S := S1x64) hz2, View.ld_unit_zero (S := S2048x128) hz2]
  simp only [View.readCov_unit_zero (S := S2048x128) _ hz2]
  rfl

theorem out15_A (c : Dev nD) (i : grid0.Coords) (arg2 : Memref sig .tc .vmem S1x2048x128 .f32) (harg2 : arg2.IsWhole) (arg3 : Memref sig .tc .vmem S1x2048x64 .f32) (harg3 : arg3.IsWhole) (arg4 : Memref sig .tc .vmem S128x64 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S128x64 .bf16) (harg7 : arg7.IsWhole) (arg8 : Memref sig .tc .vmem S1x128 .f32) (harg8 : arg8.IsWhole) (arg9 : Memref sig .tc .vmem S128x64 .bf16) (harg9 : arg9.IsWhole) (arg10 : Memref sig .tc .vmem S1x128 .f32) (harg10 : arg10.IsWhole) (arg11 : Memref sig .tc .vmem S128x64 .bf16) (harg11 : arg11.IsWhole) (arg12 : Memref sig .tc .vmem S1x128 .f32) (harg12 : arg12.IsWhole) (arg13 : Memref sig .tc .vmem S128x128 .bf16) (harg13 : arg13.IsWhole) (arg14 : Memref sig .tc .vmem S1x128 .f32) (harg14 : arg14.IsWhole) (arg15 : Memref sig .tc .vmem S64x128 .bf16) (harg15 : arg15.IsWhole) (arg16 : Memref sig .tc .vmem S1x64 .f32) (harg16 : arg16.IsWhole) (arg17 : Memref sig .tc .vmem S1x512x64 .f32) (harg17 : arg17.IsWhole) (arg18 : Memref sig .tc .vmem S1x512x128 .f32) (harg18 : arg18.IsWhole) (arg19 : Memref sig .tc .vmem S2048x128 .bf16) (harg19 : arg19.IsWhole) (hc0 : cond0_0 i)
    (x0 : Vec F S1x2048x128 .f32) (x1 : Vec F S1x2048x64 .f32) (x2 : Vec F S128x64 .bf16) (x3 : Vec F S128x128 .bf16) (x4 : Vec F S1x128 .f32) (x5 : Vec F S128x64 .bf16) (x6 : Vec F S1x128 .f32) (x7 : Vec F S128x64 .bf16) (x8 : Vec F S1x128 .f32) (x9 : Vec F S128x64 .bf16) (x10 : Vec F S1x128 .f32) (x11 : Vec F S128x128 .bf16) (x12 : Vec F S1x128 .f32) (x13 : Vec F S64x128 .bf16) (x14 : Vec F S1x64 .f32) :
    out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 = tileY i x0 x1 x2 x5 x6 x7 x8 x9 x10 x11 x12 x13 x14 (k0_pay4 x0 x3 x4) := by
  unfold out0_A_15
  rw [View.read_writes_eq_canon _ _ _ (cover0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14)]
  unfold kernelRun0_A
  dsimp only
  sl_unfold_run_names
  rw [View.canon_unit_zero (S := S1x512x64) hz3]
  simp only [View.readAt_eq_ld, harg2.read_unread, harg3.read_unread, harg4.read_unread, harg5.read_unread, harg6.read_unread,
    harg7.read_unread, harg8.read_unread, harg9.read_unread, harg10.read_unread, harg11.read_unread, harg12.read_unread,
    harg13.read_unread, harg14.read_unread, harg15.read_unread, harg16.read_unread,
    View.ld_unit_zero (S := S1x2048x128) hz3, View.ld_unit_zero (S := S1x2048x64) hz3, View.ld_unit_zero (S := S128x64) hz2,
    View.ld_unit_zero (S := S128x128) hz2, View.ld_unit_zero (S := S1x128) hz2, View.ld_unit_zero (S := S64x128) hz2,
    View.ld_unit_zero (S := S1x64) hz2, View.ld_unit_zero (S := S2048x128) hz2]
  simp only [View.readCov_unit_zero (S := S2048x128) _ hz2]
  rfl

/-- At the other tiles the point stores the same two functions, over the key rows the point before left. -/
theorem out16_B (c : Dev nD) (i : grid0.Coords) (arg2 : Memref sig .tc .vmem S1x2048x128 .f32) (harg2 : arg2.IsWhole) (arg3 : Memref sig .tc .vmem S1x2048x64 .f32) (harg3 : arg3.IsWhole) (arg4 : Memref sig .tc .vmem S128x64 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S128x64 .bf16) (harg7 : arg7.IsWhole) (arg8 : Memref sig .tc .vmem S1x128 .f32) (harg8 : arg8.IsWhole) (arg9 : Memref sig .tc .vmem S128x64 .bf16) (harg9 : arg9.IsWhole) (arg10 : Memref sig .tc .vmem S1x128 .f32) (harg10 : arg10.IsWhole) (arg11 : Memref sig .tc .vmem S128x64 .bf16) (harg11 : arg11.IsWhole) (arg12 : Memref sig .tc .vmem S1x128 .f32) (harg12 : arg12.IsWhole) (arg13 : Memref sig .tc .vmem S128x128 .bf16) (harg13 : arg13.IsWhole) (arg14 : Memref sig .tc .vmem S1x128 .f32) (harg14 : arg14.IsWhole) (arg15 : Memref sig .tc .vmem S64x128 .bf16) (harg15 : arg15.IsWhole) (arg16 : Memref sig .tc .vmem S1x64 .f32) (harg16 : arg16.IsWhole) (arg17 : Memref sig .tc .vmem S1x512x64 .f32) (harg17 : arg17.IsWhole) (arg18 : Memref sig .tc .vmem S1x512x128 .f32) (harg18 : arg18.IsWhole) (arg19 : Memref sig .tc .vmem S2048x128 .bf16) (harg19 : arg19.IsWhole) (hc0 : ¬cond0_0 i)
    (x0 : Vec F S1x2048x128 .f32) (x1 : Vec F S1x2048x64 .f32) (x2 : Vec F S128x64 .bf16) (x3 : Vec F S128x128 .bf16) (x4 : Vec F S1x128 .f32) (x5 : Vec F S128x64 .bf16) (x6 : Vec F S1x128 .f32) (x7 : Vec F S128x64 .bf16) (x8 : Vec F S1x128 .f32) (x9 : Vec F S128x64 .bf16) (x10 : Vec F S1x128 .f32) (x11 : Vec F S128x128 .bf16) (x12 : Vec F S1x128 .f32) (x13 : Vec F S64x128 .bf16) (x14 : Vec F S1x64 .f32) (xs0 : Vec F S2048x128 .bf16) :
    out0_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 xs0 = tileH i x0 x1 x2 x5 x6 x7 x8 x9 x10 x11 x12 x13 x14 xs0 := by
  unfold out0_B_16
  rw [View.read_writes_eq_canon _ _ _ (cover0_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 xs0)]
  unfold kernelRun0_B
  dsimp only
  sl_unfold_run_names
  rw [View.canon_unit_zero (S := S1x512x128) hz3]
  simp only [View.readAt_eq_ld, harg2.read_unread, harg3.read_unread, harg4.read_unread, harg5.read_unread, harg6.read_unread,
    harg7.read_unread, harg8.read_unread, harg9.read_unread, harg10.read_unread, harg11.read_unread, harg12.read_unread,
    harg13.read_unread, harg14.read_unread, harg15.read_unread, harg16.read_unread, harg19.read_unread,
    View.ld_unit_zero (S := S1x2048x128) hz3, View.ld_unit_zero (S := S1x2048x64) hz3, View.ld_unit_zero (S := S128x64) hz2,
    View.ld_unit_zero (S := S128x128) hz2, View.ld_unit_zero (S := S1x128) hz2, View.ld_unit_zero (S := S64x128) hz2,
    View.ld_unit_zero (S := S1x64) hz2, View.ld_unit_zero (S := S2048x128) hz2]
  rfl

theorem out15_B (c : Dev nD) (i : grid0.Coords) (arg2 : Memref sig .tc .vmem S1x2048x128 .f32) (harg2 : arg2.IsWhole) (arg3 : Memref sig .tc .vmem S1x2048x64 .f32) (harg3 : arg3.IsWhole) (arg4 : Memref sig .tc .vmem S128x64 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S128x64 .bf16) (harg7 : arg7.IsWhole) (arg8 : Memref sig .tc .vmem S1x128 .f32) (harg8 : arg8.IsWhole) (arg9 : Memref sig .tc .vmem S128x64 .bf16) (harg9 : arg9.IsWhole) (arg10 : Memref sig .tc .vmem S1x128 .f32) (harg10 : arg10.IsWhole) (arg11 : Memref sig .tc .vmem S128x64 .bf16) (harg11 : arg11.IsWhole) (arg12 : Memref sig .tc .vmem S1x128 .f32) (harg12 : arg12.IsWhole) (arg13 : Memref sig .tc .vmem S128x128 .bf16) (harg13 : arg13.IsWhole) (arg14 : Memref sig .tc .vmem S1x128 .f32) (harg14 : arg14.IsWhole) (arg15 : Memref sig .tc .vmem S64x128 .bf16) (harg15 : arg15.IsWhole) (arg16 : Memref sig .tc .vmem S1x64 .f32) (harg16 : arg16.IsWhole) (arg17 : Memref sig .tc .vmem S1x512x64 .f32) (harg17 : arg17.IsWhole) (arg18 : Memref sig .tc .vmem S1x512x128 .f32) (harg18 : arg18.IsWhole) (arg19 : Memref sig .tc .vmem S2048x128 .bf16) (harg19 : arg19.IsWhole) (hc0 : ¬cond0_0 i)
    (x0 : Vec F S1x2048x128 .f32) (x1 : Vec F S1x2048x64 .f32) (x2 : Vec F S128x64 .bf16) (x3 : Vec F S128x128 .bf16) (x4 : Vec F S1x128 .f32) (x5 : Vec F S128x64 .bf16) (x6 : Vec F S1x128 .f32) (x7 : Vec F S128x64 .bf16) (x8 : Vec F S1x128 .f32) (x9 : Vec F S128x64 .bf16) (x10 : Vec F S1x128 .f32) (x11 : Vec F S128x128 .bf16) (x12 : Vec F S1x128 .f32) (x13 : Vec F S64x128 .bf16) (x14 : Vec F S1x64 .f32) (xs0 : Vec F S2048x128 .bf16) :
    out0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 xs0 = tileY i x0 x1 x2 x5 x6 x7 x8 x9 x10 x11 x12 x13 x14 xs0 := by
  unfold out0_B_15
  rw [View.read_writes_eq_canon _ _ _ (cover0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 xs0)]
  unfold kernelRun0_B
  dsimp only
  sl_unfold_run_names
  rw [View.canon_unit_zero (S := S1x512x64) hz3]
  simp only [View.readAt_eq_ld, harg2.read_unread, harg3.read_unread, harg4.read_unread, harg5.read_unread, harg6.read_unread,
    harg7.read_unread, harg8.read_unread, harg9.read_unread, harg10.read_unread, harg11.read_unread, harg12.read_unread,
    harg13.read_unread, harg14.read_unread, harg15.read_unread, harg16.read_unread, harg19.read_unread,
    View.ld_unit_zero (S := S1x2048x128) hz3, View.ld_unit_zero (S := S1x2048x64) hz3, View.ld_unit_zero (S := S128x64) hz2,
    View.ld_unit_zero (S := S128x128) hz2, View.ld_unit_zero (S := S1x128) hz2, View.ld_unit_zero (S := S64x128) hz2,
    View.ld_unit_zero (S := S1x64) hz2, View.ld_unit_zero (S := S2048x128) hz2]
  rfl

end Cert.KernelIdeal.KPieces

end
-- ==== Proof.LibDot.lean ====
/-
  Two reads at an index, for tables of any size.

  A matrix product. A product of an m × n table with an n × p table, as the dimension records of this certificate
  describe it (rows free on the left, columns free on the right, one contracted axis, no batch axis), sums over the
  positions of the contracted axis; entry (a, b) is  Σ_k l(a, k) · r(k, b)  with k running over `Fin n`. The sum
  over the record's own contraction index type is carried to `Fin n` along the bijection that reads its one
  coordinate.

  A vector along the rows. A vector b of n entries laid along each of m rows has entry b(j) at (r, j), whether it is
  laid by casting it to one row and repeating the row, or by placing it along axis 1 of a one-row table that is then
  repeated.
-/
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws

noncomputable section

open scoped BigOperators

namespace Cert.Sage.LibDot

open Idealize.ShloMosaic Idealize.ShloMosaic.ValueIdx

/-- Entry (a, b) of a plain product as a sum over the contracted axis' positions `k : Fin n`: the record contracts one
    axis of extent n (`hr`, `hs`), its left index at output (a, b) and contraction position q is (a, q) and its
    right index (q, b) (`hl0` … `hr1`, coordinate by coordinate). -/
theorem sum_plain {m n p : Nat} (d : DotDims ⟨2, ![m, n]⟩ ⟨2, ![n, p]⟩ ⟨2, ![m, p]⟩)
    (hr : d.contr.rank = 1) (hs : d.contr.size ⟨0, by omega⟩ = n)
    (hl0 : ∀ (i : (⟨2, ![m, p]⟩ : Shape).Idx) (q : d.contr.Idx), (d.lhsIdx i q 0).val = (i 0).val)
    (hl1 : ∀ (i : (⟨2, ![m, p]⟩ : Shape).Idx) (q : d.contr.Idx), (d.lhsIdx i q 1).val = (q ⟨0, by omega⟩).val)
    (hr0 : ∀ (i : (⟨2, ![m, p]⟩ : Shape).Idx) (q : d.contr.Idx), (d.rhsIdx i q 0).val = (q ⟨0, by omega⟩).val)
    (hr1 : ∀ (i : (⟨2, ![m, p]⟩ : Shape).Idx) (q : d.contr.Idx), (d.rhsIdx i q 1).val = (i 1).val)
    (l : (⟨2, ![m, n]⟩ : Shape).Idx → EReal) (r : (⟨2, ![n, p]⟩ : Shape).Idx → EReal) (a : Fin m) (b : Fin p) :
    ∑ k : d.contr.Idx, l (d.lhsIdx (ix2 a b) k) * r (d.rhsIdx (ix2 a b) k) = ∑ k : Fin n, l (ix2 a k) * r (ix2 k b) := by
  rw [← Equiv.sum_comp (contrEquiv1 d n hr hs).symm]
  refine Finset.sum_congr rfl fun k _ => ?_
  have hk := contrEquiv1_symm_val d n hr hs k
  have el : d.lhsIdx (ix2 a b) ((contrEquiv1 d n hr hs).symm k) = ix2 a k := funext fun x => Fin.ext (by
    match x with
    | ⟨0, _⟩ => exact hl0 _ _
    | ⟨1, _⟩ => exact (hl1 _ _).trans hk)
  have er : d.rhsIdx (ix2 a b) ((contrEquiv1 d n hr hs).symm k) = ix2 k b := funext fun x => Fin.ext (by
    match x with
    | ⟨0, _⟩ => exact (hr0 _ _).trans hk
    | ⟨1, _⟩ => exact hr1 _ _)
  rw [el, er]

variable {α : Type}

/-- A vector cast to one row and the row repeated down m rows: entry (r, j) is the vector's entry j. -/
theorem row_cast_apply {m n : Nat} (x : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (r : Fin m) (j : Fin n) :
    broadcastTo ⟨2, ![m, n]⟩ (shapeCast ⟨2, ![1, n]⟩ x h1) hb (ix2 r j) = x (ix1 j) := by
  have e1 := broadcastTo_apply (shapeCast ⟨2, ![1, n]⟩ x h1) hb (ix2 r j) (ix2 (0 : Fin 1) j) (by
    intro a
    match a with
    | ⟨0, _⟩ => rfl
    | ⟨1, _⟩ =>
      show j.val = if n = 1 then 0 else j.val
      split
      · have := j.isLt; omega
      · rfl)
  have e2 := shapeCast_apply x h1 (ix2 (0 : Fin 1) j) (ix1 j) (by
    rw [Shape.rowMajor_val_two, Shape.rowMajor_val_one]; show j.val = 0 * n + j.val; omega)
  exact e1.trans e2

/-- A vector placed along axis 1 of a one-row table and the table repeated down m rows: entry (r, j) is the vector's
    entry j. -/
theorem row_dims_apply {m n : Nat} (x : (⟨1, ![n]⟩ : Shape).Idx → α)
    (hd : (⟨1, ![n]⟩ : Shape).BroadcastsInDim ⟨2, ![1, n]⟩ ![1])
    (hbc : (⟨2, ![1, n]⟩ : Shape).BroadcastsInDim ⟨2, ![m, n]⟩ ![0, 1]) (r : Fin m) (j : Fin n) :
    broadcastInDim ⟨2, ![m, n]⟩ ![0, 1] hbc (broadcastInDim ⟨2, ![1, n]⟩ ![1] hd x) (ix2 r j) = x (ix1 j) := by
  rw [broadcastInDim_oneRow_apply]
  refine broadcastInDim_apply ![1] hd x (ix2 (0 : Fin 1) j) (ix1 j) ?_
  intro a
  match a with
  | ⟨0, _⟩ =>
    show j.val = if n = 1 then 0 else j.val
    split
    · have := j.isLt; omega
    · rfl

end Cert.Sage.LibDot

end
-- ==== Proof.KLayout.lean ====
/-
  Reads at an index for tables of any size, on the extended reals where arithmetic enters:
    * a vector of a entries set up as a column [a, 1], and a column repeated along b columns;
    * the sum and the maximum of each row of an [a, b] table, as a sum and a fold of max over the row's b positions;
    * entry (i, j) of a plain product [m, n] · [n, p] accumulated from zero, as the sum over the n contracted positions.
-/
import Idealize.ShloMosaic.Lib.ValueIdx
import Idealize.ShloMosaic.Lib.ValueLayout
import Idealize.ShloMosaic.Lib.Pipeline.Value
import Idealize.ShloMosaic.PureOps.Ideal.Laws
import proofs.«154985_j72576357368188_2_alg».proof.Proof.LibDot

noncomputable section

open scoped BigOperators

namespace Cert.KLayout

open Idealize.ShloMosaic Idealize.ShloMosaic.ValueIdx

variable {α : Type}

/-- A vector set up as a column: entry (i, u) of the [a, 1] table is the vector's entry i. -/
theorem col_cast_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column repeated along b columns: entry (p, c) is the column's entry p. -/
theorem col_bcast_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index of an [a, b] table that lies over row r at position k of the reduced axis is (r, k). -/
theorem lift_row {a b : ℕ} (h : (⟨2, ![a, b]⟩ : Shape).Reduces [1] ⟨1, ![a]⟩) (r : Fin a) (k : Fin b) :
    h.lift (ix1 r) k = ix2 r k := by
  funext c
  apply Fin.ext
  match c with
  | ⟨0, _⟩ => rfl
  | ⟨1, _⟩ => rfl

/-- A row's sum: the reduction of an [a, b] table along its second axis, read at row r. -/
theorem rowSum_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.add.neutral .f32 hφ) (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (lift_row h r k))

/-- A row's maximum: the fold of max, from the starting word's value, over the row's positions. -/
theorem rowMax_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.maximumf.neutral .f32 hφ) (r : Fin a) :
    multiReduction .maximumf [1] ⟨1, ![a]⟩ src acc h hφ hacc (ix1 r)
      = (Finset.univ : Finset (Fin b)).fold max (Ideal.ofBits .f32 acc) (fun k => src (ix2 r k)) :=
  (Ideal.multiReduction_maximumf_single src acc h hφ hacc (ix1 r)).trans
    (congrArg (fun f => (Finset.univ : Finset (Fin b)).fold max (Ideal.ofBits .f32 acc) f)
      (funext fun k => congrArg src (lift_row h r k)))

/-- Entry (i, j) of a plain product accumulated from zero: the sum over the contracted positions. The record contracts
    one axis of extent n; its left index at output (i, j) and position q is (i, q), its right index (q, j). -/
theorem matmul_plain_apply {m n p : ℕ} {φ₁ φ₂ : FTy} (d : DotDims ⟨2, ![m, n]⟩ ⟨2, ![n, p]⟩ ⟨2, ![m, p]⟩)
    (hr : d.contr.rank = 1) (hs : d.contr.size ⟨0, by omega⟩ = n)
    (hl0 : ∀ (i : (⟨2, ![m, p]⟩ : Shape).Idx) (q : d.contr.Idx), (d.lhsIdx i q 0).val = (i 0).val)
    (hl1 : ∀ (i : (⟨2, ![m, p]⟩ : Shape).Idx) (q : d.contr.Idx), (d.lhsIdx i q 1).val = (q ⟨0, by omega⟩).val)
    (hr0 : ∀ (i : (⟨2, ![m, p]⟩ : Shape).Idx) (q : d.contr.Idx), (d.rhsIdx i q 0).val = (q ⟨0, by omega⟩).val)
    (hr1 : ∀ (i : (⟨2, ![m, p]⟩ : Shape).Idx) (q : d.contr.Idx), (d.rhsIdx i q 1).val = (i 1).val)
    (prec : Option ContractPrecision)
    (l : FVec Ideal ⟨2, ![m, n]⟩ φ₁) (r : FVec Ideal ⟨2, ![n, p]⟩ φ₂) (i : Fin m) (j : Fin p) :
    matmul d prec l r (constant ⟨2, ![m, p]⟩ .f32 0x00000000#32) (ix2 i j) = ∑ k : Fin n, l (ix2 i k) * r (ix2 k j) :=
  (Ideal.matmul_constant_zero_apply d prec l r (ix2 i j)).trans
    (Cert.Sage.LibDot.sum_plain d hr hs hl0 hl1 hr0 hr1 l r i j)

end Cert.KLayout

end
-- ==== Proof.Spec.lean ====
/-
  The layer both programs compute, written once as a function of the fifteen argument arrays, entry by entry, on
  the extended reals.

  For a batch b and a row n of that batch:
    * a query row  lhs(b,n,·) = X(b,n,·)·Wha1ᵀ  and key rows  rhs(b,m,·) = Hp(b,m,·)·Wha2ᵀ + bha2;
    * scores  score(b,n,m) = ⟨lhs(b,n,·), rhs(b,m,·)⟩, passed through the leaky rectifier with slope c01;
    * a softmax over m: subtract the row maximum, exponentiate, divide by the row's sum;
    * the attended input  ctx(b,n,·) = Σ_m attn(b,n,m)·X(b,m,·);
    * two logistic gates of ctx, gateR and gateZ; a candidate state tanh(X·Wxhᵀ + bxh + (gateR⊙Hp)·Whhᵀ + bhh);
    * the new state  newH = gateZ⊙Hp + (1 − gateZ)⊙cand  and the output  outY = newH·Wyᵀ + by.
  Every sum is a finite sum over a literal index range; nothing here asks the entries to be finite.
  The literals stay the words the programs print (slope, −∞ as the maximum's start, 1): both programs print the same
  words, so they are never evaluated.
-/
import Idealize.ShloMosaic.PureOps.Ideal
import Idealize.ShloMosaic.Lib.ValueIdx

noncomputable section

open scoped BigOperators

namespace Cert.Spec

open Idealize.ShloMosaic Idealize.ShloMosaic.ValueIdx

/-- Arrays of rank 3, 2 and 1 over literal extents, with extended-real entries. -/
abbrev T3 (a b c : Nat) : Type := (⟨3, ![a, b, c]⟩ : Shape).Idx → EReal
abbrev T2 (a b : Nat) : Type := (⟨2, ![a, b]⟩ : Shape).Idx → EReal
abbrev T1 (a : Nat) : Type := (⟨1, ![a]⟩ : Shape).Idx → EReal

/-- The fifteen argument arrays, in the programs' argument order. -/
structure Args where
  Hp : T3 8 2048 128
  X : T3 8 2048 64
  Wxr : T2 128 64
  bxr : T1 128
  Wxz : T2 128 64
  bxz : T1 128
  Wxh : T2 128 64
  bxh : T1 128
  Whh : T2 128 128
  bhh : T1 128
  Wha1 : T2 128 64
  Wha2 : T2 128 128
  bha2 : T1 128
  Wy : T2 64 128
  by_ : T1 64

/-- The rectifier's slope, the maximum's starting value and the unit, as the words both programs print. -/
def c01 : EReal := Ideal.ofBits .f32 0x3C23D70A#32
def negInf : EReal := Ideal.ofBits .f32 0xFF800000#32
def oneW : EReal := Ideal.ofBits .f32 0x3F800000#32

/-- The leaky rectifier: the identity above zero, the slope times the argument elsewhere. -/
def leaky (s : EReal) : EReal := if 0 < s then s else c01 * s

variable (A : Args)

/-- Query row n of batch b against Wha1. -/
def lhs (b : Fin 8) (n : Fin 2048) (h : Fin 128) : EReal := ∑ c : Fin 64, A.X (ix3 b n c) * A.Wha1 (ix2 h c)

/-- Key row m of batch b: the previous state against Wha2, plus the bias. -/
def rhs (b : Fin 8) (m : Fin 2048) (g : Fin 128) : EReal :=
  (∑ h : Fin 128, A.Hp (ix3 b m h) * A.Wha2 (ix2 g h)) + A.bha2 (ix1 g)

/-- The score of row n against row m, and the score after the rectifier. -/
def score (b : Fin 8) (n m : Fin 2048) : EReal := ∑ h : Fin 128, lhs A b n h * rhs A b m h
def act (b : Fin 8) (n m : Fin 2048) : EReal := leaky (score A b n m)

/-- The softmax over m: the row's maximum, the shifted exponentials, their sum, the quotient. -/
def rowMax (b : Fin 8) (n : Fin 2048) : EReal :=
  (Finset.univ : Finset (Fin 2048)).fold max negInf (fun m => act A b n m)
def ex (b : Fin 8) (n m : Fin 2048) : EReal := Ideal.exp (act A b n m - rowMax A b n)
def rowSum (b : Fin 8) (n : Fin 2048) : EReal := ∑ m : Fin 2048, ex A b n m
def attn (b : Fin 8) (n m : Fin 2048) : EReal := Ideal.div (ex A b n m) (rowSum A b n)

/-- The attended input. -/
def ctx (b : Fin 8) (n : Fin 2048) (c : Fin 64) : EReal := ∑ m : Fin 2048, attn A b n m * A.X (ix3 b m c)

/-- The reset and update gates. -/
def gateR (b : Fin 8) (n : Fin 2048) (h : Fin 128) : EReal :=
  Ideal.logistic ((∑ c : Fin 64, ctx A b n c * A.Wxr (ix2 h c)) + A.bxr (ix1 h))
def gateZ (b : Fin 8) (n : Fin 2048) (h : Fin 128) : EReal :=
  Ideal.logistic ((∑ c : Fin 64, ctx A b n c * A.Wxz (ix2 h c)) + A.bxz (ix1 h))

/-- The two halves of the candidate's argument, and the candidate state. -/
def xh (b : Fin 8) (n : Fin 2048) (h : Fin 128) : EReal :=
  (∑ c : Fin 64, A.X (ix3 b n c) * A.Wxh (ix2 h c)) + A.bxh (ix1 h)
def hh (b : Fin 8) (n : Fin 2048) (g : Fin 128) : EReal :=
  (∑ h : Fin 128, (gateR A b n h * A.Hp (ix3 b n h)) * A.Whh (ix2 g h)) + A.bhh (ix1 g)
def cand (b : Fin 8) (n : Fin 2048) (h : Fin 128) : EReal := Ideal.tanh (xh A b n h + hh A b n h)

/-- The new state and the output. -/
def newH (b : Fin 8) (n : Fin 2048) (h : Fin 128) : EReal :=
  gateZ A b n h * A.Hp (ix3 b n h) + (oneW - gateZ A b n h) * cand A b n h
def outY (b : Fin 8) (n : Fin 2048) (c : Fin 64) : EReal :=
  (∑ h : Fin 128, newH A b n h * A.Wy (ix2 c h)) + A.by_ (ix1 c)

/-- The two result arrays. -/
def specH : T3 8 2048 128 := fun i => newH A (i 0) (i 1) (i 2)
def specY : T3 8 2048 64 := fun i => outY A (i 0) (i 1) (i 2)

theorem specH_apply (b : Fin 8) (n : Fin 2048) (h : Fin 128) : specH A (ix3 b n h) = newH A b n h := rfl
theorem specY_apply (b : Fin 8) (n : Fin 2048) (c : Fin 64) : specY A (ix3 b n c) = outY A b n c := rfl

end Cert.Spec

end
-- ==== Proof.KPay.lean ====
import proofs.«154985_j72576357368188_2_alg».proof.Proof.Gen.KernelIdeal.Skeleton
import proofs.«154985_j72576357368188_2_alg».proof.Proof.KLayout
import proofs.«154985_j72576357368188_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.KPay

open Idealize.ShloMosaic Idealize.ShloMosaic.ValueIdx
open Cert.KernelIdeal Cert.KernelIdeal.Gen Cert.KLayout Cert.Spec

/-- Row r of query tile q is row 512·q + r of its batch. -/
def row (q : Fin 4) (r : Fin 512) : Fin 2048 := ⟨512 * q.val + r.val, by have := q.isLt; have := r.isLt; omega⟩

/-! ## The cached key rows -/

/-- Entry (r, g) of the key rows computed from a state block, Wha2 and its bias. -/
theorem pay4_apply (x0 : Vec Ideal S1x2048x128 .f32) (x3 : Vec Ideal S128x128 .bf16) (x4 : Vec Ideal S1x128 .f32)
    (r : Fin 2048) (g : Fin 128) :
    k0_pay4 (F := Ideal) x0 x3 x4 (ix2 r g)
      = (∑ h : Fin 128, x0 (ix3 (0 : Fin 1) r h) * x3 (ix2 g h)) + x4 (ix2 (0 : Fin 1) g) := by
  unfold k0_pay4
  refine (congrFun (shapeCast_self _ _) (ix2 r g)).trans ?_
  refine congrArg₂ (fun a b : EReal => a + b) ?_ ?_
  · refine (matmul_plain_apply dot_S2048x128_S128x128_S2048x128_1_0_0_1_n_n rfl rfl (fun _ _ => rfl) (fun _ _ => rfl) (fun _ _ => rfl) (fun _ _ => rfl) none _ _ r g).trans ?_
    refine Finset.sum_congr rfl fun h _ => ?_
    refine congrArg₂ (fun a b : EReal => a * b) ?_ ?_
    · exact shapeCast_1ab_ab_apply x0 _ r h
    · refine (transpose_ix2_apply _ _ h g).trans ?_
      exact congrFun (shapeCast_self x3 _) (ix2 g h)
  · refine (broadcastTo_1b_ab_apply _ _ r g).trans ?_
    exact congrFun (shapeCast_self x4 _) (ix2 (0 : Fin 1) g)

/-- So when the blocks are batch b's state, Wha2 and bha2, the key rows are the specification's. -/
theorem pay4_spec (A : Args) (b : Fin 8) (x0 : Vec Ideal S1x2048x128 .f32) (x3 : Vec Ideal S128x128 .bf16)
    (x4 : Vec Ideal S1x128 .f32) (h0 : ∀ (n : Fin 2048) (h : Fin 128), x0 (ix3 (0 : Fin 1) n h) = A.Hp (ix3 b n h))
    (h3 : ∀ (g h : Fin 128), x3 (ix2 g h) = A.Wha2 (ix2 g h)) (h4 : ∀ g : Fin 128, x4 (ix2 (0 : Fin 1) g) = A.bha2 (ix1 g))
    (m : Fin 2048) (g : Fin 128) : k0_pay4 (F := Ideal) x0 x3 x4 (ix2 m g) = rhs A b m g := by
  refine (pay4_apply x0 x3 x4 m g).trans ?_
  unfold rhs
  refine congrArg₂ (fun a b : EReal => a + b) (Finset.sum_congr rfl fun h _ => ?_) (h4 g)
  exact congrArg₂ (fun a b : EReal => a * b) (h0 m h) (h3 g h)

/-! ## The softmax weights: the stages of the payload, one definition each -/

/-- The tile's query rows against Wha1. -/
def lhsT (v6 : Vec Ideal S1x512x64 .f32) (v11 : FVec Ideal S128x64 .bf16) : FVec Ideal S512x128 .f32 :=
  matmul dot_S512x64_S64x128_S512x128_1_0_0_1_n_n none (truncf .bf16 (k0_pay5 v6) bitsLt_bf16_f32)
    (transpose S64x128 [1, 0] (shapeCast S128x64 v11 shapeCasts_S128x64_S128x64) transposes_S128x64_p1_0_S64x128)
    (constant S512x128 .f32 0x00000000#32)

/-- The scores of the tile's rows against the key rows. -/
def scoreT (v6 : Vec Ideal S1x512x64 .f32) (v11 : FVec Ideal S128x64 .bf16) (v16 : FVec Ideal S2048x128 .bf16) :
    FVec Ideal S512x2048 .f32 :=
  matmul dot_S512x128_S128x2048_S512x2048_1_0_0_1_n_n none (truncf .bf16 (lhsT v6 v11) bitsLt_bf16_f32)
    (transpose S128x2048 [1, 0] v16 transposes_S2048x128_p1_0_S128x2048) (constant S512x2048 .f32 0x00000000#32)

/-- The leaky rectifier, entry by entry. -/
def actT (S : FVec Ideal S512x2048 .f32) : FVec Ideal S512x2048 .f32 :=
  select (cmpf .ogt S (broadcast S512x2048 (Scalar.ofBits .f32 0x00000000#32)))
    S (mulf (broadcast S512x2048 (Scalar.ofBits .f32 0x3C23D70A#32)) S)

/-- Each row's maximum, laid along the row; the shifted exponentials; each row's sum, laid along the row; the quotient. -/
def maxT (L : FVec Ideal S512x2048 .f32) : FVec Ideal S512x2048 .f32 :=
  broadcastTo S512x2048 (shapeCast S512x1 (multiReduction .maximumf [1] S512 L 0xFF800000#32 reduces_S512x2048_S512 (.inl rfl) rfl)
    shapeCasts_S512_S512x1) broadcasts_S512x1_S512x2048
def expT (L : FVec Ideal S512x2048 .f32) : FVec Ideal S512x2048 .f32 := exp (subf L (maxT L))
def sumT (L : FVec Ideal S512x2048 .f32) : FVec Ideal S512x2048 .f32 :=
  broadcastTo S512x2048 (shapeCast S512x1 (multiReduction .add [1] S512 (expT L) 0x00000000#32 reduces_S512x2048_S512 (.inl rfl) rfl)
    shapeCasts_S512_S512x1) broadcasts_S512x1_S512x2048
def softT (L : FVec Ideal S512x2048 .f32) : FVec Ideal S512x2048 .f32 := divf (expT L) (sumT L)

/-- The payload is the composition of these stages. -/
theorem pay8_eq (v6 : Vec Ideal S1x512x64 .f32) (v11 : FVec Ideal S128x64 .bf16) (v16 : FVec Ideal S2048x128 .bf16) :
    k0_pay8 (F := Ideal) v6 v11 v16 = truncf .bf16 (softT (actT (scoreT v6 v11 v16))) bitsLt_bf16_f32 := rfl

section Stages

variable (A : Args) (b : Fin 8) (q : Fin 4)
variable (v6 : Vec Ideal S1x512x64 .f32) (v11 : FVec Ideal S128x64 .bf16) (v16 : FVec Ideal S2048x128 .bf16)
variable (h6 : ∀ (r : Fin 512) (c : Fin 64), v6 (ix3 (0 : Fin 1) r c) = A.X (ix3 b (row q r) c))
variable (h11 : ∀ (h : Fin 128) (c : Fin 64), v11 (ix2 h c) = A.Wha1 (ix2 h c))
variable (h16 : ∀ (m : Fin 2048) (g : Fin 128), v16 (ix2 m g) = rhs A b m g)

include h6 h11 in
theorem lhsT_apply (r : Fin 512) (h : Fin 128) : lhsT v6 v11 (ix2 r h) = lhs A b (row q r) h := by
  unfold lhsT k0_pay5 lhs
  refine (matmul_plain_apply dot_S512x64_S64x128_S512x128_1_0_0_1_n_n rfl rfl (fun _ _ => rfl) (fun _ _ => rfl) (fun _ _ => rfl) (fun _ _ => rfl) none _ _ r h).trans ?_
  refine Finset.sum_congr rfl fun c _ => ?_
  refine congrArg₂ (fun a b : EReal => a * b) ?_ ?_
  · exact (shapeCast_1ab_ab_apply v6 _ r c).trans (h6 r c)
  · exact (transpose_ix2_apply _ _ c h).trans ((congrFun (shapeCast_self v11 _) (ix2 h c)).trans (h11 h c))

include h6 h11 h16 in
theorem scoreT_apply (r : Fin 512) (m : Fin 2048) : scoreT v6 v11 v16 (ix2 r m) = score A b (row q r) m := by
  unfold scoreT score
  refine (matmul_plain_apply dot_S512x128_S128x2048_S512x2048_1_0_0_1_n_n rfl rfl (fun _ _ => rfl) (fun _ _ => rfl) (fun _ _ => rfl) (fun _ _ => rfl) none _ _ r m).trans ?_
  refine Finset.sum_congr rfl fun h _ => ?_
  refine congrArg₂ (fun a b : EReal => a * b) ?_ ?_
  · exact lhsT_apply A b q v6 v11 h6 h11 r h
  · exact (transpose_ix2_apply v16 _ h m).trans (h16 m h)

end Stages

/-- The rectifier at an entry: the identity above zero, the slope times the entry elsewhere. -/
theorem actT_apply (S : FVec Ideal S512x2048 .f32) (j : S512x2048.Idx) : actT S j = leaky (S j) := by
  unfold actT leaky c01
  show Scalar.select (Ideal.cmp .ogt (S j) (Ideal.ofBits .f32 0x00000000#32)) (S j) (Ideal.ofBits .f32 0x3C23D70A#32 * S j) = _
  rw [Ideal.ofBits_zero_f32]
  by_cases h : 0 < S j
  · simp [Scalar.select, Ideal.cmp, h]
  · simp [Scalar.select, Ideal.cmp, h]

/-- The softmax of a table of activations, row by row. -/
def rowMaxOf (L : FVec Ideal S512x2048 .f32) (r : Fin 512) : EReal :=
  (Finset.univ : Finset (Fin 2048)).fold max negInf (fun k => L (ix2 r k))

theorem maxT_apply (L : FVec Ideal S512x2048 .f32) (r : Fin 512) (m : Fin 2048) : maxT L (ix2 r m) = rowMaxOf L r :=
  (col_bcast_apply _ _ r m).trans ((col_cast_apply _ _ r (0 : Fin 1)).trans (rowMax_apply L _ _ _ _ r))

theorem expT_apply (L : FVec Ideal S512x2048 .f32) (r : Fin 512) (m : Fin 2048) :
    expT L (ix2 r m) = Ideal.exp (L (ix2 r m) - rowMaxOf L r) :=
  congrArg Ideal.exp (congrArg (fun z : EReal => L (ix2 r m) - z) (maxT_apply L r m))

theorem sumT_apply (L : FVec Ideal S512x2048 .f32) (r : Fin 512) (m : Fin 2048) :
    sumT L (ix2 r m) = ∑ k : Fin 2048, Ideal.exp (L (ix2 r k) - rowMaxOf L r) :=
  (col_bcast_apply _ _ r m).trans ((col_cast_apply _ _ r (0 : Fin 1)).trans
    ((rowSum_apply (expT L) _ _ _ _ r).trans (Finset.sum_congr rfl fun k _ => expT_apply L r k)))

theorem softT_apply (L : FVec Ideal S512x2048 .f32) (r : Fin 512) (m : Fin 2048) :
    softT L (ix2 r m)
      = Ideal.div (Ideal.exp (L (ix2 r m) - rowMaxOf L r)) (∑ k : Fin 2048, Ideal.exp (L (ix2 r k) - rowMaxOf L r)) :=
  congrArg₂ Ideal.div (expT_apply L r m) (sumT_apply L r m)

/-- The softmax weights of the tile's rows are the specification's, when the blocks are batch b's. -/
theorem pay8_spec (A : Args) (b : Fin 8) (q : Fin 4)
    (v6 : Vec Ideal S1x512x64 .f32) (v11 : FVec Ideal S128x64 .bf16) (v16 : FVec Ideal S2048x128 .bf16)
    (h6 : ∀ (r : Fin 512) (c : Fin 64), v6 (ix3 (0 : Fin 1) r c) = A.X (ix3 b (row q r) c))
    (h11 : ∀ (h : Fin 128) (c : Fin 64), v11 (ix2 h c) = A.Wha1 (ix2 h c))
    (h16 : ∀ (m : Fin 2048) (g : Fin 128), v16 (ix2 m g) = rhs A b m g) (r : Fin 512) (m : Fin 2048) :
    k0_pay8 (F := Ideal) v6 v11 v16 (ix2 r m) = attn A b (row q r) m := by
  have hact : ∀ k : Fin 2048, actT (scoreT v6 v11 v16) (ix2 r k) = act A b (row q r) k := fun k =>
    (actT_apply _ _).trans (congrArg leaky (scoreT_apply A b q v6 v11 v16 h6 h11 h16 r k))
  have hmax : rowMaxOf (actT (scoreT v6 v11 v16)) r = rowMax A b (row q r) :=
    congrArg (fun f => (Finset.univ : Finset (Fin 2048)).fold max negInf f) (funext hact)
  have hex : ∀ k : Fin 2048,
      Ideal.exp (actT (scoreT v6 v11 v16) (ix2 r k) - rowMaxOf (actT (scoreT v6 v11 v16)) r) = ex A b (row q r) k := fun k => by
    rw [hact k, hmax]; rfl
  rw [pay8_eq]
  refine (softT_apply _ r m).trans ?_
  unfold attn rowSum
  exact congrArg₂ Ideal.div (hex m) (Finset.sum_congr rfl fun k _ => hex k)

/-! ## The attended input, the gates, the new state, the output -/

theorem pay9_apply (v35 : FVec Ideal S2048x64 .f32) (v36 : FVec Ideal S512x2048 .bf16) (r : Fin 512) (c : Fin 64) :
    k0_pay9 (F := Ideal) v35 v36 (ix2 r c) = ∑ m : Fin 2048, v36 (ix2 r m) * v35 (ix2 m c) := by
  unfold k0_pay9
  exact matmul_plain_apply dot_S512x2048_S2048x64_S512x64_1_0_0_1_n_n rfl rfl (fun _ _ => rfl) (fun _ _ => rfl) (fun _ _ => rfl) (fun _ _ => rfl) none _ _ r c

theorem pay15_apply (v35 : FVec Ideal S2048x64 .f32) (v36 : FVec Ideal S512x2048 .bf16) (v39 : Vec Ideal S128x64 .bf16)
    (v41 : Vec Ideal S1x128 .f32) (r : Fin 512) (h : Fin 128) :
    k0_pay15 (F := Ideal) v35 v36 v39 v41 (ix2 r h)
      = Ideal.logistic ((∑ c : Fin 64, k0_pay9 (F := Ideal) v35 v36 (ix2 r c) * v39 (ix2 h c)) + v41 (ix2 (0 : Fin 1) h)) := by
  unfold k0_pay15
  refine congrArg Ideal.logistic ?_
  refine congrArg₂ (fun a b : EReal => a + b) ?_ ?_
  · refine (matmul_plain_apply dot_S512x64_S64x128_S512x128_1_0_0_1_n_n rfl rfl (fun _ _ => rfl) (fun _ _ => rfl) (fun _ _ => rfl) (fun _ _ => rfl) none _ _ r h).trans ?_
    refine Finset.sum_congr rfl fun c _ => congrArg₂ (fun a b : EReal => a * b) rfl ?_
    exact (transpose_ix2_apply _ _ c h).trans (congrFun (shapeCast_self v39 _) (ix2 h c))
  · exact (broadcastTo_1b_ab_apply _ _ r h).trans (congrFun (shapeCast_self v41 _) (ix2 (0 : Fin 1) h))

theorem pay16_apply (v35 : FVec Ideal S2048x64 .f32) (v36 : FVec Ideal S512x2048 .bf16) (v43 : Vec Ideal S128x64 .bf16)
    (v45 : Vec Ideal S1x128 .f32) (r : Fin 512) (h : Fin 128) :
    k0_pay16 (F := Ideal) v35 v36 v43 v45 (ix2 r h)
      = Ideal.logistic ((∑ c : Fin 64, k0_pay9 (F := Ideal) v35 v36 (ix2 r c) * v43 (ix2 h c)) + v45 (ix2 (0 : Fin 1) h)) := by
  unfold k0_pay16
  refine congrArg Ideal.logistic ?_
  refine congrArg₂ (fun a b : EReal => a + b) ?_ ?_
  · refine (matmul_plain_apply dot_S512x64_S64x128_S512x128_1_0_0_1_n_n rfl rfl (fun _ _ => rfl) (fun _ _ => rfl) (fun _ _ => rfl) (fun _ _ => rfl) none _ _ r h).trans ?_
    refine Finset.sum_congr rfl fun c _ => congrArg₂ (fun a b : EReal => a * b) rfl ?_
    exact (transpose_ix2_apply _ _ c h).trans (congrFun (shapeCast_self v43 _) (ix2 h c))
  · exact (broadcastTo_1b_ab_apply _ _ r h).trans (congrFun (shapeCast_self v45 _) (ix2 (0 : Fin 1) h))

/-- The new state at (r, h): the update gate's mix of the old state and the candidate. -/
theorem pay1_apply (v10 : FVec Ideal S512x128 .f32) (v50 : FVec Ideal S1x128 .f32) (v52 : FVec Ideal S128x128 .bf16)
    (v54 : FVec Ideal S1x128 .f32) (v64 v70 : FVec Ideal S512x128 .f32) (v71 : FVec Ideal S512x64 .bf16)
    (v72 : FVec Ideal S64x128 .bf16) (r : Fin 512) (h : Fin 128) :
    k0_pay1 (F := Ideal) v10 v50 v52 v54 v64 v70 v71 v72 (constant S512x128 .f32 0x00000000#32) (ix2 r h)
      = v70 (ix2 r h) * v10 (ix2 r h) + (oneW - v70 (ix2 r h)) * Ideal.tanh
          (((∑ c : Fin 64, v71 (ix2 r c) * v72 (ix2 c h)) + v50 (ix2 (0 : Fin 1) h))
            + ((∑ g : Fin 128, (v64 (ix2 r g) * v10 (ix2 r g)) * v52 (ix2 h g)) + v54 (ix2 (0 : Fin 1) h))) := by
  unfold k0_pay1 oneW
  refine congrArg₂ (fun a b : EReal => a + b) rfl ?_
  refine congrArg₂ (fun a b : EReal => a * b) rfl ?_
  refine congrArg Ideal.tanh ?_
  refine congrArg₂ (fun a b : EReal => a + b) ?_ ?_
  · exact congrArg₂ (fun a b : EReal => a + b)
      (matmul_plain_apply dot_S512x64_S64x128_S512x128_1_0_0_1_n_n rfl rfl (fun _ _ => rfl) (fun _ _ => rfl) (fun _ _ => rfl) (fun _ _ => rfl) none v71 v72 r h)
      (broadcastTo_1b_ab_apply v50 _ r h)
  · refine congrArg₂ (fun a b : EReal => a + b) ?_ (broadcastTo_1b_ab_apply v54 _ r h)
    refine (matmul_plain_apply dot_S512x128_S128x128_S512x128_1_0_0_1_n_n rfl rfl (fun _ _ => rfl) (fun _ _ => rfl) (fun _ _ => rfl) (fun _ _ => rfl) none _ _ r h).trans ?_
    exact Finset.sum_congr rfl fun g _ => congrArg₂ (fun a b : EReal => a * b) rfl (transpose_ix2_apply v52 _ g h)

/-- The stored block of new state is that table with a leading unit axis. -/
theorem pay3_apply (v10 : FVec Ideal S512x128 .f32) (v50 : FVec Ideal S1x128 .f32) (v52 : FVec Ideal S128x128 .bf16)
    (v54 : FVec Ideal S1x128 .f32) (v64 v70 : FVec Ideal S512x128 .f32) (v71 : FVec Ideal S512x64 .bf16)
    (v72 : FVec Ideal S64x128 .bf16) (cst : FVec Ideal S512x128 .f32) (r : Fin 512) (h : Fin 128) :
    k0_pay3 (F := Ideal) v10 v50 v52 v54 v64 v70 v71 v72 cst (ix3 (0 : Fin 1) r h)
      = k0_pay1 (F := Ideal) v10 v50 v52 v54 v64 v70 v71 v72 cst (ix2 r h) := by
  unfold k0_pay3
  exact shapeCast_ab_1ab_apply _ _ (0 : Fin 1) r h

/-- The stored block of output at (r, c): the new state's row r against row c of Wy, plus the bias. -/
theorem pay2_apply (v10 : FVec Ideal S512x128 .f32) (v50 : FVec Ideal S1x128 .f32) (v52 : FVec Ideal S128x128 .bf16)
    (v54 : FVec Ideal S1x128 .f32) (v56 : FVec Ideal S64x128 .bf16) (v58 : FVec Ideal S1x64 .f32)
    (v64 v70 : FVec Ideal S512x128 .f32) (v71 : FVec Ideal S512x64 .bf16)
    (v72 : FVec Ideal S64x128 .bf16) (cst : FVec Ideal S512x128 .f32) (r : Fin 512) (c : Fin 64) :
    k0_pay2 (F := Ideal) v10 v50 v52 v54 v56 v58 v64 v70 v71 v72 cst (ix3 (0 : Fin 1) r c)
      = (∑ h : Fin 128, k0_pay1 (F := Ideal) v10 v50 v52 v54 v64 v70 v71 v72 cst (ix2 r h) * v56 (ix2 c h))
          + v58 (ix2 (0 : Fin 1) c) := by
  unfold k0_pay2
  refine (shapeCast_ab_1ab_apply _ _ (0 : Fin 1) r c).trans ?_
  refine congrArg₂ (fun a b : EReal => a + b) ?_ (broadcastTo_1b_ab_apply v58 _ r c)
  refine (matmul_plain_apply dot_S512x128_S128x64_S512x64_1_0_0_1_n_n rfl rfl (fun _ _ => rfl) (fun _ _ => rfl) (fun _ _ => rfl) (fun _ _ => rfl) none _ _ r c).trans ?_
  exact Finset.sum_congr rfl fun h _ => congrArg₂ (fun a b : EReal => a * b) rfl (transpose_ix2_apply v56 _ h c)

end Cert.KernelIdeal.KPay

end
-- ==== Proof.KTile.lean ====
/-
  One query tile, at the extended reals: when the blocks a grid point reads are batch b's rows of the state and of the
  input, the weights and the biases, and the key rows it reads are batch b's key rows, the block of new state and the
  block of output it stores are the specification's new state and output at the rows 512·q + r of batch b.
  Each step reads one stage at an index: the attended input from the softmax weights, the two gates from the attended
  input, the candidate from the two products and their biases, the new state, the output.
-/
import proofs.«154985_j72576357368188_2_alg».proof.Proof.KPieces
import proofs.«154985_j72576357368188_2_alg».proof.Proof.KPay

noncomputable section

open scoped BigOperators

namespace Cert.KernelIdeal.KTile

open Idealize.ShloMosaic Idealize.ShloMosaic.ValueIdx
open Cert.KernelIdeal Cert.KernelIdeal.Gen Cert.KLayout Cert.Spec Cert.KernelIdeal.KPieces Cert.KernelIdeal.KPay

/-- The attended input of the tile's rows. -/
theorem ctx_eq (A : Args) (b : Fin 8) (q : Fin 4) (i : grid0.Coords)
    (x0 : Vec Ideal S1x2048x128 .f32) (x1 : Vec Ideal S1x2048x64 .f32) (x2 x5 x7 x9 : Vec Ideal S128x64 .bf16)
    (x6 x8 x10 x12 : Vec Ideal S1x128 .f32) (x11 : Vec Ideal S128x128 .bf16) (x13 : Vec Ideal S64x128 .bf16)
    (x14 : Vec Ideal S1x64 .f32) (s : Vec Ideal S2048x128 .bf16)
    (hqH : ∀ (r : Fin 512) (h : Fin 128), qH i x0 (ix3 (0 : Fin 1) r h) = A.Hp (ix3 b (row q r) h))
    (hqX : ∀ (r : Fin 512) (c : Fin 64), qX i x1 (ix3 (0 : Fin 1) r c) = A.X (ix3 b (row q r) c))
    (h1 : ∀ (m : Fin 2048) (c : Fin 64), x1 (ix3 (0 : Fin 1) m c) = A.X (ix3 b m c))
    (h2 : ∀ (h : Fin 128) (c : Fin 64), x2 (ix2 h c) = A.Wha1 (ix2 h c))
    (h5 : ∀ (h : Fin 128) (c : Fin 64), x5 (ix2 h c) = A.Wxr (ix2 h c))
    (h6 : ∀ h : Fin 128, x6 (ix2 (0 : Fin 1) h) = A.bxr (ix1 h))
    (h7 : ∀ (h : Fin 128) (c : Fin 64), x7 (ix2 h c) = A.Wxz (ix2 h c))
    (h8 : ∀ h : Fin 128, x8 (ix2 (0 : Fin 1) h) = A.bxz (ix1 h))
    (h9 : ∀ (h : Fin 128) (c : Fin 64), x9 (ix2 h c) = A.Wxh (ix2 h c))
    (h10 : ∀ h : Fin 128, x10 (ix2 (0 : Fin 1) h) = A.bxh (ix1 h))
    (h11 : ∀ g h : Fin 128, x11 (ix2 g h) = A.Whh (ix2 g h))
    (h12 : ∀ h : Fin 128, x12 (ix2 (0 : Fin 1) h) = A.bhh (ix1 h))
    (h13 : ∀ (c : Fin 64) (h : Fin 128), x13 (ix2 c h) = A.Wy (ix2 c h))
    (h14 : ∀ c : Fin 64, x14 (ix2 (0 : Fin 1) c) = A.by_ (ix1 c))
    (hs : ∀ (m : Fin 2048) (g : Fin 128), s (ix2 m g) = rhs A b m g)
    (r : Fin 512) (c : Fin 64) :
    k0_pay9 (F := Ideal) (k0_pay7 x1) (tileAttn i x1 x2 s) (ix2 r c) = ctx A b (row q r) c := by
  refine (pay9_apply _ _ r c).trans ?_
  unfold ctx
  refine Finset.sum_congr rfl fun m _ => congrArg₂ (fun a b : EReal => a * b) ?_ ?_
  · exact pay8_spec A b q (qX i x1) x2 s hqX h2 hs r m
  · unfold k0_pay7
    exact (shapeCast_1ab_ab_apply x1 _ m c).trans (h1 m c)

/-- The reset gate and the update gate of the tile's rows. -/
theorem gateR_eq (A : Args) (b : Fin 8) (q : Fin 4) (i : grid0.Coords)
    (x0 : Vec Ideal S1x2048x128 .f32) (x1 : Vec Ideal S1x2048x64 .f32) (x2 x5 x7 x9 : Vec Ideal S128x64 .bf16)
    (x6 x8 x10 x12 : Vec Ideal S1x128 .f32) (x11 : Vec Ideal S128x128 .bf16) (x13 : Vec Ideal S64x128 .bf16)
    (x14 : Vec Ideal S1x64 .f32) (s : Vec Ideal S2048x128 .bf16)
    (hqH : ∀ (r : Fin 512) (h : Fin 128), qH i x0 (ix3 (0 : Fin 1) r h) = A.Hp (ix3 b (row q r) h))
    (hqX : ∀ (r : Fin 512) (c : Fin 64), qX i x1 (ix3 (0 : Fin 1) r c) = A.X (ix3 b (row q r) c))
    (h1 : ∀ (m : Fin 2048) (c : Fin 64), x1 (ix3 (0 : Fin 1) m c) = A.X (ix3 b m c))
    (h2 : ∀ (h : Fin 128) (c : Fin 64), x2 (ix2 h c) = A.Wha1 (ix2 h c))
    (h5 : ∀ (h : Fin 128) (c : Fin 64), x5 (ix2 h c) = A.Wxr (ix2 h c))
    (h6 : ∀ h : Fin 128, x6 (ix2 (0 : Fin 1) h) = A.bxr (ix1 h))
    (h7 : ∀ (h : Fin 128) (c : Fin 64), x7 (ix2 h c) = A.Wxz (ix2 h c))
    (h8 : ∀ h : Fin 128, x8 (ix2 (0 : Fin 1) h) = A.bxz (ix1 h))
    (h9 : ∀ (h : Fin 128) (c : Fin 64), x9 (ix2 h c) = A.Wxh (ix2 h c))
    (h10 : ∀ h : Fin 128, x10 (ix2 (0 : Fin 1) h) = A.bxh (ix1 h))
    (h11 : ∀ g h : Fin 128, x11 (ix2 g h) = A.Whh (ix2 g h))
    (h12 : ∀ h : Fin 128, x12 (ix2 (0 : Fin 1) h) = A.bhh (ix1 h))
    (h13 : ∀ (c : Fin 64) (h : Fin 128), x13 (ix2 c h) = A.Wy (ix2 c h))
    (h14 : ∀ c : Fin 64, x14 (ix2 (0 : Fin 1) c) = A.by_ (ix1 c))
    (hs : ∀ (m : Fin 2048) (g : Fin 128), s (ix2 m g) = rhs A b m g)
    (r : Fin 512) (h : Fin 128) : tileR i x1 x2 x5 x6 s (ix2 r h) = gateR A b (row q r) h := by
  refine (pay15_apply _ _ x5 x6 r h).trans ?_
  unfold gateR
  refine congrArg Ideal.logistic (congrArg₂ (fun a b : EReal => a + b) (Finset.sum_congr rfl fun c _ => ?_) (h6 h))
  exact congrArg₂ (fun a b : EReal => a * b) (ctx_eq A b q i x0 x1 x2 x5 x7 x9 x6 x8 x10 x12 x11 x13 x14 s hqH hqX h1 h2 h5 h6 h7 h8 h9 h10 h11 h12 h13 h14 hs r c) (h5 h c)

theorem gateZ_eq (A : Args) (b : Fin 8) (q : Fin 4) (i : grid0.Coords)
    (x0 : Vec Ideal S1x2048x128 .f32) (x1 : Vec Ideal S1x2048x64 .f32) (x2 x5 x7 x9 : Vec Ideal S128x64 .bf16)
    (x6 x8 x10 x12 : Vec Ideal S1x128 .f32) (x11 : Vec Ideal S128x128 .bf16) (x13 : Vec Ideal S64x128 .bf16)
    (x14 : Vec Ideal S1x64 .f32) (s : Vec Ideal S2048x128 .bf16)
    (hqH : ∀ (r : Fin 512) (h : Fin 128), qH i x0 (ix3 (0 : Fin 1) r h) = A.Hp (ix3 b (row q r) h))
    (hqX : ∀ (r : Fin 512) (c : Fin 64), qX i x1 (ix3 (0 : Fin 1) r c) = A.X (ix3 b (row q r) c))
    (h1 : ∀ (m : Fin 2048) (c : Fin 64), x1 (ix3 (0 : Fin 1) m c) = A.X (ix3 b m c))
    (h2 : ∀ (h : Fin 128) (c : Fin 64), x2 (ix2 h c) = A.Wha1 (ix2 h c))
    (h5 : ∀ (h : Fin 128) (c : Fin 64), x5 (ix2 h c) = A.Wxr (ix2 h c))
    (h6 : ∀ h : Fin 128, x6 (ix2 (0 : Fin 1) h) = A.bxr (ix1 h))
    (h7 : ∀ (h : Fin 128) (c : Fin 64), x7 (ix2 h c) = A.Wxz (ix2 h c))
    (h8 : ∀ h : Fin 128, x8 (ix2 (0 : Fin 1) h) = A.bxz (ix1 h))
    (h9 : ∀ (h : Fin 128) (c : Fin 64), x9 (ix2 h c) = A.Wxh (ix2 h c))
    (h10 : ∀ h : Fin 128, x10 (ix2 (0 : Fin 1) h) = A.bxh (ix1 h))
    (h11 : ∀ g h : Fin 128, x11 (ix2 g h) = A.Whh (ix2 g h))
    (h12 : ∀ h : Fin 128, x12 (ix2 (0 : Fin 1) h) = A.bhh (ix1 h))
    (h13 : ∀ (c : Fin 64) (h : Fin 128), x13 (ix2 c h) = A.Wy (ix2 c h))
    (h14 : ∀ c : Fin 64, x14 (ix2 (0 : Fin 1) c) = A.by_ (ix1 c))
    (hs : ∀ (m : Fin 2048) (g : Fin 128), s (ix2 m g) = rhs A b m g)
    (r : Fin 512) (h : Fin 128) : tileZ i x1 x2 x7 x8 s (ix2 r h) = gateZ A b (row q r) h := by
  refine (pay16_apply _ _ x7 x8 r h).trans ?_
  unfold gateZ
  refine congrArg Ideal.logistic (congrArg₂ (fun a b : EReal => a + b) (Finset.sum_congr rfl fun c _ => ?_) (h8 h))
  exact congrArg₂ (fun a b : EReal => a * b) (ctx_eq A b q i x0 x1 x2 x5 x7 x9 x6 x8 x10 x12 x11 x13 x14 s hqH hqX h1 h2 h5 h6 h7 h8 h9 h10 h11 h12 h13 h14 hs r c) (h7 h c)

/-- The new state of the tile's rows. -/
theorem newH_eq (A : Args) (b : Fin 8) (q : Fin 4) (i : grid0.Coords)
    (x0 : Vec Ideal S1x2048x128 .f32) (x1 : Vec Ideal S1x2048x64 .f32) (x2 x5 x7 x9 : Vec Ideal S128x64 .bf16)
    (x6 x8 x10 x12 : Vec Ideal S1x128 .f32) (x11 : Vec Ideal S128x128 .bf16) (x13 : Vec Ideal S64x128 .bf16)
    (x14 : Vec Ideal S1x64 .f32) (s : Vec Ideal S2048x128 .bf16)
    (hqH : ∀ (r : Fin 512) (h : Fin 128), qH i x0 (ix3 (0 : Fin 1) r h) = A.Hp (ix3 b (row q r) h))
    (hqX : ∀ (r : Fin 512) (c : Fin 64), qX i x1 (ix3 (0 : Fin 1) r c) = A.X (ix3 b (row q r) c))
    (h1 : ∀ (m : Fin 2048) (c : Fin 64), x1 (ix3 (0 : Fin 1) m c) = A.X (ix3 b m c))
    (h2 : ∀ (h : Fin 128) (c : Fin 64), x2 (ix2 h c) = A.Wha1 (ix2 h c))
    (h5 : ∀ (h : Fin 128) (c : Fin 64), x5 (ix2 h c) = A.Wxr (ix2 h c))
    (h6 : ∀ h : Fin 128, x6 (ix2 (0 : Fin 1) h) = A.bxr (ix1 h))
    (h7 : ∀ (h : Fin 128) (c : Fin 64), x7 (ix2 h c) = A.Wxz (ix2 h c))
    (h8 : ∀ h : Fin 128, x8 (ix2 (0 : Fin 1) h) = A.bxz (ix1 h))
    (h9 : ∀ (h : Fin 128) (c : Fin 64), x9 (ix2 h c) = A.Wxh (ix2 h c))
    (h10 : ∀ h : Fin 128, x10 (ix2 (0 : Fin 1) h) = A.bxh (ix1 h))
    (h11 : ∀ g h : Fin 128, x11 (ix2 g h) = A.Whh (ix2 g h))
    (h12 : ∀ h : Fin 128, x12 (ix2 (0 : Fin 1) h) = A.bhh (ix1 h))
    (h13 : ∀ (c : Fin 64) (h : Fin 128), x13 (ix2 c h) = A.Wy (ix2 c h))
    (h14 : ∀ c : Fin 64, x14 (ix2 (0 : Fin 1) c) = A.by_ (ix1 c))
    (hs : ∀ (m : Fin 2048) (g : Fin 128), s (ix2 m g) = rhs A b m g)
    (r : Fin 512) (h : Fin 128) :
    k0_pay1 (F := Ideal) (k0_pay6 (qH i x0)) (k0_pay10 x10) (k0_pay11 x11) (k0_pay12 x12) (tileR i x1 x2 x5 x6 s)
        (tileZ i x1 x2 x7 x8 s) (k0_pay17 (k0_pay5 (qX i x1))) (k0_pay18 x9) (constant S512x128 .f32 0x00000000#32) (ix2 r h)
      = newH A b (row q r) h := by
  refine (pay1_apply _ _ _ _ _ _ _ _ r h).trans ?_
  unfold newH cand xh hh
  have hv10 : ∀ g : Fin 128, k0_pay6 (F := Ideal) (qH i x0) (ix2 r g) = A.Hp (ix3 b (row q r) g) := fun g => by
    unfold k0_pay6
    exact (shapeCast_1ab_ab_apply _ _ r g).trans (hqH r g)
  have hZ := gateZ_eq A b q i x0 x1 x2 x5 x7 x9 x6 x8 x10 x12 x11 x13 x14 s hqH hqX h1 h2 h5 h6 h7 h8 h9 h10 h11 h12 h13 h14 hs r h
  refine congrArg₂ (fun a b : EReal => a + b) (congrArg₂ (fun a b : EReal => a * b) hZ (hv10 h)) ?_
  refine congrArg₂ (fun a b : EReal => a * b) (congrArg (fun z : EReal => oneW - z) hZ) (congrArg Ideal.tanh ?_)
  refine congrArg₂ (fun a b : EReal => a + b) (congrArg₂ (fun a b : EReal => a + b) ?_ ?_) (congrArg₂ (fun a b : EReal => a + b) ?_ ?_)
  · refine Finset.sum_congr rfl fun c _ => congrArg₂ (fun a b : EReal => a * b) ?_ ?_
    · unfold k0_pay17 k0_pay5
      exact (shapeCast_1ab_ab_apply _ _ r c).trans (hqX r c)
    · unfold k0_pay18
      exact (transpose_ix2_apply _ _ c h).trans ((congrFun (shapeCast_self x9 _) (ix2 h c)).trans (h9 h c))
  · unfold k0_pay10
    exact (congrFun (shapeCast_self x10 _) (ix2 (0 : Fin 1) h)).trans (h10 h)
  · refine Finset.sum_congr rfl fun g _ => congrArg₂ (fun a b : EReal => a * b)
      (congrArg₂ (fun a b : EReal => a * b) (gateR_eq A b q i x0 x1 x2 x5 x7 x9 x6 x8 x10 x12 x11 x13 x14 s hqH hqX h1 h2 h5 h6 h7 h8 h9 h10 h11 h12 h13 h14 hs r g) (hv10 g)) ?_
    unfold k0_pay11
    exact (congrFun (shapeCast_self x11 _) (ix2 h g)).trans (h11 h g)
  · unfold k0_pay12
    exact (congrFun (shapeCast_self x12 _) (ix2 (0 : Fin 1) h)).trans (h12 h)

/-- The stored block of new state is the specification's new state at the tile's rows. -/
theorem tileH_spec (A : Args) (b : Fin 8) (q : Fin 4) (i : grid0.Coords)
    (x0 : Vec Ideal S1x2048x128 .f32) (x1 : Vec Ideal S1x2048x64 .f32) (x2 x5 x7 x9 : Vec Ideal S128x64 .bf16)
    (x6 x8 x10 x12 : Vec Ideal S1x128 .f32) (x11 : Vec Ideal S128x128 .bf16) (x13 : Vec Ideal S64x128 .bf16)
    (x14 : Vec Ideal S1x64 .f32) (s : Vec Ideal S2048x128 .bf16)
    (hqH : ∀ (r : Fin 512) (h : Fin 128), qH i x0 (ix3 (0 : Fin 1) r h) = A.Hp (ix3 b (row q r) h))
    (hqX : ∀ (r : Fin 512) (c : Fin 64), qX i x1 (ix3 (0 : Fin 1) r c) = A.X (ix3 b (row q r) c))
    (h1 : ∀ (m : Fin 2048) (c : Fin 64), x1 (ix3 (0 : Fin 1) m c) = A.X (ix3 b m c))
    (h2 : ∀ (h : Fin 128) (c : Fin 64), x2 (ix2 h c) = A.Wha1 (ix2 h c))
    (h5 : ∀ (h : Fin 128) (c : Fin 64), x5 (ix2 h c) = A.Wxr (ix2 h c))
    (h6 : ∀ h : Fin 128, x6 (ix2 (0 : Fin 1) h) = A.bxr (ix1 h))
    (h7 : ∀ (h : Fin 128) (c : Fin 64), x7 (ix2 h c) = A.Wxz (ix2 h c))
    (h8 : ∀ h : Fin 128, x8 (ix2 (0 : Fin 1) h) = A.bxz (ix1 h))
    (h9 : ∀ (h : Fin 128) (c : Fin 64), x9 (ix2 h c) = A.Wxh (ix2 h c))
    (h10 : ∀ h : Fin 128, x10 (ix2 (0 : Fin 1) h) = A.bxh (ix1 h))
    (h11 : ∀ g h : Fin 128, x11 (ix2 g h) = A.Whh (ix2 g h))
    (h12 : ∀ h : Fin 128, x12 (ix2 (0 : Fin 1) h) = A.bhh (ix1 h))
    (h13 : ∀ (c : Fin 64) (h : Fin 128), x13 (ix2 c h) = A.Wy (ix2 c h))
    (h14 : ∀ c : Fin 64, x14 (ix2 (0 : Fin 1) c) = A.by_ (ix1 c))
    (hs : ∀ (m : Fin 2048) (g : Fin 128), s (ix2 m g) = rhs A b m g)
    (r : Fin 512) (h : Fin 128) :
    tileH i x0 x1 x2 x5 x6 x7 x8 x9 x10 x11 x12 x13 x14 s (ix3 (0 : Fin 1) r h) = newH A b (row q r) h := by
  unfold tileH
  exact (pay3_apply _ _ _ _ _ _ _ _ _ r h).trans (newH_eq A b q i x0 x1 x2 x5 x7 x9 x6 x8 x10 x12 x11 x13 x14 s hqH hqX h1 h2 h5 h6 h7 h8 h9 h10 h11 h12 h13 h14 hs r h)

/-- The stored block of output is the specification's output at the tile's rows. -/
theorem tileY_spec (A : Args) (b : Fin 8) (q : Fin 4) (i : grid0.Coords)
    (x0 : Vec Ideal S1x2048x128 .f32) (x1 : Vec Ideal S1x2048x64 .f32) (x2 x5 x7 x9 : Vec Ideal S128x64 .bf16)
    (x6 x8 x10 x12 : Vec Ideal S1x128 .f32) (x11 : Vec Ideal S128x128 .bf16) (x13 : Vec Ideal S64x128 .bf16)
    (x14 : Vec Ideal S1x64 .f32) (s : Vec Ideal S2048x128 .bf16)
    (hqH : ∀ (r : Fin 512) (h : Fin 128), qH i x0 (ix3 (0 : Fin 1) r h) = A.Hp (ix3 b (row q r) h))
    (hqX : ∀ (r : Fin 512) (c : Fin 64), qX i x1 (ix3 (0 : Fin 1) r c) = A.X (ix3 b (row q r) c))
    (h1 : ∀ (m : Fin 2048) (c : Fin 64), x1 (ix3 (0 : Fin 1) m c) = A.X (ix3 b m c))
    (h2 : ∀ (h : Fin 128) (c : Fin 64), x2 (ix2 h c) = A.Wha1 (ix2 h c))
    (h5 : ∀ (h : Fin 128) (c : Fin 64), x5 (ix2 h c) = A.Wxr (ix2 h c))
    (h6 : ∀ h : Fin 128, x6 (ix2 (0 : Fin 1) h) = A.bxr (ix1 h))
    (h7 : ∀ (h : Fin 128) (c : Fin 64), x7 (ix2 h c) = A.Wxz (ix2 h c))
    (h8 : ∀ h : Fin 128, x8 (ix2 (0 : Fin 1) h) = A.bxz (ix1 h))
    (h9 : ∀ (h : Fin 128) (c : Fin 64), x9 (ix2 h c) = A.Wxh (ix2 h c))
    (h10 : ∀ h : Fin 128, x10 (ix2 (0 : Fin 1) h) = A.bxh (ix1 h))
    (h11 : ∀ g h : Fin 128, x11 (ix2 g h) = A.Whh (ix2 g h))
    (h12 : ∀ h : Fin 128, x12 (ix2 (0 : Fin 1) h) = A.bhh (ix1 h))
    (h13 : ∀ (c : Fin 64) (h : Fin 128), x13 (ix2 c h) = A.Wy (ix2 c h))
    (h14 : ∀ c : Fin 64, x14 (ix2 (0 : Fin 1) c) = A.by_ (ix1 c))
    (hs : ∀ (m : Fin 2048) (g : Fin 128), s (ix2 m g) = rhs A b m g)
    (r : Fin 512) (c : Fin 64) :
    tileY i x0 x1 x2 x5 x6 x7 x8 x9 x10 x11 x12 x13 x14 s (ix3 (0 : Fin 1) r c) = outY A b (row q r) c := by
  unfold tileY
  refine (pay2_apply _ _ _ _ _ _ _ _ _ _ _ r c).trans ?_
  unfold outY
  refine congrArg₂ (fun a b : EReal => a + b) (Finset.sum_congr rfl fun h _ => congrArg₂ (fun a b : EReal => a * b) (newH_eq A b q i x0 x1 x2 x5 x7 x9 x6 x8 x10 x12 x11 x13 x14 s hqH hqX h1 h2 h5 h6 h7 h8 h9 h10 h11 h12 h13 h14 hs r h) ?_) ?_
  · unfold k0_pay13
    exact (congrFun (shapeCast_self x13 _) (ix2 c h)).trans (h13 c h)
  · unfold k0_pay14
    exact (congrFun (shapeCast_self x14 _) (ix2 (0 : Fin 1) c)).trans (h14 c)

end Cert.KernelIdeal.KTile

end
-- ==== Proof.KValue.lean ====
/-
  From the grid's blocks to the two result arrays, at the extended reals.

  A grid point t has a batch b = t / 4 and a query tile q = t % 4. Its state block and its input block are batch b's rows
  (the printed index maps send t to block (b, 0, 0)); each weight's block is the whole weight, each bias's block the bias
  as one row; the 512 rows it slices out of the two resident blocks are the rows 512·q + r. The cached key rows after
  point t are the key rows of batch b: stored at q = 0, kept while q = 1, 2, 3 (induction on t). Hence what point t
  writes back to each result is block (b, q, 0) of the specification's array; the 32 blocks tile each array (row n of
  batch b lies in the block of point 4·b + n / 512); so each result array ends at the specification's function of the
  fifteen arguments, and the run is re-posted with both arrays named.
-/
import proofs.«154985_j72576357368188_2_alg».proof.Proof.Gen.KernelIdeal.Value
import proofs.«154985_j72576357368188_2_alg».proof.Proof.KTile
import Idealize.ShloMosaic.Lib.Pipeline.Value
import Idealize.ShloMosaic.Lib.StableHlo.Run
import Idealize.ShloMosaic.Lib.Tactic

noncomputable section

open scoped BigOperators

namespace Cert.KernelIdeal.KValue

open Idealize.ShloMosaic Idealize.ShloMosaic.TcCoe Idealize.SL.Sem Idealize.ShloMosaic.ValueIdx
open Idealize.ShloMosaic.Pipeline (Dat)
open Cert.KernelIdeal Cert.KernelIdeal.Gen Cert.Spec
open Cert.KernelIdeal.KPieces Cert.KernelIdeal.KPay Cert.KernelIdeal.KTile

variable (m : (ℓ : Loc nD τ sig) → Buf (Elt Ideal) ℓ) (ρ : Dev nD → PrngReg)

/-- The fifteen argument arrays on device c, as the specification takes them. -/
def args (c : Dev nD) : Args where
  Hp := m ((c : Thread nD τ).loc main_arg0)
  X := m ((c : Thread nD τ).loc main_arg1)
  Wxr := m ((c : Thread nD τ).loc main_arg2)
  bxr := m ((c : Thread nD τ).loc main_arg3)
  Wxz := m ((c : Thread nD τ).loc main_arg4)
  bxz := m ((c : Thread nD τ).loc main_arg5)
  Wxh := m ((c : Thread nD τ).loc main_arg6)
  bxh := m ((c : Thread nD τ).loc main_arg7)
  Whh := m ((c : Thread nD τ).loc main_arg8)
  bhh := m ((c : Thread nD τ).loc main_arg9)
  Wha1 := m ((c : Thread nD τ).loc main_arg10)
  Wha2 := m ((c : Thread nD τ).loc main_arg11)
  bha2 := m ((c : Thread nD τ).loc main_arg12)
  Wy := m ((c : Thread nD τ).loc main_arg13)
  by_ := m ((c : Thread nD τ).loc main_arg14)

/-- The batch and the query tile of a grid point. -/
def bOf (t : Fin cfg0.N) : Fin 8 := ⟨t.val / 4, by have h := t.isLt; have hN : cfg0.N = 32 := N_0; omega⟩
def qOf (t : Fin cfg0.N) : Fin 4 := ⟨t.val % 4, by omega⟩

/-! ## The arrays the region finds: the weights as launched (a change of format is the identity here), the biases as one row -/

theorem V_Wha1 (c : Dev nD) : (V m c main_v4 : S128x64.Idx → EReal) = m ((c : Thread nD τ).loc main_arg10) := by
  dsimp only [V, hostOps0]; after_results; rfl
theorem V_Wha2 (c : Dev nD) : (V m c main_v5 : S128x128.Idx → EReal) = m ((c : Thread nD τ).loc main_arg11) := by
  dsimp only [V, hostOps0]; after_results; rfl
theorem V_bha2 (c : Dev nD) : (V m c main_v11 : S1x128.Idx → EReal) = shapeCast S1x128 (m ((c : Thread nD τ).loc main_arg12)) shapeCasts_S128_S1x128 := by
  dsimp only [V, hostOps0]; after_results; rfl

/-! ## The printed index maps, decided over the 32 grid points -/

theorem idx_in : ∀ t : Fin cfg0.N,
    win0_0.index t (0 : Fin 3) = t.val / 4 ∧ win0_0.index t (1 : Fin 3) = 0 ∧ win0_0.index t (2 : Fin 3) = 0
    ∧ win0_1.index t (0 : Fin 3) = t.val / 4 ∧ win0_1.index t (1 : Fin 3) = 0 ∧ win0_1.index t (2 : Fin 3) = 0
    ∧ win0_15.index t (0 : Fin 3) = t.val / 4 ∧ win0_15.index t (1 : Fin 3) = t.val % 4 ∧ win0_15.index t (2 : Fin 3) = 0
    ∧ win0_16.index t (0 : Fin 3) = t.val / 4 ∧ win0_16.index t (1 : Fin 3) = t.val % 4 ∧ win0_16.index t (2 : Fin 3) = 0
    ∧ k0_off1 (grid0.coords t) (0 : Fin 3) = 0 ∧ k0_off1 (grid0.coords t) (1 : Fin 3) = 512 * (t.val % 4) ∧ k0_off1 (grid0.coords t) (2 : Fin 3) = 0
    ∧ k0_off2 (grid0.coords t) (0 : Fin 3) = 0 ∧ k0_off2 (grid0.coords t) (1 : Fin 3) = 512 * (t.val % 4) ∧ k0_off2 (grid0.coords t) (2 : Fin 3) = 0 :=
  (by decide +kernel : ∀ t : Fin grid0.N, _)

theorem idx_const : ∀ t : Fin cfg0.N, (∀ a : Fin 2, win0_2.index t a = 0) ∧ (∀ a : Fin 2, win0_3.index t a = 0)
    ∧ (∀ a : Fin 2, win0_4.index t a = 0) ∧ (∀ a : Fin 2, win0_5.index t a = 0) ∧ (∀ a : Fin 2, win0_6.index t a = 0)
    ∧ (∀ a : Fin 2, win0_7.index t a = 0) ∧ (∀ a : Fin 2, win0_8.index t a = 0) ∧ (∀ a : Fin 2, win0_9.index t a = 0)
    ∧ (∀ a : Fin 2, win0_10.index t a = 0) ∧ (∀ a : Fin 2, win0_11.index t a = 0) ∧ (∀ a : Fin 2, win0_12.index t a = 0)
    ∧ (∀ a : Fin 2, win0_13.index t a = 0) ∧ (∀ a : Fin 2, win0_14.index t a = 0) :=
  (by decide +kernel : ∀ t : Fin grid0.N, _)

/-! ## What each block holds -/

/-- The state block of a point is its batch's rows of the state. -/
theorem iblk0_apply (c : Dev nD) (t : Fin cfg0.N) (n : Fin 2048) (h : Fin 128) :
    (iblk m c 0 t : Vec Ideal S1x2048x128 .f32) (ix3 (0 : Fin 1) n h) = (args m c).Hp (ix3 (bOf t) n h) := by
  obtain ⟨e0, e1, e2, -⟩ := idx_in t
  unfold iblk
  show V m c main_arg0 (((cfg0.win 0).blk t).view.emb (ix3 (0 : Fin 1) n h)) = m ((c : Thread nD τ).loc main_arg0) (ix3 (bOf t) n h)
  rw [V_main_arg0]
  refine congrArg _ (funext fun a => Fin.ext ?_)
  match a with
  | ⟨0, _⟩ => show win0_0.index t (0 : Fin 3) * 1 + 1 * 0 = t.val / 4; omega
  | ⟨1, _⟩ => show win0_0.index t (1 : Fin 3) * 2048 + 1 * n.val = n.val; omega
  | ⟨2, _⟩ => show win0_0.index t (2 : Fin 3) * 128 + 1 * h.val = h.val; omega

theorem V_Wxr (c : Dev nD) : (V m c main_v0 : S128x64.Idx → EReal) = m ((c : Thread nD τ).loc main_arg2) := by
  dsimp only [V, hostOps0]; after_results; rfl
theorem V_Wxz (c : Dev nD) : (V m c main_v1 : S128x64.Idx → EReal) = m ((c : Thread nD τ).loc main_arg4) := by
  dsimp only [V, hostOps0]; after_results; rfl
theorem V_Wxh (c : Dev nD) : (V m c main_v2 : S128x64.Idx → EReal) = m ((c : Thread nD τ).loc main_arg6) := by
  dsimp only [V, hostOps0]; after_results; rfl
theorem V_Whh (c : Dev nD) : (V m c main_v3 : S128x128.Idx → EReal) = m ((c : Thread nD τ).loc main_arg8) := by
  dsimp only [V, hostOps0]; after_results; rfl
theorem V_Wy (c : Dev nD) : (V m c main_v6 : S64x128.Idx → EReal) = m ((c : Thread nD τ).loc main_arg13) := by
  dsimp only [V, hostOps0]; after_results; rfl
theorem V_bxr (c : Dev nD) : (V m c main_v7 : S1x128.Idx → EReal) = shapeCast S1x128 (m ((c : Thread nD τ).loc main_arg3)) shapeCasts_S128_S1x128 := by
  dsimp only [V, hostOps0]; after_results; rfl
theorem V_bxz (c : Dev nD) : (V m c main_v8 : S1x128.Idx → EReal) = shapeCast S1x128 (m ((c : Thread nD τ).loc main_arg5)) shapeCasts_S128_S1x128 := by
  dsimp only [V, hostOps0]; after_results; rfl
theorem V_bxh (c : Dev nD) : (V m c main_v9 : S1x128.Idx → EReal) = shapeCast S1x128 (m ((c : Thread nD τ).loc main_arg7)) shapeCasts_S128_S1x128 := by
  dsimp only [V, hostOps0]; after_results; rfl
theorem V_bhh (c : Dev nD) : (V m c main_v10 : S1x128.Idx → EReal) = shapeCast S1x128 (m ((c : Thread nD τ).loc main_arg9)) shapeCasts_S128_S1x128 := by
  dsimp only [V, hostOps0]; after_results; rfl
theorem V_by (c : Dev nD) : (V m c main_v12 : S1x64.Idx → EReal) = shapeCast S1x64 (m ((c : Thread nD τ).loc main_arg14)) shapeCasts_S64_S1x64 := by
  dsimp only [V, hostOps0]; after_results; rfl

/-- The input block of a point is its batch's rows of the input. -/
theorem iblk1_apply (c : Dev nD) (t : Fin cfg0.N) (n : Fin 2048) (k : Fin 64) :
    (iblk m c 1 t : Vec Ideal S1x2048x64 .f32) (ix3 (0 : Fin 1) n k) = (args m c).X (ix3 (bOf t) n k) := by
  obtain ⟨-, -, -, e0, e1, e2, -⟩ := idx_in t
  unfold iblk
  show V m c main_arg1 (((cfg0.win 1).blk t).view.emb (ix3 (0 : Fin 1) n k)) = m ((c : Thread nD τ).loc main_arg1) (ix3 (bOf t) n k)
  rw [V_main_arg1]
  refine congrArg _ (funext fun a => Fin.ext ?_)
  match a with
  | ⟨0, _⟩ => show win0_1.index t (0 : Fin 3) * 1 + 1 * 0 = t.val / 4; omega
  | ⟨1, _⟩ => show win0_1.index t (1 : Fin 3) * 2048 + 1 * n.val = n.val; omega
  | ⟨2, _⟩ => show win0_1.index t (2 : Fin 3) * 64 + 1 * k.val = k.val; omega

/-! A weight's block is the whole weight at every point; a bias's block is the bias as one row. -/

theorem iblk2_apply (c : Dev nD) (t : Fin cfg0.N) (p : Fin 128) (k : Fin 64) :
    (iblk m c 2 t : Vec Ideal S128x64 .bf16) (ix2 p k) = (args m c).Wha1 (ix2 p k) := by
  obtain ⟨e, -, -, -, -, -, -, -, -, -, -, -, -⟩ := idx_const t
  unfold iblk
  show (V m c main_v4 : S128x64.Idx → EReal) (((cfg0.win 2).blk t).view.emb (ix2 p k)) = m ((c : Thread nD τ).loc main_arg10) (ix2 p k)
  rw [V_Wha1]
  refine congrArg _ (funext fun a => Fin.ext ?_)
  match a with
  | ⟨0, _⟩ => show win0_2.index t (0 : Fin 2) * 128 + 1 * p.val = p.val; rw [e 0]; omega
  | ⟨1, _⟩ => show win0_2.index t (1 : Fin 2) * 64 + 1 * k.val = k.val; rw [e 1]; omega

theorem iblk3_apply (c : Dev nD) (t : Fin cfg0.N) (p : Fin 128) (k : Fin 128) :
    (iblk m c 3 t : Vec Ideal S128x128 .bf16) (ix2 p k) = (args m c).Wha2 (ix2 p k) := by
  obtain ⟨-, e, -, -, -, -, -, -, -, -, -, -, -⟩ := idx_const t
  unfold iblk
  show (V m c main_v5 : S128x128.Idx → EReal) (((cfg0.win 3).blk t).view.emb (ix2 p k)) = m ((c : Thread nD τ).loc main_arg11) (ix2 p k)
  rw [V_Wha2]
  refine congrArg _ (funext fun a => Fin.ext ?_)
  match a with
  | ⟨0, _⟩ => show win0_3.index t (0 : Fin 2) * 128 + 1 * p.val = p.val; rw [e 0]; omega
  | ⟨1, _⟩ => show win0_3.index t (1 : Fin 2) * 128 + 1 * k.val = k.val; rw [e 1]; omega

theorem iblk5_apply (c : Dev nD) (t : Fin cfg0.N) (p : Fin 128) (k : Fin 64) :
    (iblk m c 5 t : Vec Ideal S128x64 .bf16) (ix2 p k) = (args m c).Wxr (ix2 p k) := by
  obtain ⟨-, -, -, e, -, -, -, -, -, -, -, -, -⟩ := idx_const t
  unfold iblk
  show (V m c main_v0 : S128x64.Idx → EReal) (((cfg0.win 5).blk t).view.emb (ix2 p k)) = m ((c : Thread nD τ).loc main_arg2) (ix2 p k)
  rw [V_Wxr]
  refine congrArg _ (funext fun a => Fin.ext ?_)
  match a with
  | ⟨0, _⟩ => show win0_5.index t (0 : Fin 2) * 128 + 1 * p.val = p.val; rw [e 0]; omega
  | ⟨1, _⟩ => show win0_5.index t (1 : Fin 2) * 64 + 1 * k.val = k.val; rw [e 1]; omega

theorem iblk7_apply (c : Dev nD) (t : Fin cfg0.N) (p : Fin 128) (k : Fin 64) :
    (iblk m c 7 t : Vec Ideal S128x64 .bf16) (ix2 p k) = (args m c).Wxz (ix2 p k) := by
  obtain ⟨-, -, -, -, -, e, -, -, -, -, -, -, -⟩ := idx_const t
  unfold iblk
  show (V m c main_v1 : S128x64.Idx → EReal) (((cfg0.win 7).blk t).view.emb (ix2 p k)) = m ((c : Thread nD τ).loc main_arg4) (ix2 p k)
  rw [V_Wxz]
  refine congrArg _ (funext fun a => Fin.ext ?_)
  match a with
  | ⟨0, _⟩ => show win0_7.index t (0 : Fin 2) * 128 + 1 * p.val = p.val; rw [e 0]; omega
  | ⟨1, _⟩ => show win0_7.index t (1 : Fin 2) * 64 + 1 * k.val = k.val; rw [e 1]; omega

theorem iblk9_apply (c : Dev nD) (t : Fin cfg0.N) (p : Fin 128) (k : Fin 64) :
    (iblk m c 9 t : Vec Ideal S128x64 .bf16) (ix2 p k) = (args m c).Wxh (ix2 p k) := by
  obtain ⟨-, -, -, -, -, -, -, e, -, -, -, -, -⟩ := idx_const t
  unfold iblk
  show (V m c main_v2 : S128x64.Idx → EReal) (((cfg0.win 9).blk t).view.emb (ix2 p k)) = m ((c : Thread nD τ).loc main_arg6) (ix2 p k)
  rw [V_Wxh]
  refine congrArg _ (funext fun a => Fin.ext ?_)
  match a with
  | ⟨0, _⟩ => show win0_9.index t (0 : Fin 2) * 128 + 1 * p.val = p.val; rw [e 0]; omega
  | ⟨1, _⟩ => show win0_9.index t (1 : Fin 2) * 64 + 1 * k.val = k.val; rw [e 1]; omega

theorem iblk11_apply (c : Dev nD) (t : Fin cfg0.N) (p : Fin 128) (k : Fin 128) :
    (iblk m c 11 t : Vec Ideal S128x128 .bf16) (ix2 p k) = (args m c).Whh (ix2 p k) := by
  obtain ⟨-, -, -, -, -, -, -, -, -, e, -, -, -⟩ := idx_const t
  unfold iblk
  show (V m c main_v3 : S128x128.Idx → EReal) (((cfg0.win 11).blk t).view.emb (ix2 p k)) = m ((c : Thread nD τ).loc main_arg8) (ix2 p k)
  rw [V_Whh]
  refine congrArg _ (funext fun a => Fin.ext ?_)
  match a with
  | ⟨0, _⟩ => show win0_11.index t (0 : Fin 2) * 128 + 1 * p.val = p.val; rw [e 0]; omega
  | ⟨1, _⟩ => show win0_11.index t (1 : Fin 2) * 128 + 1 * k.val = k.val; rw [e 1]; omega

theorem iblk13_apply (c : Dev nD) (t : Fin cfg0.N) (p : Fin 64) (k : Fin 128) :
    (iblk m c 13 t : Vec Ideal S64x128 .bf16) (ix2 p k) = (args m c).Wy (ix2 p k) := by
  obtain ⟨-, -, -, -, -, -, -, -, -, -, -, e, -⟩ := idx_const t
  unfold iblk
  show (V m c main_v6 : S64x128.Idx → EReal) (((cfg0.win 13).blk t).view.emb (ix2 p k)) = m ((c : Thread nD τ).loc main_arg13) (ix2 p k)
  rw [V_Wy]
  refine congrArg _ (funext fun a => Fin.ext ?_)
  match a with
  | ⟨0, _⟩ => show win0_13.index t (0 : Fin 2) * 64 + 1 * p.val = p.val; rw [e 0]; omega
  | ⟨1, _⟩ => show win0_13.index t (1 : Fin 2) * 128 + 1 * k.val = k.val; rw [e 1]; omega

theorem iblk4_apply (c : Dev nD) (t : Fin cfg0.N) (g : Fin 128) :
    (iblk m c 4 t : Vec Ideal S1x128 .f32) (ix2 (0 : Fin 1) g) = (args m c).bha2 (ix1 g) := by
  obtain ⟨-, -, e, -, -, -, -, -, -, -, -, -, -⟩ := idx_const t
  unfold iblk
  show (V m c main_v11 : S1x128.Idx → EReal) (((cfg0.win 4).blk t).view.emb (ix2 (0 : Fin 1) g)) = m ((c : Thread nD τ).loc main_arg12) (ix1 g)
  rw [V_bha2]
  have hi : ((cfg0.win 4).blk t).view.emb (ix2 (0 : Fin 1) g) = ix2 (0 : Fin 1) g := funext fun a => Fin.ext (by
    match a with
    | ⟨0, _⟩ => show win0_4.index t (0 : Fin 2) * 1 + 1 * 0 = 0; rw [e 0]
    | ⟨1, _⟩ => show win0_4.index t (1 : Fin 2) * 128 + 1 * g.val = g.val; rw [e 1]; omega)
  rw [hi]
  exact shapeCast_a_1a_apply _ _ (0 : Fin 1) g

theorem iblk6_apply (c : Dev nD) (t : Fin cfg0.N) (g : Fin 128) :
    (iblk m c 6 t : Vec Ideal S1x128 .f32) (ix2 (0 : Fin 1) g) = (args m c).bxr (ix1 g) := by
  obtain ⟨-, -, -, -, e, -, -, -, -, -, -, -, -⟩ := idx_const t
  unfold iblk
  show (V m c main_v7 : S1x128.Idx → EReal) (((cfg0.win 6).blk t).view.emb (ix2 (0 : Fin 1) g)) = m ((c : Thread nD τ).loc main_arg3) (ix1 g)
  rw [V_bxr]
  have hi : ((cfg0.win 6).blk t).view.emb (ix2 (0 : Fin 1) g) = ix2 (0 : Fin 1) g := funext fun a => Fin.ext (by
    match a with
    | ⟨0, _⟩ => show win0_6.index t (0 : Fin 2) * 1 + 1 * 0 = 0; rw [e 0]
    | ⟨1, _⟩ => show win0_6.index t (1 : Fin 2) * 128 + 1 * g.val = g.val; rw [e 1]; omega)
  rw [hi]
  exact shapeCast_a_1a_apply _ _ (0 : Fin 1) g

theorem iblk8_apply (c : Dev nD) (t : Fin cfg0.N) (g : Fin 128) :
    (iblk m c 8 t : Vec Ideal S1x128 .f32) (ix2 (0 : Fin 1) g) = (args m c).bxz (ix1 g) := by
  obtain ⟨-, -, -, -, -, -, e, -, -, -, -, -, -⟩ := idx_const t
  unfold iblk
  show (V m c main_v8 : S1x128.Idx → EReal) (((cfg0.win 8).blk t).view.emb (ix2 (0 : Fin 1) g)) = m ((c : Thread nD τ).loc main_arg5) (ix1 g)
  rw [V_bxz]
  have hi : ((cfg0.win 8).blk t).view.emb (ix2 (0 : Fin 1) g) = ix2 (0 : Fin 1) g := funext fun a => Fin.ext (by
    match a with
    | ⟨0, _⟩ => show win0_8.index t (0 : Fin 2) * 1 + 1 * 0 = 0; rw [e 0]
    | ⟨1, _⟩ => show win0_8.index t (1 : Fin 2) * 128 + 1 * g.val = g.val; rw [e 1]; omega)
  rw [hi]
  exact shapeCast_a_1a_apply _ _ (0 : Fin 1) g

theorem iblk10_apply (c : Dev nD) (t : Fin cfg0.N) (g : Fin 128) :
    (iblk m c 10 t : Vec Ideal S1x128 .f32) (ix2 (0 : Fin 1) g) = (args m c).bxh (ix1 g) := by
  obtain ⟨-, -, -, -, -, -, -, -, e, -, -, -, -⟩ := idx_const t
  unfold iblk
  show (V m c main_v9 : S1x128.Idx → EReal) (((cfg0.win 10).blk t).view.emb (ix2 (0 : Fin 1) g)) = m ((c : Thread nD τ).loc main_arg7) (ix1 g)
  rw [V_bxh]
  have hi : ((cfg0.win 10).blk t).view.emb (ix2 (0 : Fin 1) g) = ix2 (0 : Fin 1) g := funext fun a => Fin.ext (by
    match a with
    | ⟨0, _⟩ => show win0_10.index t (0 : Fin 2) * 1 + 1 * 0 = 0; rw [e 0]
    | ⟨1, _⟩ => show win0_10.index t (1 : Fin 2) * 128 + 1 * g.val = g.val; rw [e 1]; omega)
  rw [hi]
  exact shapeCast_a_1a_apply _ _ (0 : Fin 1) g

theorem iblk12_apply (c : Dev nD) (t : Fin cfg0.N) (g : Fin 128) :
    (iblk m c 12 t : Vec Ideal S1x128 .f32) (ix2 (0 : Fin 1) g) = (args m c).bhh (ix1 g) := by
  obtain ⟨-, -, -, -, -, -, -, -, -, -, e, -, -⟩ := idx_const t
  unfold iblk
  show (V m c main_v10 : S1x128.Idx → EReal) (((cfg0.win 12).blk t).view.emb (ix2 (0 : Fin 1) g)) = m ((c : Thread nD τ).loc main_arg9) (ix1 g)
  rw [V_bhh]
  have hi : ((cfg0.win 12).blk t).view.emb (ix2 (0 : Fin 1) g) = ix2 (0 : Fin 1) g := funext fun a => Fin.ext (by
    match a with
    | ⟨0, _⟩ => show win0_12.index t (0 : Fin 2) * 1 + 1 * 0 = 0; rw [e 0]
    | ⟨1, _⟩ => show win0_12.index t (1 : Fin 2) * 128 + 1 * g.val = g.val; rw [e 1]; omega)
  rw [hi]
  exact shapeCast_a_1a_apply _ _ (0 : Fin 1) g

theorem iblk14_apply (c : Dev nD) (t : Fin cfg0.N) (g : Fin 64) :
    (iblk m c 14 t : Vec Ideal S1x64 .f32) (ix2 (0 : Fin 1) g) = (args m c).by_ (ix1 g) := by
  obtain ⟨-, -, -, -, -, -, -, -, -, -, -, -, e⟩ := idx_const t
  unfold iblk
  show (V m c main_v12 : S1x64.Idx → EReal) (((cfg0.win 14).blk t).view.emb (ix2 (0 : Fin 1) g)) = m ((c : Thread nD τ).loc main_arg14) (ix1 g)
  rw [V_by]
  have hi : ((cfg0.win 14).blk t).view.emb (ix2 (0 : Fin 1) g) = ix2 (0 : Fin 1) g := funext fun a => Fin.ext (by
    match a with
    | ⟨0, _⟩ => show win0_14.index t (0 : Fin 2) * 1 + 1 * 0 = 0; rw [e 0]
    | ⟨1, _⟩ => show win0_14.index t (1 : Fin 2) * 64 + 1 * g.val = g.val; rw [e 1]; omega)
  rw [hi]
  exact shapeCast_a_1a_apply _ _ (0 : Fin 1) g

/-- The rows a point slices out of its resident blocks are its query tile's rows. -/
theorem qH_apply (c : Dev nD) (t : Fin cfg0.N) (r : Fin 512) (h : Fin 128) :
    qH (grid0.coords t) (iblk m c 0 t : Vec Ideal S1x2048x128 .f32) (ix3 (0 : Fin 1) r h)
      = (args m c).Hp (ix3 (bOf t) (row (qOf t) r) h) := by
  obtain ⟨-, -, -, -, -, -, -, -, -, -, -, -, -, -, -, o0, o1, o2⟩ := idx_in t
  unfold qH
  show (iblk m c 0 t : Vec Ideal S1x2048x128 .f32)
      ((Rect.unit (s := S1x2048x128) (k0_off2 (grid0.coords t)) S1x512x128.size (k0_off2_inb (grid0.coords t))).emb (ix3 (0 : Fin 1) r h)) = _
  have hi : (Rect.unit (s := S1x2048x128) (k0_off2 (grid0.coords t)) S1x512x128.size (k0_off2_inb (grid0.coords t))).emb (ix3 (0 : Fin 1) r h)
      = ix3 (0 : Fin 1) (row (qOf t) r) h := funext fun a => Fin.ext (by
    match a with
    | ⟨0, _⟩ => show k0_off2 (grid0.coords t) (0 : Fin 3) + 1 * 0 = 0; omega
    | ⟨1, _⟩ => show k0_off2 (grid0.coords t) (1 : Fin 3) + 1 * r.val = 512 * (t.val % 4) + r.val; omega
    | ⟨2, _⟩ => show k0_off2 (grid0.coords t) (2 : Fin 3) + 1 * h.val = h.val; omega)
  rw [hi]
  exact iblk0_apply m c t _ h

theorem qX_apply (c : Dev nD) (t : Fin cfg0.N) (r : Fin 512) (k : Fin 64) :
    qX (grid0.coords t) (iblk m c 1 t : Vec Ideal S1x2048x64 .f32) (ix3 (0 : Fin 1) r k)
      = (args m c).X (ix3 (bOf t) (row (qOf t) r) k) := by
  obtain ⟨-, -, -, -, -, -, -, -, -, -, -, -, o0, o1, o2, -⟩ := idx_in t
  unfold qX
  show (iblk m c 1 t : Vec Ideal S1x2048x64 .f32)
      ((Rect.unit (s := S1x2048x64) (k0_off1 (grid0.coords t)) S1x512x64.size (k0_off1_inb (grid0.coords t))).emb (ix3 (0 : Fin 1) r k)) = _
  have hi : (Rect.unit (s := S1x2048x64) (k0_off1 (grid0.coords t)) S1x512x64.size (k0_off1_inb (grid0.coords t))).emb (ix3 (0 : Fin 1) r k)
      = ix3 (0 : Fin 1) (row (qOf t) r) k := funext fun a => Fin.ext (by
    match a with
    | ⟨0, _⟩ => show k0_off1 (grid0.coords t) (0 : Fin 3) + 1 * 0 = 0; omega
    | ⟨1, _⟩ => show k0_off1 (grid0.coords t) (1 : Fin 3) + 1 * r.val = 512 * (t.val % 4) + r.val; omega
    | ⟨2, _⟩ => show k0_off1 (grid0.coords t) (2 : Fin 3) + 1 * k.val = k.val; omega)
  rw [hi]
  exact iblk1_apply m c t _ k

/-! ## The cached key rows after every point -/

/-- At a batch's first tile the point leaves that batch's key rows. -/
theorem scratch_A (c : Dev nD) (t : Fin cfg0.N) (h0 : t.val % 4 = 0) (n : Fin 2048) (g : Fin 128) :
    ((outsAt0 m c t.val t.isLt).2.2 : Vec Ideal S2048x128 .bf16) (ix2 n g) = rhs (args m c) (bOf t) n g := by
  rw [outsAt0_A m c t h0]
  dsimp only
  refine (congrFun (sout_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) (ix2 n g)).trans ?_
  exact pay4_spec (args m c) (bOf t) (iblk m c 0 t) (iblk m c 3 t) (iblk m c 4 t) (iblk0_apply m c t) (iblk3_apply m c t) (iblk4_apply m c t) n g

/-- After every point the cached rows are the key rows of the point's batch: stored at the batch's first tile, kept by
    the three tiles after it. By induction on the point. -/
theorem scratch_spec (c : Dev nD) : ∀ (p : ℕ) (hp : p < cfg0.N) (n : Fin 2048) (g : Fin 128),
    ((outsAt0 m c p hp).2.2 : Vec Ideal S2048x128 .bf16) (ix2 n g) = rhs (args m c) (bOf ⟨p, hp⟩) n g := by
  intro p
  induction p with
  | zero => intro hp n g; exact scratch_A m c ⟨0, hp⟩ rfl n g
  | succ p ih =>
    intro hp n g
    by_cases h0 : (p + 1) % 4 = 0
    · exact scratch_A m c ⟨p + 1, hp⟩ h0 n g
    · rw [outsAt0_B m c ⟨p + 1, hp⟩ h0]
      dsimp only [sout0_B_0]
      have hb : bOf ⟨p + 1, hp⟩ = bOf ⟨p, Nat.lt_of_succ_lt hp⟩ := Fin.ext (by show (p + 1) / 4 = p / 4; omega)
      rw [hb]
      exact ih (Nat.lt_of_succ_lt hp) n g

/-! ## What each point writes back -/

theorem flushed16_at (c : Dev nD) (t : Fin cfg0.N) (r : Fin 512) (k : Fin 128) :
    ((dats m 0 c).flushed 16 t : Vec Ideal S1x512x128 .f32) (ix3 (0 : Fin 1) r k) = newH (args m c) (bOf t) (row (qOf t) r) k := by
  by_cases h0 : t.val % 4 = 0
  · rw [Value.flushed16_A m c t h0]
    refine (congrFun (out16_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) (ix3 (0 : Fin 1) r k)).trans ?_
    exact tileH_spec (args m c) (bOf t) (qOf t) (grid0.coords t) (iblk m c 0 t) (iblk m c 1 t) (iblk m c 2 t) (iblk m c 5 t) (iblk m c 7 t) (iblk m c 9 t) (iblk m c 6 t) (iblk m c 8 t) (iblk m c 10 t) (iblk m c 12 t) (iblk m c 11 t) (iblk m c 13 t) (iblk m c 14 t) (k0_pay4 (iblk m c 0 t) (iblk m c 3 t) (iblk m c 4 t))
      (qH_apply m c t) (qX_apply m c t) (iblk1_apply m c t) (iblk2_apply m c t) (iblk5_apply m c t) (iblk6_apply m c t) (iblk7_apply m c t) (iblk8_apply m c t) (iblk9_apply m c t) (iblk10_apply m c t) (iblk11_apply m c t) (iblk12_apply m c t) (iblk13_apply m c t) (iblk14_apply m c t)
      (fun n g => pay4_spec (args m c) (bOf t) (iblk m c 0 t) (iblk m c 3 t) (iblk m c 4 t) (iblk0_apply m c t) (iblk3_apply m c t) (iblk4_apply m c t) n g) r k
  · rw [Value.flushed16_B m c t h0]
    refine (congrFun (out16_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) ((outsAt0 m c (t.val - 1) (Nat.lt_of_le_of_lt (Nat.sub_le _ _) t.isLt)).2.2)) (ix3 (0 : Fin 1) r k)).trans ?_
    have hb : bOf ⟨t.val - 1, Nat.lt_of_le_of_lt (Nat.sub_le _ _) t.isLt⟩ = bOf t :=
      Fin.ext (by show (t.val - 1) / 4 = t.val / 4; omega)
    exact tileH_spec (args m c) (bOf t) (qOf t) (grid0.coords t) (iblk m c 0 t) (iblk m c 1 t) (iblk m c 2 t) (iblk m c 5 t) (iblk m c 7 t) (iblk m c 9 t) (iblk m c 6 t) (iblk m c 8 t) (iblk m c 10 t) (iblk m c 12 t) (iblk m c 11 t) (iblk m c 13 t) (iblk m c 14 t) ((outsAt0 m c (t.val - 1) (Nat.lt_of_le_of_lt (Nat.sub_le _ _) t.isLt)).2.2)
      (qH_apply m c t) (qX_apply m c t) (iblk1_apply m c t) (iblk2_apply m c t) (iblk5_apply m c t) (iblk6_apply m c t) (iblk7_apply m c t) (iblk8_apply m c t) (iblk9_apply m c t) (iblk10_apply m c t) (iblk11_apply m c t) (iblk12_apply m c t) (iblk13_apply m c t) (iblk14_apply m c t)
      (fun n g => (scratch_spec m c (t.val - 1) (Nat.lt_of_le_of_lt (Nat.sub_le _ _) t.isLt) n g).trans (by rw [hb])) r k

theorem flushed15_at (c : Dev nD) (t : Fin cfg0.N) (r : Fin 512) (k : Fin 64) :
    ((dats m 0 c).flushed 15 t : Vec Ideal S1x512x64 .f32) (ix3 (0 : Fin 1) r k) = outY (args m c) (bOf t) (row (qOf t) r) k := by
  by_cases h0 : t.val % 4 = 0
  · rw [Value.flushed15_A m c t h0]
    refine (congrFun (out15_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) (ix3 (0 : Fin 1) r k)).trans ?_
    exact tileY_spec (args m c) (bOf t) (qOf t) (grid0.coords t) (iblk m c 0 t) (iblk m c 1 t) (iblk m c 2 t) (iblk m c 5 t) (iblk m c 7 t) (iblk m c 9 t) (iblk m c 6 t) (iblk m c 8 t) (iblk m c 10 t) (iblk m c 12 t) (iblk m c 11 t) (iblk m c 13 t) (iblk m c 14 t) (k0_pay4 (iblk m c 0 t) (iblk m c 3 t) (iblk m c 4 t))
      (qH_apply m c t) (qX_apply m c t) (iblk1_apply m c t) (iblk2_apply m c t) (iblk5_apply m c t) (iblk6_apply m c t) (iblk7_apply m c t) (iblk8_apply m c t) (iblk9_apply m c t) (iblk10_apply m c t) (iblk11_apply m c t) (iblk12_apply m c t) (iblk13_apply m c t) (iblk14_apply m c t)
      (fun n g => pay4_spec (args m c) (bOf t) (iblk m c 0 t) (iblk m c 3 t) (iblk m c 4 t) (iblk0_apply m c t) (iblk3_apply m c t) (iblk4_apply m c t) n g) r k
  · rw [Value.flushed15_B m c t h0]
    refine (congrFun (out15_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) ((outsAt0 m c (t.val - 1) (Nat.lt_of_le_of_lt (Nat.sub_le _ _) t.isLt)).2.2)) (ix3 (0 : Fin 1) r k)).trans ?_
    have hb : bOf ⟨t.val - 1, Nat.lt_of_le_of_lt (Nat.sub_le _ _) t.isLt⟩ = bOf t :=
      Fin.ext (by show (t.val - 1) / 4 = t.val / 4; omega)
    exact tileY_spec (args m c) (bOf t) (qOf t) (grid0.coords t) (iblk m c 0 t) (iblk m c 1 t) (iblk m c 2 t) (iblk m c 5 t) (iblk m c 7 t) (iblk m c 9 t) (iblk m c 6 t) (iblk m c 8 t) (iblk m c 10 t) (iblk m c 12 t) (iblk m c 11 t) (iblk m c 13 t) (iblk m c 14 t) ((outsAt0 m c (t.val - 1) (Nat.lt_of_le_of_lt (Nat.sub_le _ _) t.isLt)).2.2)
      (qH_apply m c t) (qX_apply m c t) (iblk1_apply m c t) (iblk2_apply m c t) (iblk5_apply m c t) (iblk6_apply m c t) (iblk7_apply m c t) (iblk8_apply m c t) (iblk9_apply m c t) (iblk10_apply m c t) (iblk11_apply m c t) (iblk12_apply m c t) (iblk13_apply m c t) (iblk14_apply m c t)
      (fun n g => (scratch_spec m c (t.val - 1) (Nat.lt_of_le_of_lt (Nat.sub_le _ _) t.isLt) n g).trans (by rw [hb])) r k

/-- A point writes back its block of the specification's new state … -/
theorem flushed16_eq (c : Dev nD) (t : Fin cfg0.N) :
    (dats m 0 c).flushed 16 t = ((cfg0.win 16).blk t).view.read (Elt Ideal) (specH (args m c)) := by
  funext y
  show ((dats m 0 c).flushed 16 t : Vec Ideal S1x512x128 .f32) y = specH (args m c) (((cfg0.win 16).blk t).view.emb y)
  obtain ⟨u, r, h, rfl⟩ : ∃ (u : Fin 1) (r : Fin 512) (h : Fin 128), y = ix3 u r h := ⟨y 0, y 1, y 2, eq_ix3 y⟩
  obtain rfl : u = 0 := Subsingleton.elim _ _
  obtain ⟨-, -, -, -, -, -, -, -, -, e0, e1, e2, -⟩ := idx_in t
  have hemb : ((cfg0.win 16).blk t).view.emb (ix3 (0 : Fin 1) r h) = ix3 (bOf t) (row (qOf t) r) h := funext fun a => Fin.ext (by
    match a with
    | ⟨0, _⟩ => show win0_16.index t (0 : Fin 3) * 1 + 1 * 0 = t.val / 4; omega
    | ⟨1, _⟩ => show win0_16.index t (1 : Fin 3) * 512 + 1 * r.val = 512 * (t.val % 4) + r.val; omega
    | ⟨2, _⟩ => show win0_16.index t (2 : Fin 3) * 128 + 1 * h.val = h.val; omega)
  rw [hemb, specH_apply]
  exact flushed16_at m c t r h

/-- … and its block of the specification's output. -/
theorem flushed15_eq (c : Dev nD) (t : Fin cfg0.N) :
    (dats m 0 c).flushed 15 t = ((cfg0.win 15).blk t).view.read (Elt Ideal) (specY (args m c)) := by
  funext y
  show ((dats m 0 c).flushed 15 t : Vec Ideal S1x512x64 .f32) y = specY (args m c) (((cfg0.win 15).blk t).view.emb y)
  obtain ⟨u, r, k, rfl⟩ : ∃ (u : Fin 1) (r : Fin 512) (k : Fin 64), y = ix3 u r k := ⟨y 0, y 1, y 2, eq_ix3 y⟩
  obtain rfl : u = 0 := Subsingleton.elim _ _
  obtain ⟨-, -, -, -, -, -, e0, e1, e2, -⟩ := idx_in t
  have hemb : ((cfg0.win 15).blk t).view.emb (ix3 (0 : Fin 1) r k) = ix3 (bOf t) (row (qOf t) r) k := funext fun a => Fin.ext (by
    match a with
    | ⟨0, _⟩ => show win0_15.index t (0 : Fin 3) * 1 + 1 * 0 = t.val / 4; omega
    | ⟨1, _⟩ => show win0_15.index t (1 : Fin 3) * 512 + 1 * r.val = 512 * (t.val % 4) + r.val; omega
    | ⟨2, _⟩ => show win0_15.index t (2 : Fin 3) * 64 + 1 * k.val = k.val; omega)
  rw [hemb, specY_apply]
  exact flushed15_at m c t r k

/-! ## The blocks tile the arrays: row n of batch b lies in the block of point 4·b + n / 512 -/

theorem mem_blk16 (t : Fin cfg0.N) (i : S8x2048x128.Idx) :
    i ∈ ((cfg0.win 16).blk t).view.set ↔ ∀ a : Fin 3, win0_16.index t a * S1x512x128.size a ≤ (i a).val
      ∧ (i a).val < win0_16.index t a * S1x512x128.size a + S1x512x128.size a := by
  show i ∈ ((View.whole main_v13_1).slice (win0_16.rect t)).set ↔ _
  rw [View.set_slice_whole, Rect.mem_set_unit]
  exact Iff.rfl

theorem mem_blk15 (t : Fin cfg0.N) (i : S8x2048x64.Idx) :
    i ∈ ((cfg0.win 15).blk t).view.set ↔ ∀ a : Fin 3, win0_15.index t a * S1x512x64.size a ≤ (i a).val
      ∧ (i a).val < win0_15.index t a * S1x512x64.size a + S1x512x64.size a := by
  show i ∈ ((View.whole main_v13_0).slice (win0_15.rect t)).set ↔ _
  rw [View.set_slice_whole, Rect.mem_set_unit]
  exact Iff.rfl

theorem cover16 (i : S8x2048x128.Idx) :
    ∃ t : Fin cfg0.N, (cfg0.win 16).flush t = true ∧ i ∈ ((cfg0.win 16).blk t).view.set := by
  have hN : cfg0.N = 32 := N_0
  have hN' : grid0.N = 32 := N_0
  have h0 : (i 0).val < 8 := (i 0).isLt
  have h1 : (i 1).val < 2048 := (i 1).isLt
  have h2 : (i 2).val < 128 := (i 2).isLt
  refine ⟨⟨4 * (i 0).val + (i 1).val / 512, by omega⟩, flush0_16 _, ?_⟩
  rw [mem_blk16]
  obtain ⟨-, -, -, -, -, -, -, -, -, e0, e1, e2, -⟩ := idx_in ⟨4 * (i 0).val + (i 1).val / 512, by omega⟩
  have e0' : win0_16.index ⟨4 * (i 0).val + (i 1).val / 512, by omega⟩ (0 : Fin 3) = (4 * (i 0).val + (i 1).val / 512) / 4 := e0
  have e1' : win0_16.index ⟨4 * (i 0).val + (i 1).val / 512, by omega⟩ (1 : Fin 3) = (4 * (i 0).val + (i 1).val / 512) % 4 := e1
  intro a
  match a with
  | ⟨0, _⟩ =>
    show win0_16.index _ (0 : Fin 3) * 1 ≤ (i 0).val ∧ (i 0).val < win0_16.index _ (0 : Fin 3) * 1 + 1
    rw [e0']; omega
  | ⟨1, _⟩ =>
    show win0_16.index _ (1 : Fin 3) * 512 ≤ (i 1).val ∧ (i 1).val < win0_16.index _ (1 : Fin 3) * 512 + 512
    rw [e1']; omega
  | ⟨2, _⟩ =>
    show win0_16.index _ (2 : Fin 3) * 128 ≤ (i 2).val ∧ (i 2).val < win0_16.index _ (2 : Fin 3) * 128 + 128
    rw [e2]; omega

theorem cover15 (i : S8x2048x64.Idx) :
    ∃ t : Fin cfg0.N, (cfg0.win 15).flush t = true ∧ i ∈ ((cfg0.win 15).blk t).view.set := by
  have hN : cfg0.N = 32 := N_0
  have hN' : grid0.N = 32 := N_0
  have h0 : (i 0).val < 8 := (i 0).isLt
  have h1 : (i 1).val < 2048 := (i 1).isLt
  have h2 : (i 2).val < 64 := (i 2).isLt
  refine ⟨⟨4 * (i 0).val + (i 1).val / 512, by omega⟩, flush0_15 _, ?_⟩
  rw [mem_blk15]
  obtain ⟨-, -, -, -, -, -, e0, e1, e2, -⟩ := idx_in ⟨4 * (i 0).val + (i 1).val / 512, by omega⟩
  have e0' : win0_15.index ⟨4 * (i 0).val + (i 1).val / 512, by omega⟩ (0 : Fin 3) = (4 * (i 0).val + (i 1).val / 512) / 4 := e0
  have e1' : win0_15.index ⟨4 * (i 0).val + (i 1).val / 512, by omega⟩ (1 : Fin 3) = (4 * (i 0).val + (i 1).val / 512) % 4 := e1
  intro a
  match a with
  | ⟨0, _⟩ =>
    show win0_15.index _ (0 : Fin 3) * 1 ≤ (i 0).val ∧ (i 0).val < win0_15.index _ (0 : Fin 3) * 1 + 1
    rw [e0']; omega
  | ⟨1, _⟩ =>
    show win0_15.index _ (1 : Fin 3) * 512 ≤ (i 1).val ∧ (i 1).val < win0_15.index _ (1 : Fin 3) * 512 + 512
    rw [e1']; omega
  | ⟨2, _⟩ =>
    show win0_15.index _ (2 : Fin 3) * 64 ≤ (i 2).val ∧ (i 2).val < win0_15.index _ (2 : Fin 3) * 64 + 64
    rw [e2]; omega

/-! ## The two result arrays, and the run -/

theorem final16 (c : Dev nD) : (dats m 0 c).arrAt 16 cfg0.N = specH (args m c) :=
  (dats m 0 c).arrAt_eq_of_cover 16 (specH (args m c)) (fun t _ => flushed16_eq m c t) cover16

theorem final15 (c : Dev nD) : (dats m 0 c).arrAt 15 cfg0.N = specY (args m c) :=
  (dats m 0 c).arrAt_eq_of_cover 15 (specY (args m c)) (fun t _ => flushed15_eq m c t) cover15

/-- Every weakly fair execution of the idealized kernel ends with the two result arrays at the specification's output
    and new state of the argument arrays, the arguments unchanged. -/
theorem run : θ_run defs (onTc (τ := τ) (main (F := Ideal))) ⟨m, fun _ => 0, ρ⟩ fun r => ∀ c : Dev nD,
      r.2.mem ((c : Thread nD τ).loc main_v13_0) = specY (args m c)
      ∧ r.2.mem ((c : Thread nD τ).loc main_v13_1) = specH (args m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨(h c).1.trans (final15 m c), (h c).2.1.trans (final16 m c), (h c).2.2⟩)
    (Value.run_blocks m ρ)

end Cert.KernelIdeal.KValue

end
-- ==== Proof.RefDefs.lean ====
/-
  The reference's computation as named stages, each a function of arrays: the operations of one stage of the
  layer composed in the order the program runs them. The run states the program's two results through
  `refH` and `refY`; the stages are read entry by entry elsewhere.

  Stages, for arrays of a batch of 8, rows of 2048, state width 128 and input width 64:
    * `proj64` / `proj128` / `projOut`: a row times a weight matrix's transpose (one contraction over the last axis);
    * `rowBias` / `rowBias64`: a bias vector repeated over batches and rows;
    * `scoreArr`: every query row against every key row of the same batch; `leakyArr`: the rectifier with slope;
    * `rowMaxArr`, `expArr`, `rowSumArr`, `attnArr`: the softmax over the last axis; `ctxArr`: the attended input;
    * `gateArr`: a logistic gate written as 1 / (1 + exp (−x)); `candArr`: the candidate state;
    * `newHArr`: the convex combination of the old state and the candidate; `outYArr`: the output projection.
-/
import proofs.«154985_j72576357368188_2_alg».proof.Proof.Gen.ReferenceIdeal

noncomputable section

namespace Cert.ReferenceIdeal.RefRun

open Cert.ReferenceIdeal Cert.ReferenceIdeal.Gen Idealize.ShloMosaic

variable {F : FTy → Type} [FloatOps F]

/-- Rows of width 64 against a 128 × 64 weight matrix: contraction over the last axis of both. -/
def proj64 (A : FVec F S8x2048x64 .f32) (W : FVec F S128x64 .f32) : FVec F S8x2048x128 .f32 :=
  Host.dotGeneral dot_S8x2048x64_S128x64_S8x2048x128_2_1_01_0_n_n none A W

/-- Rows of width 128 against a 128 × 128 weight matrix. -/
def proj128 (A : FVec F S8x2048x128 .f32) (W : FVec F S128x128 .f32) : FVec F S8x2048x128 .f32 :=
  Host.dotGeneral dot_S8x2048x128_S128x128_S8x2048x128_2_1_01_0_n_n none A W

/-- Rows of width 128 against the 64 × 128 output matrix. -/
def projOut (A : FVec F S8x2048x128 .f32) (W : FVec F S64x128 .f32) : FVec F S8x2048x64 .f32 :=
  Host.dotGeneral dot_S8x2048x128_S64x128_S8x2048x64_2_1_01_0_n_n none A W

/-- A bias of length 128 repeated over every batch and row. -/
def rowBias (b : FVec F S128 .f32) : FVec F S8x2048x128 .f32 :=
  broadcastInDim S8x2048x128 ![0, 1, 2] bcast_S1x1x128_S8x2048x128_0_1_2 (broadcastInDim S1x1x128 ![2] bcast_S128_S1x1x128_2 b)

/-- A bias of length 64 repeated over every batch and row. -/
def rowBias64 (b : FVec F S64 .f32) : FVec F S8x2048x64 .f32 :=
  broadcastInDim S8x2048x64 ![0, 1, 2] bcast_S1x1x64_S8x2048x64_0_1_2 (broadcastInDim S1x1x64 ![2] bcast_S64_S1x1x64_2 b)

/-- The scores: query rows (the input against Wha1) against key rows (the old state against Wha2, plus its bias),
    batch by batch, contracted over the state axis. -/
def scoreArr (Hp : FVec F S8x2048x128 .f32) (X : FVec F S8x2048x64 .f32) (Wha1 : FVec F S128x64 .f32)
    (Wha2 : FVec F S128x128 .f32) (bha2 : FVec F S128 .f32) : FVec F S8x2048x2048 .f32 :=
  Host.dotGeneral dot_S8x2048x128_S8x2048x128_S8x2048x2048_2_2_1_1_0_0 none (proj64 X Wha1) (addf (proj128 Hp Wha2) (rowBias bha2))

/-- The rectifier with slope: where the score is at least zero the score, elsewhere the slope times the score. -/
def leakyArr (S : FVec F S8x2048x2048 .f32) : FVec F S8x2048x2048 .f32 :=
  select (cmpf .oge S (broadcastInDim S8x2048x2048 ![] bcast_S_S8x2048x2048 (constant S_ .f32 0x00000000#32)))
    S (mulf (broadcastInDim S8x2048x2048 ![] bcast_S_S8x2048x2048 (id (constant S_ .f32 0x3C23D70A#32))) S)

/-- The rectified scores of the arguments. -/
def refAct (Hp : FVec F S8x2048x128 .f32) (X : FVec F S8x2048x64 .f32) (Wha1 : FVec F S128x64 .f32)
    (Wha2 : FVec F S128x128 .f32) (bha2 : FVec F S128 .f32) : FVec F S8x2048x2048 .f32 :=
  leakyArr (scoreArr Hp X Wha1 Wha2 bha2)

/-- A value per batch and row repeated along the last axis. -/
def alongRow (v : FVec F S8x2048 .f32) : FVec F S8x2048x2048 .f32 :=
  broadcastInDim S8x2048x2048 ![0, 1, 2] bcast_S8x2048x1_S8x2048x2048_0_1_2 (broadcastInDim S8x2048x1 ![0, 1] bcast_S8x2048_S8x2048x1_0_1 v)

/-- Each row's maximum, started at minus infinity, and once more the maximum with minus infinity. -/
def rowMaxArr (A : FVec F S8x2048x2048 .f32) : FVec F S8x2048 .f32 :=
  maximumf (broadcastInDim S8x2048 ![] bcast_S_S8x2048 (constant S_ .f32 0xFF800000#32))
    (Host.reduce FloatOps.maximumf A (constant S_ .f32 0xFF800000#32) reducesTo_S8x2048x2048_S8x2048_d2 h_S_)

/-- The exponentials of a row's entries less the row's maximum. -/
def expArr (A : FVec F S8x2048x2048 .f32) : FVec F S8x2048x2048 .f32 :=
  Host.exp (subf A (alongRow (rowMaxArr A)))

/-- Each row's sum, started at zero. -/
def rowSumArr (E : FVec F S8x2048x2048 .f32) : FVec F S8x2048 .f32 :=
  Host.reduceAdd E (constant S_ .f32 0x00000000#32) reducesTo_S8x2048x2048_S8x2048_d2 h_S_

/-- The softmax over the last axis. -/
def attnArr (A : FVec F S8x2048x2048 .f32) : FVec F S8x2048x2048 .f32 :=
  Host.divf (expArr A) (alongRow (rowSumArr (expArr A)))

/-- The attended input: the softmax weights against the input rows of the same batch. -/
def ctxArr (A : FVec F S8x2048x2048 .f32) (X : FVec F S8x2048x64 .f32) : FVec F S8x2048x64 .f32 :=
  Host.dotGeneral dot_S8x2048x2048_S8x2048x64_S8x2048x64_2_1_1_2_0_0 none (attnArr A) X

/-- The unit at every entry. -/
def onesArr : FVec F S8x2048x128 .f32 :=
  broadcastInDim S8x2048x128 ![] bcast_S_S8x2048x128 (constant S_ .f32 0x3F800000#32)

/-- A logistic gate of the attended input, spelt 1 / (1 + exp (−(C·Wᵀ + b))). -/
def gateArr (C : FVec F S8x2048x64 .f32) (W : FVec F S128x64 .f32) (b : FVec F S128 .f32) : FVec F S8x2048x128 .f32 :=
  Host.divf onesArr (addf onesArr (Host.exp (Host.negf (addf (proj64 C W) (rowBias b)))))

/-- The candidate state: tanh of the input's projection plus its bias, plus the reset state's projection, plus its bias. -/
def candArr (X : FVec F S8x2048x64 .f32) (Wxh : FVec F S128x64 .f32) (bxh : FVec F S128 .f32) (R Hp : FVec F S8x2048x128 .f32)
    (Whh : FVec F S128x128 .f32) (bhh : FVec F S128 .f32) : FVec F S8x2048x128 .f32 :=
  Host.tanh (addf (addf (addf (proj64 X Wxh) (rowBias bxh)) (proj128 (mulf R Hp) Whh)) (rowBias bhh))

/-- The new state: the update gate times the old state plus one minus the gate times the candidate. -/
def newHArr (Z Hp Cand : FVec F S8x2048x128 .f32) : FVec F S8x2048x128 .f32 :=
  addf (mulf Z Hp) (mulf (subf onesArr Z) Cand)

/-- The output: the new state's projection plus its bias. -/
def outYArr (H : FVec F S8x2048x128 .f32) (Wy : FVec F S64x128 .f32) (by_ : FVec F S64 .f32) : FVec F S8x2048x64 .f32 :=
  addf (projOut H Wy) (rowBias64 by_)

/-- The attended input of the arguments. -/
def refCtx (Hp : FVec F S8x2048x128 .f32) (X : FVec F S8x2048x64 .f32) (Wha1 : FVec F S128x64 .f32)
    (Wha2 : FVec F S128x128 .f32) (bha2 : FVec F S128 .f32) : FVec F S8x2048x64 .f32 :=
  ctxArr (refAct Hp X Wha1 Wha2 bha2) X

/-- The program's second result, the new state, as a function of the fifteen arguments in the program's order. -/
def refH (Hp : FVec F S8x2048x128 .f32) (X : FVec F S8x2048x64 .f32) (Wxr : FVec F S128x64 .f32) (bxr : FVec F S128 .f32)
    (Wxz : FVec F S128x64 .f32) (bxz : FVec F S128 .f32) (Wxh : FVec F S128x64 .f32) (bxh : FVec F S128 .f32)
    (Whh : FVec F S128x128 .f32) (bhh : FVec F S128 .f32) (Wha1 : FVec F S128x64 .f32) (Wha2 : FVec F S128x128 .f32)
    (bha2 : FVec F S128 .f32) (_Wy : FVec F S64x128 .f32) (_by : FVec F S64 .f32) : FVec F S8x2048x128 .f32 :=
  newHArr (gateArr (refCtx Hp X Wha1 Wha2 bha2) Wxz bxz) Hp
    (candArr X Wxh bxh (gateArr (refCtx Hp X Wha1 Wha2 bha2) Wxr bxr) Hp Whh bhh)

/-- The program's first result, the output, as a function of the fifteen arguments in the program's order. -/
def refY (Hp : FVec F S8x2048x128 .f32) (X : FVec F S8x2048x64 .f32) (Wxr : FVec F S128x64 .f32) (bxr : FVec F S128 .f32)
    (Wxz : FVec F S128x64 .f32) (bxz : FVec F S128 .f32) (Wxh : FVec F S128x64 .f32) (bxh : FVec F S128 .f32)
    (Whh : FVec F S128x128 .f32) (bhh : FVec F S128 .f32) (Wha1 : FVec F S128x64 .f32) (Wha2 : FVec F S128x128 .f32)
    (bha2 : FVec F S128 .f32) (Wy : FVec F S64x128 .f32) (by_ : FVec F S64 .f32) : FVec F S8x2048x64 .f32 :=
  outYArr (refH Hp X Wxr bxr Wxz bxz Wxh bxh Whh bhh Wha1 Wha2 bha2 Wy by_) Wy by_

end Cert.ReferenceIdeal.RefRun

end
-- ==== Proof.RefRun.lean ====
/-
  The reference's run, read back: @main is a straight line of 74 host operations once the rectifier's call (and the
  select it calls in turn) is unfolded at its site. The line is listed in four stretches —
    A  the two row projections, the key rows' bias, the scores, and the rectifier (14 operations),
    B  the softmax over the last axis and the attended input (15),
    C  the reset and update gates (24),
    D  the candidate, the new state and the output (21)
  — each read back over any contents of the buffers: what it leaves in the buffers later stretches read, as the
  named stage of RefDefs applied to what it found, and every buffer it does not write unchanged. Composed, every
  execution ends with the two results at `refY` and `refH` of the arguments' launch contents, the arguments unchanged.
-/
import proofs.«154985_j72576357368188_2_alg».proof.Proof.RefDefs
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Stretch A: query rows, key rows with their bias, the scores, the slope, and the rectifier's seven operations over the call's buffers. -/
abbrev opsA : List (HloOp τ sig (Elt F)) :=
  [ StableHlo.binary main_arg1 main_arg10 main_v0 ((fun l r => Host.dotGeneral dot_S8x2048x64_S128x64_S8x2048x128_2_1_01_0_n_n none l r) : (⟨S8x2048x64, .f32⟩ : BufTy).Contents (Elt F) → (⟨S128x64, .f32⟩ : BufTy).Contents (Elt F) → (⟨S8x2048x128, .f32⟩ : BufTy).Contents (Elt F)),
    StableHlo.binary main_arg0 main_arg11 main_v1 ((fun l r => Host.dotGeneral dot_S8x2048x128_S128x128_S8x2048x128_2_1_01_0_n_n none l r) : (⟨S8x2048x128, .f32⟩ : BufTy).Contents (Elt F) → (⟨S128x128, .f32⟩ : BufTy).Contents (Elt F) → (⟨S8x2048x128, .f32⟩ : BufTy).Contents (Elt F)),
    StableHlo.unary main_arg12 main_v2 (broadcastInDim S1x1x128 ![2] bcast_S128_S1x1x128_2 : (⟨S128, .f32⟩ : BufTy).Contents (Elt F) → (⟨S1x1x128, .f32⟩ : BufTy).Contents (Elt F)),
    StableHlo.unary main_v2 main_v3 (broadcastInDim S8x2048x128 ![0, 1, 2] bcast_S1x1x128_S8x2048x128_0_1_2 : (⟨S1x1x128, .f32⟩ : BufTy).Contents (Elt F) → (⟨S8x2048x128, .f32⟩ : BufTy).Contents (Elt F)),
    StableHlo.binary main_v1 main_v3 main_v4 (addf : (⟨S8x2048x128, .f32⟩ : BufTy).Contents (Elt F) → (⟨S8x2048x128, .f32⟩ : BufTy).Contents (Elt F) → (⟨S8x2048x128, .f32⟩ : BufTy).Contents (Elt F)),
    StableHlo.binary main_v0 main_v4 main_v5 ((fun l r => Host.dotGeneral dot_S8x2048x128_S8x2048x128_S8x2048x2048_2_2_1_1_0_0 none l r) : (⟨S8x2048x128, .f32⟩ : BufTy).Contents (Elt F) → (⟨S8x2048x128, .f32⟩ : BufTy).Contents (Elt F) → (⟨S8x2048x2048, .f32⟩ : BufTy).Contents (Elt F)),
    StableHlo.nullary main_cst (constant S_ .f32 0x3C23D70A#32),
    StableHlo.TRef.nullary main_call0.cst (constant S_ .f32 0x00000000#32),
    StableHlo.TRef.unary main_call0.cst main_call0.v0 (broadcastInDim S8x2048x2048 ![] bcast_S_S8x2048x2048),
    StableHlo.TRef.binary (.of main_v5 : StableHlo.TRef sig ⟨S8x2048x2048, .f32⟩) main_call0.v0 main_call0.v1 (cmpf .oge),
    StableHlo.TRef.unary (.of main_cst : StableHlo.TRef sig ⟨S_, .f32⟩) main_call0.v2 id,
    StableHlo.TRef.unary main_call0.v2 main_call0.v3 (broadcastInDim S8x2048x2048 ![] bcast_S_S8x2048x2048),
    StableHlo.TRef.binary main_call0.v3 (.of main_v5 : StableHlo.TRef sig ⟨S8x2048x2048, .f32⟩) main_call0.v4 mulf,
    StableHlo.TRef.ternary main_call0.v1 (.of main_v5 : StableHlo.TRef sig ⟨S8x2048x2048, .f32⟩) main_call0.v4 main_call0.call0.v0 select ]

/-- Stretch B: the row maxima from minus infinity, the shifted exponentials, the row sums from zero, the quotient, and the attended input. -/
abbrev opsB : List (HloOp τ sig (Elt F)) :=
  [ StableHlo.nullary main_cst_0 (constant S_ .f32 0xFF800000#32),
    StableHlo.binary main_v6 main_cst_0 main_v7 ((fun x v => Host.reduce FloatOps.maximumf x v reducesTo_S8x2048x2048_S8x2048_d2 h_S_) : (⟨S8x2048x2048, .f32⟩ : BufTy).Contents (Elt F) → (⟨S_, .f32⟩ : BufTy).Contents (Elt F) → (⟨S8x2048, .f32⟩ : BufTy).Contents (Elt F)),
    StableHlo.nullary main_cst_1 (constant S_ .f32 0xFF800000#32),
    StableHlo.unary main_cst_1 main_v8 (broadcastInDim S8x2048 ![] bcast_S_S8x2048 : (⟨S_, .f32⟩ : BufTy).Contents (Elt F) → (⟨S8x2048, .f32⟩ : BufTy).Contents (Elt F)),
    StableHlo.binary main_v8 main_v7 main_v9 (maximumf : (⟨S8x2048, .f32⟩ : BufTy).Contents (Elt F) → (⟨S8x2048, .f32⟩ : BufTy).Contents (Elt F) → (⟨S8x2048, .f32⟩ : BufTy).Contents (Elt F)),
    StableHlo.unary main_v9 main_v10 (broadcastInDim S8x2048x1 ![0, 1] bcast_S8x2048_S8x2048x1_0_1 : (⟨S8x2048, .f32⟩ : BufTy).Contents (Elt F) → (⟨S8x2048x1, .f32⟩ : BufTy).Contents (Elt F)),
    StableHlo.unary main_v10 main_v11 (broadcastInDim S8x2048x2048 ![0, 1, 2] bcast_S8x2048x1_S8x2048x2048_0_1_2 : (⟨S8x2048x1, .f32⟩ : BufTy).Contents (Elt F) → (⟨S8x2048x2048, .f32⟩ : BufTy).Contents (Elt F)),
    StableHlo.binary main_v6 main_v11 main_v12 (subf : (⟨S8x2048x2048, .f32⟩ : BufTy).Contents (Elt F) → (⟨S8x2048x2048, .f32⟩ : BufTy).Contents (Elt F) → (⟨S8x2048x2048, .f32⟩ : BufTy).Contents (Elt F)),
    StableHlo.unary main_v12 main_v13 (Host.exp : (⟨S8x2048x2048, .f32⟩ : BufTy).Contents (Elt F) → (⟨S8x2048x2048, .f32⟩ : BufTy).Contents (Elt F)),
    StableHlo.nullary main_cst_2 (constant S_ .f32 0x00000000#32),
    StableHlo.binary main_v13 main_cst_2 main_v14 ((fun x v => Host.reduceAdd x v reducesTo_S8x2048x2048_S8x2048_d2 h_S_) : (⟨S8x2048x2048, .f32⟩ : BufTy).Contents (Elt F) → (⟨S_, .f32⟩ : BufTy).Contents (Elt F) → (⟨S8x2048, .f32⟩ : BufTy).Contents (Elt F)),
    StableHlo.unary main_v14 main_v15 (broadcastInDim S8x2048x1 ![0, 1] bcast_S8x2048_S8x2048x1_0_1 : (⟨S8x2048, .f32⟩ : BufTy).Contents (Elt F) → (⟨S8x2048x1, .f32⟩ : BufTy).Contents (Elt F)),
    StableHlo.unary main_v15 main_v16 (broadcastInDim S8x2048x2048 ![0, 1, 2] bcast_S8x2048x1_S8x2048x2048_0_1_2 : (⟨S8x2048x1, .f32⟩ : BufTy).Contents (Elt F) → (⟨S8x2048x2048, .f32⟩ : BufTy).Contents (Elt F)),
    StableHlo.binary main_v13 main_v16 main_v17 (Host.divf : (⟨S8x2048x2048, .f32⟩ : BufTy).Contents (Elt F) → (⟨S8x2048x2048, .f32⟩ : BufTy).Contents (Elt F) → (⟨S8x2048x2048, .f32⟩ : BufTy).Contents (Elt F)),
    StableHlo.binary main_v17 main_arg1 main_v18 ((fun l r => Host.dotGeneral dot_S8x2048x2048_S8x2048x64_S8x2048x64_2_1_1_2_0_0 none l r) : (⟨S8x2048x2048, .f32⟩ : BufTy).Contents (Elt F) → (⟨S8x2048x64, .f32⟩ : BufTy).Contents (Elt F) → (⟨S8x2048x64, .f32⟩ : BufTy).Contents (Elt F)) ]

/-- Stretch C: the reset gate and the update gate, each 1 / (1 + exp (−(projection + bias))). -/
abbrev opsC : List (HloOp τ sig (Elt F)) :=
  [ StableHlo.binary main_v18 main_arg2 main_v19 ((fun l r => Host.dotGeneral dot_S8x2048x64_S128x64_S8x2048x128_2_1_01_0_n_n none l r) : (⟨S8x2048x64, .f32⟩ : BufTy).Contents (Elt F) → (⟨S128x64, .f32⟩ : BufTy).Contents (Elt F) → (⟨S8x2048x128, .f32⟩ : BufTy).Contents (Elt F)),
    StableHlo.unary main_arg3 main_v20 (broadcastInDim S1x1x128 ![2] bcast_S128_S1x1x128_2 : (⟨S128, .f32⟩ : BufTy).Contents (Elt F) → (⟨S1x1x128, .f32⟩ : BufTy).Contents (Elt F)),
    StableHlo.unary main_v20 main_v21 (broadcastInDim S8x2048x128 ![0, 1, 2] bcast_S1x1x128_S8x2048x128_0_1_2 : (⟨S1x1x128, .f32⟩ : BufTy).Contents (Elt F) → (⟨S8x2048x128, .f32⟩ : BufTy).Contents (Elt F)),
    StableHlo.binary main_v19 main_v21 main_v22 (addf : (⟨S8x2048x128, .f32⟩ : BufTy).Contents (Elt F) → (⟨S8x2048x128, .f32⟩ : BufTy).Contents (Elt F) → (⟨S8x2048x128, .f32⟩ : BufTy).Contents (Elt F)),
    StableHlo.unary main_v22 main_v23 (Host.negf : (⟨S8x2048x128, .f32⟩ : BufTy).Contents (Elt F) → (⟨S8x2048x128, .f32⟩ : BufTy).Contents (Elt F)),
    StableHlo.unary main_v23 main_v24 (Host.exp : (⟨S8x2048x128, .f32⟩ : BufTy).Contents (Elt F) → (⟨S8x2048x128, .f32⟩ : BufTy).Contents (Elt F)),
    StableHlo.nullary main_cst_3 (constant S_ .f32 0x3F800000#32),
    StableHlo.unary main_cst_3 main_v25 (broadcastInDim S8x2048x128 ![] bcast_S_S8x2048x128 : (⟨S_, .f32⟩ : BufTy).Contents (Elt F) → (⟨S8x2048x128, .f32⟩ : BufTy).Contents (Elt F)),
    StableHlo.binary main_v25 main_v24 main_v26 (addf : (⟨S8x2048x128, .f32⟩ : BufTy).Contents (Elt F) → (⟨S8x2048x128, .f32⟩ : BufTy).Contents (Elt F) → (⟨S8x2048x128, .f32⟩ : BufTy).Contents (Elt F)),
    StableHlo.nullary main_cst_4 (constant S_ .f32 0x3F800000#32),
    StableHlo.unary main_cst_4 main_v27 (broadcastInDim S8x2048x128 ![] bcast_S_S8x2048x128 : (⟨S_, .f32⟩ : BufTy).Contents (Elt F) → (⟨S8x2048x128, .f32⟩ : BufTy).Contents (Elt F)),
    StableHlo.binary main_v27 main_v26 main_v28 (Host.divf : (⟨S8x2048x128, .f32⟩ : BufTy).Contents (Elt F) → (⟨S8x2048x128, .f32⟩ : BufTy).Contents (Elt F) → (⟨S8x2048x128, .f32⟩ : BufTy).Contents (Elt F)),
    StableHlo.binary main_v18 main_arg4 main_v29 ((fun l r => Host.dotGeneral dot_S8x2048x64_S128x64_S8x2048x128_2_1_01_0_n_n none l r) : (⟨S8x2048x64, .f32⟩ : BufTy).Contents (Elt F) → (⟨S128x64, .f32⟩ : BufTy).Contents (Elt F) → (⟨S8x2048x128, .f32⟩ : BufTy).Contents (Elt F)),
    StableHlo.unary main_arg5 main_v30 (broadcastInDim S1x1x128 ![2] bcast_S128_S1x1x128_2 : (⟨S128, .f32⟩ : BufTy).Contents (Elt F) → (⟨S1x1x128, .f32⟩ : BufTy).Contents (Elt F)),
    StableHlo.unary main_v30 main_v31 (broadcastInDim S8x2048x128 ![0, 1, 2] bcast_S1x1x128_S8x2048x128_0_1_2 : (⟨S1x1x128, .f32⟩ : BufTy).Contents (Elt F) → (⟨S8x2048x128, .f32⟩ : BufTy).Contents (Elt F)),
    StableHlo.binary main_v29 main_v31 main_v32 (addf : (⟨S8x2048x128, .f32⟩ : BufTy).Contents (Elt F) → (⟨S8x2048x128, .f32⟩ : BufTy).Contents (Elt F) → (⟨S8x2048x128, .f32⟩ : BufTy).Contents (Elt F)),
    StableHlo.unary main_v32 main_v33 (Host.negf : (⟨S8x2048x128, .f32⟩ : BufTy).Contents (Elt F) → (⟨S8x2048x128, .f32⟩ : BufTy).Contents (Elt F)),
    StableHlo.unary main_v33 main_v34 (Host.exp : (⟨S8x2048x128, .f32⟩ : BufTy).Contents (Elt F) → (⟨S8x2048x128, .f32⟩ : BufTy).Contents (Elt F)),
    StableHlo.nullary main_cst_5 (constant S_ .f32 0x3F800000#32),
    StableHlo.unary main_cst_5 main_v35 (broadcastInDim S8x2048x128 ![] bcast_S_S8x2048x128 : (⟨S_, .f32⟩ : BufTy).Contents (Elt F) → (⟨S8x2048x128, .f32⟩ : BufTy).Contents (Elt F)),
    StableHlo.binary main_v35 main_v34 main_v36 (addf : (⟨S8x2048x128, .f32⟩ : BufTy).Contents (Elt F) → (⟨S8x2048x128, .f32⟩ : BufTy).Contents (Elt F) → (⟨S8x2048x128, .f32⟩ : BufTy).Contents (Elt F)),
    StableHlo.nullary main_cst_6 (constant S_ .f32 0x3F800000#32),
    StableHlo.unary main_cst_6 main_v37 (broadcastInDim S8x2048x128 ![] bcast_S_S8x2048x128 : (⟨S_, .f32⟩ : BufTy).Contents (Elt F) → (⟨S8x2048x128, .f32⟩ : BufTy).Contents (Elt F)),
    StableHlo.binary main_v37 main_v36 main_v38 (Host.divf : (⟨S8x2048x128, .f32⟩ : BufTy).Contents (Elt F) → (⟨S8x2048x128, .f32⟩ : BufTy).Contents (Elt F) → (⟨S8x2048x128, .f32⟩ : BufTy).Contents (Elt F)) ]

/-- Stretch D: the candidate state, the new state, and the output projection with its bias. -/
abbrev opsD : List (HloOp τ sig (Elt F)) :=
  [ StableHlo.binary main_arg1 main_arg6 main_v39 ((fun l r => Host.dotGeneral dot_S8x2048x64_S128x64_S8x2048x128_2_1_01_0_n_n none l r) : (⟨S8x2048x64, .f32⟩ : BufTy).Contents (Elt F) → (⟨S128x64, .f32⟩ : BufTy).Contents (Elt F) → (⟨S8x2048x128, .f32⟩ : BufTy).Contents (Elt F)),
    StableHlo.unary main_arg7 main_v40 (broadcastInDim S1x1x128 ![2] bcast_S128_S1x1x128_2 : (⟨S128, .f32⟩ : BufTy).Contents (Elt F) → (⟨S1x1x128, .f32⟩ : BufTy).Contents (Elt F)),
    StableHlo.unary main_v40 main_v41 (broadcastInDim S8x2048x128 ![0, 1, 2] bcast_S1x1x128_S8x2048x128_0_1_2 : (⟨S1x1x128, .f32⟩ : BufTy).Contents (Elt F) → (⟨S8x2048x128, .f32⟩ : BufTy).Contents (Elt F)),
    StableHlo.binary main_v39 main_v41 main_v42 (addf : (⟨S8x2048x128, .f32⟩ : BufTy).Contents (Elt F) → (⟨S8x2048x128, .f32⟩ : BufTy).Contents (Elt F) → (⟨S8x2048x128, .f32⟩ : BufTy).Contents (Elt F)),
    StableHlo.binary main_v28 main_arg0 main_v43 (mulf : (⟨S8x2048x128, .f32⟩ : BufTy).Contents (Elt F) → (⟨S8x2048x128, .f32⟩ : BufTy).Contents (Elt F) → (⟨S8x2048x128, .f32⟩ : BufTy).Contents (Elt F)),
    StableHlo.binary main_v43 main_arg8 main_v44 ((fun l r => Host.dotGeneral dot_S8x2048x128_S128x128_S8x2048x128_2_1_01_0_n_n none l r) : (⟨S8x2048x128, .f32⟩ : BufTy).Contents (Elt F) → (⟨S128x128, .f32⟩ : BufTy).Contents (Elt F) → (⟨S8x2048x128, .f32⟩ : BufTy).Contents (Elt F)),
    StableHlo.binary main_v42 main_v44 main_v45 (addf : (⟨S8x2048x128, .f32⟩ : BufTy).Contents (Elt F) → (⟨S8x2048x128, .f32⟩ : BufTy).Contents (Elt F) → (⟨S8x2048x128, .f32⟩ : BufTy).Contents (Elt F)),
    StableHlo.unary main_arg9 main_v46 (broadcastInDim S1x1x128 ![2] bcast_S128_S1x1x128_2 : (⟨S128, .f32⟩ : BufTy).Contents (Elt F) → (⟨S1x1x128, .f32⟩ : BufTy).Contents (Elt F)),
    StableHlo.unary main_v46 main_v47 (broadcastInDim S8x2048x128 ![0, 1, 2] bcast_S1x1x128_S8x2048x128_0_1_2 : (⟨S1x1x128, .f32⟩ : BufTy).Contents (Elt F) → (⟨S8x2048x128, .f32⟩ : BufTy).Contents (Elt F)),
    StableHlo.binary main_v45 main_v47 main_v48 (addf : (⟨S8x2048x128, .f32⟩ : BufTy).Contents (Elt F) → (⟨S8x2048x128, .f32⟩ : BufTy).Contents (Elt F) → (⟨S8x2048x128, .f32⟩ : BufTy).Contents (Elt F)),
    StableHlo.unary main_v48 main_v49 (Host.tanh : (⟨S8x2048x128, .f32⟩ : BufTy).Contents (Elt F) → (⟨S8x2048x128, .f32⟩ : BufTy).Contents (Elt F)),
    StableHlo.binary main_v38 main_arg0 main_v50 (mulf : (⟨S8x2048x128, .f32⟩ : BufTy).Contents (Elt F) → (⟨S8x2048x128, .f32⟩ : BufTy).Contents (Elt F) → (⟨S8x2048x128, .f32⟩ : BufTy).Contents (Elt F)),
    StableHlo.nullary main_cst_7 (constant S_ .f32 0x3F800000#32),
    StableHlo.unary main_cst_7 main_v51 (broadcastInDim S8x2048x128 ![] bcast_S_S8x2048x128 : (⟨S_, .f32⟩ : BufTy).Contents (Elt F) → (⟨S8x2048x128, .f32⟩ : BufTy).Contents (Elt F)),
    StableHlo.binary main_v51 main_v38 main_v52 (subf : (⟨S8x2048x128, .f32⟩ : BufTy).Contents (Elt F) → (⟨S8x2048x128, .f32⟩ : BufTy).Contents (Elt F) → (⟨S8x2048x128, .f32⟩ : BufTy).Contents (Elt F)),
    StableHlo.binary main_v52 main_v49 main_v53 (mulf : (⟨S8x2048x128, .f32⟩ : BufTy).Contents (Elt F) → (⟨S8x2048x128, .f32⟩ : BufTy).Contents (Elt F) → (⟨S8x2048x128, .f32⟩ : BufTy).Contents (Elt F)),
    StableHlo.binary main_v50 main_v53 main_v54 (addf : (⟨S8x2048x128, .f32⟩ : BufTy).Contents (Elt F) → (⟨S8x2048x128, .f32⟩ : BufTy).Contents (Elt F) → (⟨S8x2048x128, .f32⟩ : BufTy).Contents (Elt F)),
    StableHlo.binary main_v54 main_arg13 main_v55 ((fun l r => Host.dotGeneral dot_S8x2048x128_S64x128_S8x2048x64_2_1_01_0_n_n none l r) : (⟨S8x2048x128, .f32⟩ : BufTy).Contents (Elt F) → (⟨S64x128, .f32⟩ : BufTy).Contents (Elt F) → (⟨S8x2048x64, .f32⟩ : BufTy).Contents (Elt F)),
    StableHlo.unary main_arg14 main_v56 (broadcastInDim S1x1x64 ![2] bcast_S64_S1x1x64_2 : (⟨S64, .f32⟩ : BufTy).Contents (Elt F) → (⟨S1x1x64, .f32⟩ : BufTy).Contents (Elt F)),
    StableHlo.unary main_v56 main_v57 (broadcastInDim S8x2048x64 ![0, 1, 2] bcast_S1x1x64_S8x2048x64_0_1_2 : (⟨S1x1x64, .f32⟩ : BufTy).Contents (Elt F) → (⟨S8x2048x64, .f32⟩ : BufTy).Contents (Elt F)),
    StableHlo.binary main_v55 main_v57 main_v58 (addf : (⟨S8x2048x64, .f32⟩ : BufTy).Contents (Elt F) → (⟨S8x2048x64, .f32⟩ : BufTy).Contents (Elt F) → (⟨S8x2048x64, .f32⟩ : BufTy).Contents (Elt F)) ]

/-- @main's 74 operations, in order. -/
abbrev ops : List (HloOp τ sig (Elt F)) := opsA ++ (opsB ++ (opsC ++ opsD))

set_option maxRecDepth 8192 in
set_option maxHeartbeats 4000000 in
/-- @main is that line: its two windows, the rectifier's body and the select's body unfold at their sites, and
    sequencing reassociates by computation. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig :=
  ⟨binary_bufs_sub .., binary_bufs_sub .., unary_bufs_sub .., unary_bufs_sub .., binary_bufs_sub .., binary_bufs_sub .., nullary_bufs_sub .., nullary_bufs_sub .., unary_bufs_sub .., binary_bufs_sub .., unary_bufs_sub .., unary_bufs_sub .., binary_bufs_sub .., ternary_bufs_sub ..⟩
theorem opsB_sub : (opsB : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub ..⟩
theorem opsC_sub : (opsC : List (HloOp τ sig (Elt F))).Forall fun op => op.bufs ⊆ tcRefs τ sig :=
  ⟨binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub ..⟩
theorem opsD_sub : (opsD : List (HloOp τ sig (Elt F))).Forall fun op => op.bufs ⊆ tcRefs τ sig :=
  ⟨binary_bufs_sub .., unary_bufs_sub .., unary_bufs_sub .., binary_bufs_sub .., binary_bufs_sub .., binary_bufs_sub .., binary_bufs_sub .., unary_bufs_sub .., unary_bufs_sub .., binary_bufs_sub .., unary_bufs_sub .., binary_bufs_sub .., nullary_bufs_sub .., unary_bufs_sub .., binary_bufs_sub .., binary_bufs_sub .., binary_bufs_sub .., binary_bufs_sub .., unary_bufs_sub .., unary_bufs_sub .., binary_bufs_sub ..⟩

/-- Every operation's buffers are TensorCore buffers of the device. -/
theorem ops_sub : (ops : List (HloOp τ sig (Elt F))).Forall fun op => op.bufs ⊆ tcRefs τ sig :=
  List.forall_iff_forall_mem.mpr fun op h => by
    simp only [ops, List.mem_append] at h
    rcases h with h | h | h | h
    exacts [List.forall_iff_forall_mem.mp opsA_sub op h, List.forall_iff_forall_mem.mp opsB_sub op h,
      List.forall_iff_forall_mem.mp opsC_sub op h, List.forall_iff_forall_mem.mp opsD_sub op h]

/-- Contents after two lines run one after the other. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

theorem after_ops (V : Valuation τ sig (Elt F)) : after ops V = after opsD (after opsC (after opsB (after opsA V))) := by
  simp only [ops, after_app]

/-! ## What each stretch writes, and leaves alone -/

/-- The buffers stretch A writes. -/
abbrev wA : List (Ref sig .tc) := [main_v0, main_v1, main_v2, main_v3, main_v4, main_v5, main_cst, main_call0_cst, main_call0_v0, main_call0_v1, main_call0_v2, main_call0_v3, main_call0_v4, main_v6]
theorem opsA_writes : (opsA : List (HloOp τ sig (Elt F))).Forall fun op => op.writes ⊆ (wA.map (Proc.devRef (τ := τ) .tc)).toFinset := by
  simp only [List.Forall]
  repeat' apply And.intro
  all_goals (simp only [nullary_writes, unary_writes, binary_writes, ternary_writes, Finset.singleton_subset_iff, List.mem_toFinset]; exact List.mem_map_of_mem (by decide))
/-- A buffer stretch A does not write keeps its contents through it. -/
theorem keepA (V : Valuation τ sig (Elt F)) (r : Ref sig .tc) (h : r ∉ wA) :
    after opsA V (no_index (Proc.devRef .tc r)) = V (Proc.devRef .tc r) :=
  after_of_writes_sub opsA V opsA_writes h

/-- The buffers stretch B writes. -/
abbrev wB : List (Ref sig .tc) := [main_cst_0, main_v7, main_cst_1, main_v8, main_v9, main_v10, main_v11, main_v12, main_v13, main_cst_2, main_v14, main_v15, main_v16, main_v17, main_v18]
theorem opsB_writes : (opsB : List (HloOp τ sig (Elt F))).Forall fun op => op.writes ⊆ (wB.map (Proc.devRef (τ := τ) .tc)).toFinset := by
  simp only [List.Forall]
  repeat' apply And.intro
  all_goals (simp only [nullary_writes, unary_writes, binary_writes, ternary_writes, Finset.singleton_subset_iff, List.mem_toFinset]; exact List.mem_map_of_mem (by decide))
/-- A buffer stretch B does not write keeps its contents through it. -/
theorem keepB (V : Valuation τ sig (Elt F)) (r : Ref sig .tc) (h : r ∉ wB) :
    after opsB V (no_index (Proc.devRef .tc r)) = V (Proc.devRef .tc r) :=
  after_of_writes_sub opsB V opsB_writes h

/-- The buffers stretch C writes. -/
abbrev wC : List (Ref sig .tc) := [main_v19, main_v20, main_v21, main_v22, main_v23, main_v24, main_cst_3, main_v25, main_v26, main_cst_4, main_v27, main_v28, main_v29, main_v30, main_v31, main_v32, main_v33, main_v34, main_cst_5, main_v35, main_v36, main_cst_6, main_v37, main_v38]
theorem opsC_writes : (opsC : List (HloOp τ sig (Elt F))).Forall fun op => op.writes ⊆ (wC.map (Proc.devRef (τ := τ) .tc)).toFinset := by
  simp only [List.Forall]
  repeat' apply And.intro
  all_goals (simp only [nullary_writes, unary_writes, binary_writes, ternary_writes, Finset.singleton_subset_iff, List.mem_toFinset]; exact List.mem_map_of_mem (by decide))
/-- A buffer stretch C does not write keeps its contents through it. -/
theorem keepC (V : Valuation τ sig (Elt F)) (r : Ref sig .tc) (h : r ∉ wC) :
    after opsC V (no_index (Proc.devRef .tc r)) = V (Proc.devRef .tc r) :=
  after_of_writes_sub opsC V opsC_writes h

/-- The buffers stretch D writes. -/
abbrev wD : List (Ref sig .tc) := [main_v39, main_v40, main_v41, main_v42, main_v43, main_v44, main_v45, main_v46, main_v47, main_v48, main_v49, main_v50, main_cst_7, main_v51, main_v52, main_v53, main_v54, main_v55, main_v56, main_v57, main_v58]
theorem opsD_writes : (opsD : List (HloOp τ sig (Elt F))).Forall fun op => op.writes ⊆ (wD.map (Proc.devRef (τ := τ) .tc)).toFinset := by
  simp only [List.Forall]
  repeat' apply And.intro
  all_goals (simp only [nullary_writes, unary_writes, binary_writes, ternary_writes, Finset.singleton_subset_iff, List.mem_toFinset]; exact List.mem_map_of_mem (by decide))
/-- A buffer stretch D does not write keeps its contents through it. -/
theorem keepD (V : Valuation τ sig (Elt F)) (r : Ref sig .tc) (h : r ∉ wD) :
    after opsD V (no_index (Proc.devRef .tc r)) = V (Proc.devRef .tc r) :=
  after_of_writes_sub opsD V opsD_writes h

/-! ## What each stretch leaves in the buffers later stretches read -/

set_option maxRecDepth 8192 in
set_option maxHeartbeats 1600000 in
/-- After stretch A the rectifier's result buffer holds the rectified scores of what the argument buffers held. -/
theorem actA (V : Valuation τ sig (Elt F)) :
    after opsA V (no_index (Proc.devRef .tc main_v6)) = refAct (V (main_arg0 : DevRef τ sig)) (V (main_arg1 : DevRef τ sig)) (V (main_arg10 : DevRef τ sig)) (V (main_arg11 : DevRef τ sig)) (V (main_arg12 : DevRef τ sig)) := by
  after_results_simp
  rfl

set_option maxRecDepth 8192 in
set_option maxHeartbeats 1600000 in
/-- After stretch B the attended input's buffer holds the softmax of the rectified scores against the input rows. -/
theorem ctxB (V : Valuation τ sig (Elt F)) :
    after opsB V (no_index (Proc.devRef .tc main_v18)) = ctxArr (V (main_v6 : DevRef τ sig)) (V (main_arg1 : DevRef τ sig)) := by
  after_results_simp
  rfl

set_option maxRecDepth 8192 in
set_option maxHeartbeats 2400000 in
/-- After stretch C the reset gate's buffer holds the gate of the attended input with Wxr, bxr … -/
theorem gateR_C (V : Valuation τ sig (Elt F)) :
    after opsC V (no_index (Proc.devRef .tc main_v28)) = gateArr (V (main_v18 : DevRef τ sig)) (V (main_arg2 : DevRef τ sig)) (V (main_arg3 : DevRef τ sig)) := by
  after_results_simp
  rfl

set_option maxRecDepth 8192 in
set_option maxHeartbeats 2400000 in
/-- … and the update gate's buffer the gate with Wxz, bxz. -/
theorem gateZ_C (V : Valuation τ sig (Elt F)) :
    after opsC V (no_index (Proc.devRef .tc main_v38)) = gateArr (V (main_v18 : DevRef τ sig)) (V (main_arg4 : DevRef τ sig)) (V (main_arg5 : DevRef τ sig)) := by
  after_results_simp
  rfl

set_option maxRecDepth 8192 in
set_option maxHeartbeats 2400000 in
/-- After stretch D the new state's buffer holds the combination of the old state and the candidate … -/
theorem newH_D (V : Valuation τ sig (Elt F)) :
    after opsD V (no_index (Proc.devRef .tc main_v54))
      = newHArr (V (main_v38 : DevRef τ sig)) (V (main_arg0 : DevRef τ sig)) (candArr (V (main_arg1 : DevRef τ sig)) (V (main_arg6 : DevRef τ sig)) (V (main_arg7 : DevRef τ sig)) (V (main_v28 : DevRef τ sig)) (V (main_arg0 : DevRef τ sig)) (V (main_arg8 : DevRef τ sig)) (V (main_arg9 : DevRef τ sig))) := by
  after_results_simp
  rfl

set_option maxRecDepth 8192 in
set_option maxHeartbeats 2400000 in
/-- … and the output's buffer its projection plus the bias. -/
theorem outY_D (V : Valuation τ sig (Elt F)) :
    after opsD V (no_index (Proc.devRef .tc main_v58))
      = outYArr (newHArr (V (main_v38 : DevRef τ sig)) (V (main_arg0 : DevRef τ sig)) (candArr (V (main_arg1 : DevRef τ sig)) (V (main_arg6 : DevRef τ sig)) (V (main_arg7 : DevRef τ sig)) (V (main_v28 : DevRef τ sig)) (V (main_arg0 : DevRef τ sig)) (V (main_arg8 : DevRef τ sig)) (V (main_arg9 : DevRef τ sig))))
          (V (main_arg13 : DevRef τ sig)) (V (main_arg14 : DevRef τ sig)) := by
  after_results_simp
  rfl

/-! ## The whole line -/

/-- The new state's buffer after the whole line. -/
theorem after_H (V : Valuation τ sig (Elt F)) :
    after ops V (main_v54 : DevRef τ sig) = refH (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) := by
  rw [after_ops]
  simp (disch := decide) only [newH_D, gateR_C, gateZ_C, ctxB, actA, keepA, keepB, keepC]
  rfl

/-- The output's buffer after the whole line. -/
theorem after_Y (V : Valuation τ sig (Elt F)) :
    after ops V (main_v58 : DevRef τ sig) = refY (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) := by
  rw [after_ops]
  simp (disch := decide) only [outY_D, gateR_C, gateZ_C, ctxB, actA, keepA, keepB, keepC]
  rfl

/-- No operation writes an argument's buffer. -/
theorem after_arg (V : Valuation τ sig (Elt F)) (r : Ref sig .tc) (hA : r ∉ wA) (hB : r ∉ wB) (hC : r ∉ wC) (hD : r ∉ wD) :
    after ops V (Proc.devRef .tc r) = V (Proc.devRef .tc r) := by
  rw [after_ops]
  exact (keepD _ r hD).trans ((keepC _ r hC).trans ((keepB _ r hB).trans (keepA _ r hA)))

/-- On every device, for any float values, from any memory with zero counters: every weakly fair execution of @main
    terminates with the output at `refY` and the new state at `refH` of the arguments' launch contents, and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v58) = refY (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_v54) = refH (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨(h c main_v58).trans (after_Y (launchContents m c)),
      (h c main_v54).trans (after_H (launchContents m c)),
      (h c main_arg0).trans (after_arg (launchContents m c) main_arg0 (by decide) (by decide) (by decide) (by decide)),
      (h c main_arg1).trans (after_arg (launchContents m c) main_arg1 (by decide) (by decide) (by decide) (by decide)),
      (h c main_arg2).trans (after_arg (launchContents m c) main_arg2 (by decide) (by decide) (by decide) (by decide)),
      (h c main_arg3).trans (after_arg (launchContents m c) main_arg3 (by decide) (by decide) (by decide) (by decide)),
      (h c main_arg4).trans (after_arg (launchContents m c) main_arg4 (by decide) (by decide) (by decide) (by decide)),
      (h c main_arg5).trans (after_arg (launchContents m c) main_arg5 (by decide) (by decide) (by decide) (by decide)),
      (h c main_arg6).trans (after_arg (launchContents m c) main_arg6 (by decide) (by decide) (by decide) (by decide)),
      (h c main_arg7).trans (after_arg (launchContents m c) main_arg7 (by decide) (by decide) (by decide) (by decide)),
      (h c main_arg8).trans (after_arg (launchContents m c) main_arg8 (by decide) (by decide) (by decide) (by decide)),
      (h c main_arg9).trans (after_arg (launchContents m c) main_arg9 (by decide) (by decide) (by decide) (by decide)),
      (h c main_arg10).trans (after_arg (launchContents m c) main_arg10 (by decide) (by decide) (by decide) (by decide)),
      (h c main_arg11).trans (after_arg (launchContents m c) main_arg11 (by decide) (by decide) (by decide) (by decide)),
      (h c main_arg12).trans (after_arg (launchContents m c) main_arg12 (by decide) (by decide) (by decide) (by decide)),
      (h c main_arg13).trans (after_arg (launchContents m c) main_arg13 (by decide) (by decide) (by decide) (by decide)),
      (h c main_arg14).trans (after_arg (launchContents m c) main_arg14 (by decide) (by decide) (by decide) (by decide))⟩)
    (run_seq scopedRefs_eq scopedSems_eq defs main (fun _ => ops) main_eq (fun _ => ops_sub) m ρ)

end Cert.ReferenceIdeal.RefRun

end
-- ==== Proof.RefDots.lean ====
/-
  The reference's five contractions read at an index. On the extended reals a host contraction over one axis is the
  plain finite sum over that axis of the products of the two operands' entries; which entries, the dimension numbers
  say: an output index's batch coordinate goes to both operands, its free coordinates to the operand they came from,
  and the summation index to the contracted axis of each. One lemma per contraction, over arbitrary operand arrays
  and explicit coordinates.
-/
import proofs.«154985_j72576357368188_2_alg».proof.Proof.RefDefs
import Idealize.ShloMosaic.PureOps.Ideal.Laws
import Idealize.ShloMosaic.Lib.ValueIdx

noncomputable section

open scoped BigOperators

namespace Cert.ReferenceIdeal.RefRead

open Cert.ReferenceIdeal Cert.ReferenceIdeal.Gen Cert.ReferenceIdeal.RefRun Idealize.ShloMosaic Idealize.ShloMosaic.ValueIdx

/-! ### proj64: A row of width 64 against row h of the weight matrix. -/

theorem lhs_p64_0 (i : S8x2048x128.Idx) (q : dot_S8x2048x64_S128x64_S8x2048x128_2_1_01_0_n_n.contr.Idx) :
    (dot_S8x2048x64_S128x64_S8x2048x128_2_1_01_0_n_n.lhsIdx i q 0).val = (i 0).val := by
  unfold DotDims.lhsIdx
  rw [dif_neg (show ¬(0 : Fin S8x2048x64.rank) ∈ dot_S8x2048x64_S128x64_S8x2048x128_2_1_01_0_n_n.lhsBatch by decide), dif_pos (show (0 : Fin S8x2048x64.rank) ∈ dot_S8x2048x64_S128x64_S8x2048x128_2_1_01_0_n_n.lhsNonContracting by decide)]
  rfl
theorem lhs_p64_1 (i : S8x2048x128.Idx) (q : dot_S8x2048x64_S128x64_S8x2048x128_2_1_01_0_n_n.contr.Idx) :
    (dot_S8x2048x64_S128x64_S8x2048x128_2_1_01_0_n_n.lhsIdx i q 1).val = (i 1).val := by
  unfold DotDims.lhsIdx
  rw [dif_neg (show ¬(1 : Fin S8x2048x64.rank) ∈ dot_S8x2048x64_S128x64_S8x2048x128_2_1_01_0_n_n.lhsBatch by decide), dif_pos (show (1 : Fin S8x2048x64.rank) ∈ dot_S8x2048x64_S128x64_S8x2048x128_2_1_01_0_n_n.lhsNonContracting by decide)]
  rfl
theorem lhs_p64_2 (i : S8x2048x128.Idx) (q : dot_S8x2048x64_S128x64_S8x2048x128_2_1_01_0_n_n.contr.Idx) :
    (dot_S8x2048x64_S128x64_S8x2048x128_2_1_01_0_n_n.lhsIdx i q 2).val = (q ⟨0, by decide⟩).val :=
  dot_S8x2048x64_S128x64_S8x2048x128_2_1_01_0_n_n.lhsIdx_val_of_single rfl i q
theorem rhs_p64_0 (i : S8x2048x128.Idx) (q : dot_S8x2048x64_S128x64_S8x2048x128_2_1_01_0_n_n.contr.Idx) :
    (dot_S8x2048x64_S128x64_S8x2048x128_2_1_01_0_n_n.rhsIdx i q 0).val = (i 2).val := by
  unfold DotDims.rhsIdx
  rw [dif_neg (show ¬(0 : Fin S128x64.rank) ∈ dot_S8x2048x64_S128x64_S8x2048x128_2_1_01_0_n_n.rhsBatch by decide), dif_pos (show (0 : Fin S128x64.rank) ∈ dot_S8x2048x64_S128x64_S8x2048x128_2_1_01_0_n_n.rhsNonContracting by decide)]
  rfl
theorem rhs_p64_1 (i : S8x2048x128.Idx) (q : dot_S8x2048x64_S128x64_S8x2048x128_2_1_01_0_n_n.contr.Idx) :
    (dot_S8x2048x64_S128x64_S8x2048x128_2_1_01_0_n_n.rhsIdx i q 1).val = (q ⟨0, by decide⟩).val :=
  dot_S8x2048x64_S128x64_S8x2048x128_2_1_01_0_n_n.rhsIdx_val_of_single rfl i q

/-- A row of width 64 against row h of the weight matrix. -/
theorem proj64_apply (A : FVec Ideal S8x2048x64 .f32) (W : FVec Ideal S128x64 .f32) (b : Fin 8) (n : Fin 2048) (h : Fin 128) :
    proj64 A W (ix3 b n h) = ∑ k : Fin 64, A (ix3 b n k) * W (ix2 h k) := by
  unfold proj64
  simp only [Host.dotGeneral]
  rw [Ideal.dotGeneral_apply, ← Equiv.sum_comp (ValueIdx.contrEquiv1 dot_S8x2048x64_S128x64_S8x2048x128_2_1_01_0_n_n 64 rfl rfl).symm]
  refine Finset.sum_congr rfl fun k _ => ?_
  have hk := ValueIdx.contrEquiv1_symm_val dot_S8x2048x64_S128x64_S8x2048x128_2_1_01_0_n_n 64 rfl rfl k
  have el : dot_S8x2048x64_S128x64_S8x2048x128_2_1_01_0_n_n.lhsIdx (ix3 b n h) ((ValueIdx.contrEquiv1 dot_S8x2048x64_S128x64_S8x2048x128_2_1_01_0_n_n 64 rfl rfl).symm k) = ix3 b n k := funext fun a => Fin.ext (by
    match a with
    | ⟨0, _⟩ => exact lhs_p64_0 _ _
    | ⟨1, _⟩ => exact lhs_p64_1 _ _
    | ⟨2, _⟩ => exact (lhs_p64_2 _ _).trans hk)
  have er : dot_S8x2048x64_S128x64_S8x2048x128_2_1_01_0_n_n.rhsIdx (ix3 b n h) ((ValueIdx.contrEquiv1 dot_S8x2048x64_S128x64_S8x2048x128_2_1_01_0_n_n 64 rfl rfl).symm k) = ix2 h k := funext fun a => Fin.ext (by
    match a with
    | ⟨0, _⟩ => exact rhs_p64_0 _ _
    | ⟨1, _⟩ => exact (rhs_p64_1 _ _).trans hk)
  rw [el, er]

/-! ### proj128: A row of width 128 against row g of the weight matrix. -/

theorem lhs_p128_0 (i : S8x2048x128.Idx) (q : dot_S8x2048x128_S128x128_S8x2048x128_2_1_01_0_n_n.contr.Idx) :
    (dot_S8x2048x128_S128x128_S8x2048x128_2_1_01_0_n_n.lhsIdx i q 0).val = (i 0).val := by
  unfold DotDims.lhsIdx
  rw [dif_neg (show ¬(0 : Fin S8x2048x128.rank) ∈ dot_S8x2048x128_S128x128_S8x2048x128_2_1_01_0_n_n.lhsBatch by decide), dif_pos (show (0 : Fin S8x2048x128.rank) ∈ dot_S8x2048x128_S128x128_S8x2048x128_2_1_01_0_n_n.lhsNonContracting by decide)]
  rfl
theorem lhs_p128_1 (i : S8x2048x128.Idx) (q : dot_S8x2048x128_S128x128_S8x2048x128_2_1_01_0_n_n.contr.Idx) :
    (dot_S8x2048x128_S128x128_S8x2048x128_2_1_01_0_n_n.lhsIdx i q 1).val = (i 1).val := by
  unfold DotDims.lhsIdx
  rw [dif_neg (show ¬(1 : Fin S8x2048x128.rank) ∈ dot_S8x2048x128_S128x128_S8x2048x128_2_1_01_0_n_n.lhsBatch by decide), dif_pos (show (1 : Fin S8x2048x128.rank) ∈ dot_S8x2048x128_S128x128_S8x2048x128_2_1_01_0_n_n.lhsNonContracting by decide)]
  rfl
theorem lhs_p128_2 (i : S8x2048x128.Idx) (q : dot_S8x2048x128_S128x128_S8x2048x128_2_1_01_0_n_n.contr.Idx) :
    (dot_S8x2048x128_S128x128_S8x2048x128_2_1_01_0_n_n.lhsIdx i q 2).val = (q ⟨0, by decide⟩).val :=
  dot_S8x2048x128_S128x128_S8x2048x128_2_1_01_0_n_n.lhsIdx_val_of_single rfl i q
theorem rhs_p128_0 (i : S8x2048x128.Idx) (q : dot_S8x2048x128_S128x128_S8x2048x128_2_1_01_0_n_n.contr.Idx) :
    (dot_S8x2048x128_S128x128_S8x2048x128_2_1_01_0_n_n.rhsIdx i q 0).val = (i 2).val := by
  unfold DotDims.rhsIdx
  rw [dif_neg (show ¬(0 : Fin S128x128.rank) ∈ dot_S8x2048x128_S128x128_S8x2048x128_2_1_01_0_n_n.rhsBatch by decide), dif_pos (show (0 : Fin S128x128.rank) ∈ dot_S8x2048x128_S128x128_S8x2048x128_2_1_01_0_n_n.rhsNonContracting by decide)]
  rfl
theorem rhs_p128_1 (i : S8x2048x128.Idx) (q : dot_S8x2048x128_S128x128_S8x2048x128_2_1_01_0_n_n.contr.Idx) :
    (dot_S8x2048x128_S128x128_S8x2048x128_2_1_01_0_n_n.rhsIdx i q 1).val = (q ⟨0, by decide⟩).val :=
  dot_S8x2048x128_S128x128_S8x2048x128_2_1_01_0_n_n.rhsIdx_val_of_single rfl i q

/-- A row of width 128 against row g of the weight matrix. -/
theorem proj128_apply (A : FVec Ideal S8x2048x128 .f32) (W : FVec Ideal S128x128 .f32) (b : Fin 8) (n : Fin 2048) (g : Fin 128) :
    proj128 A W (ix3 b n g) = ∑ k : Fin 128, A (ix3 b n k) * W (ix2 g k) := by
  unfold proj128
  simp only [Host.dotGeneral]
  rw [Ideal.dotGeneral_apply, ← Equiv.sum_comp (ValueIdx.contrEquiv1 dot_S8x2048x128_S128x128_S8x2048x128_2_1_01_0_n_n 128 rfl rfl).symm]
  refine Finset.sum_congr rfl fun k _ => ?_
  have hk := ValueIdx.contrEquiv1_symm_val dot_S8x2048x128_S128x128_S8x2048x128_2_1_01_0_n_n 128 rfl rfl k
  have el : dot_S8x2048x128_S128x128_S8x2048x128_2_1_01_0_n_n.lhsIdx (ix3 b n g) ((ValueIdx.contrEquiv1 dot_S8x2048x128_S128x128_S8x2048x128_2_1_01_0_n_n 128 rfl rfl).symm k) = ix3 b n k := funext fun a => Fin.ext (by
    match a with
    | ⟨0, _⟩ => exact lhs_p128_0 _ _
    | ⟨1, _⟩ => exact lhs_p128_1 _ _
    | ⟨2, _⟩ => exact (lhs_p128_2 _ _).trans hk)
  have er : dot_S8x2048x128_S128x128_S8x2048x128_2_1_01_0_n_n.rhsIdx (ix3 b n g) ((ValueIdx.contrEquiv1 dot_S8x2048x128_S128x128_S8x2048x128_2_1_01_0_n_n 128 rfl rfl).symm k) = ix2 g k := funext fun a => Fin.ext (by
    match a with
    | ⟨0, _⟩ => exact rhs_p128_0 _ _
    | ⟨1, _⟩ => exact (rhs_p128_1 _ _).trans hk)
  rw [el, er]

/-! ### projOut: A row of width 128 against row c of the output matrix. -/

theorem lhs_pOut_0 (i : S8x2048x64.Idx) (q : dot_S8x2048x128_S64x128_S8x2048x64_2_1_01_0_n_n.contr.Idx) :
    (dot_S8x2048x128_S64x128_S8x2048x64_2_1_01_0_n_n.lhsIdx i q 0).val = (i 0).val := by
  unfold DotDims.lhsIdx
  rw [dif_neg (show ¬(0 : Fin S8x2048x128.rank) ∈ dot_S8x2048x128_S64x128_S8x2048x64_2_1_01_0_n_n.lhsBatch by decide), dif_pos (show (0 : Fin S8x2048x128.rank) ∈ dot_S8x2048x128_S64x128_S8x2048x64_2_1_01_0_n_n.lhsNonContracting by decide)]
  rfl
theorem lhs_pOut_1 (i : S8x2048x64.Idx) (q : dot_S8x2048x128_S64x128_S8x2048x64_2_1_01_0_n_n.contr.Idx) :
    (dot_S8x2048x128_S64x128_S8x2048x64_2_1_01_0_n_n.lhsIdx i q 1).val = (i 1).val := by
  unfold DotDims.lhsIdx
  rw [dif_neg (show ¬(1 : Fin S8x2048x128.rank) ∈ dot_S8x2048x128_S64x128_S8x2048x64_2_1_01_0_n_n.lhsBatch by decide), dif_pos (show (1 : Fin S8x2048x128.rank) ∈ dot_S8x2048x128_S64x128_S8x2048x64_2_1_01_0_n_n.lhsNonContracting by decide)]
  rfl
theorem lhs_pOut_2 (i : S8x2048x64.Idx) (q : dot_S8x2048x128_S64x128_S8x2048x64_2_1_01_0_n_n.contr.Idx) :
    (dot_S8x2048x128_S64x128_S8x2048x64_2_1_01_0_n_n.lhsIdx i q 2).val = (q ⟨0, by decide⟩).val :=
  dot_S8x2048x128_S64x128_S8x2048x64_2_1_01_0_n_n.lhsIdx_val_of_single rfl i q
theorem rhs_pOut_0 (i : S8x2048x64.Idx) (q : dot_S8x2048x128_S64x128_S8x2048x64_2_1_01_0_n_n.contr.Idx) :
    (dot_S8x2048x128_S64x128_S8x2048x64_2_1_01_0_n_n.rhsIdx i q 0).val = (i 2).val := by
  unfold DotDims.rhsIdx
  rw [dif_neg (show ¬(0 : Fin S64x128.rank) ∈ dot_S8x2048x128_S64x128_S8x2048x64_2_1_01_0_n_n.rhsBatch by decide), dif_pos (show (0 : Fin S64x128.rank) ∈ dot_S8x2048x128_S64x128_S8x2048x64_2_1_01_0_n_n.rhsNonContracting by decide)]
  rfl
theorem rhs_pOut_1 (i : S8x2048x64.Idx) (q : dot_S8x2048x128_S64x128_S8x2048x64_2_1_01_0_n_n.contr.Idx) :
    (dot_S8x2048x128_S64x128_S8x2048x64_2_1_01_0_n_n.rhsIdx i q 1).val = (q ⟨0, by decide⟩).val :=
  dot_S8x2048x128_S64x128_S8x2048x64_2_1_01_0_n_n.rhsIdx_val_of_single rfl i q

/-- A row of width 128 against row c of the output matrix. -/
theorem projOut_apply (A : FVec Ideal S8x2048x128 .f32) (W : FVec Ideal S64x128 .f32) (b : Fin 8) (n : Fin 2048) (c : Fin 64) :
    projOut A W (ix3 b n c) = ∑ k : Fin 128, A (ix3 b n k) * W (ix2 c k) := by
  unfold projOut
  simp only [Host.dotGeneral]
  rw [Ideal.dotGeneral_apply, ← Equiv.sum_comp (ValueIdx.contrEquiv1 dot_S8x2048x128_S64x128_S8x2048x64_2_1_01_0_n_n 128 rfl rfl).symm]
  refine Finset.sum_congr rfl fun k _ => ?_
  have hk := ValueIdx.contrEquiv1_symm_val dot_S8x2048x128_S64x128_S8x2048x64_2_1_01_0_n_n 128 rfl rfl k
  have el : dot_S8x2048x128_S64x128_S8x2048x64_2_1_01_0_n_n.lhsIdx (ix3 b n c) ((ValueIdx.contrEquiv1 dot_S8x2048x128_S64x128_S8x2048x64_2_1_01_0_n_n 128 rfl rfl).symm k) = ix3 b n k := funext fun a => Fin.ext (by
    match a with
    | ⟨0, _⟩ => exact lhs_pOut_0 _ _
    | ⟨1, _⟩ => exact lhs_pOut_1 _ _
    | ⟨2, _⟩ => exact (lhs_pOut_2 _ _).trans hk)
  have er : dot_S8x2048x128_S64x128_S8x2048x64_2_1_01_0_n_n.rhsIdx (ix3 b n c) ((ValueIdx.contrEquiv1 dot_S8x2048x128_S64x128_S8x2048x64_2_1_01_0_n_n 128 rfl rfl).symm k) = ix2 c k := funext fun a => Fin.ext (by
    match a with
    | ⟨0, _⟩ => exact rhs_pOut_0 _ _
    | ⟨1, _⟩ => exact (rhs_pOut_1 _ _).trans hk)
  rw [el, er]

/-! ### scoreDot: Query row n against key row m of the same batch. -/

theorem lhs_sc_0 (i : S8x2048x2048.Idx) (q : dot_S8x2048x128_S8x2048x128_S8x2048x2048_2_2_1_1_0_0.contr.Idx) :
    (dot_S8x2048x128_S8x2048x128_S8x2048x2048_2_2_1_1_0_0.lhsIdx i q 0).val = (i 0).val := by
  unfold DotDims.lhsIdx
  rw [dif_pos (show (0 : Fin S8x2048x128.rank) ∈ dot_S8x2048x128_S8x2048x128_S8x2048x2048_2_2_1_1_0_0.lhsBatch by decide)]
  rfl
theorem lhs_sc_1 (i : S8x2048x2048.Idx) (q : dot_S8x2048x128_S8x2048x128_S8x2048x2048_2_2_1_1_0_0.contr.Idx) :
    (dot_S8x2048x128_S8x2048x128_S8x2048x2048_2_2_1_1_0_0.lhsIdx i q 1).val = (i 1).val := by
  unfold DotDims.lhsIdx
  rw [dif_neg (show ¬(1 : Fin S8x2048x128.rank) ∈ dot_S8x2048x128_S8x2048x128_S8x2048x2048_2_2_1_1_0_0.lhsBatch by decide), dif_pos (show (1 : Fin S8x2048x128.rank) ∈ dot_S8x2048x128_S8x2048x128_S8x2048x2048_2_2_1_1_0_0.lhsNonContracting by decide)]
  rfl
theorem lhs_sc_2 (i : S8x2048x2048.Idx) (q : dot_S8x2048x128_S8x2048x128_S8x2048x2048_2_2_1_1_0_0.contr.Idx) :
    (dot_S8x2048x128_S8x2048x128_S8x2048x2048_2_2_1_1_0_0.lhsIdx i q 2).val = (q ⟨0, by decide⟩).val :=
  dot_S8x2048x128_S8x2048x128_S8x2048x2048_2_2_1_1_0_0.lhsIdx_val_of_single rfl i q
theorem rhs_sc_0 (i : S8x2048x2048.Idx) (q : dot_S8x2048x128_S8x2048x128_S8x2048x2048_2_2_1_1_0_0.contr.Idx) :
    (dot_S8x2048x128_S8x2048x128_S8x2048x2048_2_2_1_1_0_0.rhsIdx i q 0).val = (i 0).val := by
  unfold DotDims.rhsIdx
  rw [dif_pos (show (0 : Fin S8x2048x128.rank) ∈ dot_S8x2048x128_S8x2048x128_S8x2048x2048_2_2_1_1_0_0.rhsBatch by decide)]
  rfl
theorem rhs_sc_1 (i : S8x2048x2048.Idx) (q : dot_S8x2048x128_S8x2048x128_S8x2048x2048_2_2_1_1_0_0.contr.Idx) :
    (dot_S8x2048x128_S8x2048x128_S8x2048x2048_2_2_1_1_0_0.rhsIdx i q 1).val = (i 2).val := by
  unfold DotDims.rhsIdx
  rw [dif_neg (show ¬(1 : Fin S8x2048x128.rank) ∈ dot_S8x2048x128_S8x2048x128_S8x2048x2048_2_2_1_1_0_0.rhsBatch by decide), dif_pos (show (1 : Fin S8x2048x128.rank) ∈ dot_S8x2048x128_S8x2048x128_S8x2048x2048_2_2_1_1_0_0.rhsNonContracting by decide)]
  rfl
theorem rhs_sc_2 (i : S8x2048x2048.Idx) (q : dot_S8x2048x128_S8x2048x128_S8x2048x2048_2_2_1_1_0_0.contr.Idx) :
    (dot_S8x2048x128_S8x2048x128_S8x2048x2048_2_2_1_1_0_0.rhsIdx i q 2).val = (q ⟨0, by decide⟩).val :=
  dot_S8x2048x128_S8x2048x128_S8x2048x2048_2_2_1_1_0_0.rhsIdx_val_of_single rfl i q

/-- Query row n against key row m of the same batch. -/
theorem scoreDot_apply (Q K : FVec Ideal S8x2048x128 .f32) (b : Fin 8) (n m : Fin 2048) :
    Host.dotGeneral dot_S8x2048x128_S8x2048x128_S8x2048x2048_2_2_1_1_0_0 none Q K (ix3 b n m) = ∑ k : Fin 128, Q (ix3 b n k) * K (ix3 b m k) := by
  simp only [Host.dotGeneral]
  rw [Ideal.dotGeneral_apply, ← Equiv.sum_comp (ValueIdx.contrEquiv1 dot_S8x2048x128_S8x2048x128_S8x2048x2048_2_2_1_1_0_0 128 rfl rfl).symm]
  refine Finset.sum_congr rfl fun k _ => ?_
  have hk := ValueIdx.contrEquiv1_symm_val dot_S8x2048x128_S8x2048x128_S8x2048x2048_2_2_1_1_0_0 128 rfl rfl k
  have el : dot_S8x2048x128_S8x2048x128_S8x2048x2048_2_2_1_1_0_0.lhsIdx (ix3 b n m) ((ValueIdx.contrEquiv1 dot_S8x2048x128_S8x2048x128_S8x2048x2048_2_2_1_1_0_0 128 rfl rfl).symm k) = ix3 b n k := funext fun a => Fin.ext (by
    match a with
    | ⟨0, _⟩ => exact lhs_sc_0 _ _
    | ⟨1, _⟩ => exact lhs_sc_1 _ _
    | ⟨2, _⟩ => exact (lhs_sc_2 _ _).trans hk)
  have er : dot_S8x2048x128_S8x2048x128_S8x2048x2048_2_2_1_1_0_0.rhsIdx (ix3 b n m) ((ValueIdx.contrEquiv1 dot_S8x2048x128_S8x2048x128_S8x2048x2048_2_2_1_1_0_0 128 rfl rfl).symm k) = ix3 b m k := funext fun a => Fin.ext (by
    match a with
    | ⟨0, _⟩ => exact rhs_sc_0 _ _
    | ⟨1, _⟩ => exact rhs_sc_1 _ _
    | ⟨2, _⟩ => exact (rhs_sc_2 _ _).trans hk)
  rw [el, er]

/-! ### ctxDot: Weight row n against column c of the input rows of the same batch. -/

theorem lhs_cx_0 (i : S8x2048x64.Idx) (q : dot_S8x2048x2048_S8x2048x64_S8x2048x64_2_1_1_2_0_0.contr.Idx) :
    (dot_S8x2048x2048_S8x2048x64_S8x2048x64_2_1_1_2_0_0.lhsIdx i q 0).val = (i 0).val := by
  unfold DotDims.lhsIdx
  rw [dif_pos (show (0 : Fin S8x2048x2048.rank) ∈ dot_S8x2048x2048_S8x2048x64_S8x2048x64_2_1_1_2_0_0.lhsBatch by decide)]
  rfl
theorem lhs_cx_1 (i : S8x2048x64.Idx) (q : dot_S8x2048x2048_S8x2048x64_S8x2048x64_2_1_1_2_0_0.contr.Idx) :
    (dot_S8x2048x2048_S8x2048x64_S8x2048x64_2_1_1_2_0_0.lhsIdx i q 1).val = (i 1).val := by
  unfold DotDims.lhsIdx
  rw [dif_neg (show ¬(1 : Fin S8x2048x2048.rank) ∈ dot_S8x2048x2048_S8x2048x64_S8x2048x64_2_1_1_2_0_0.lhsBatch by decide), dif_pos (show (1 : Fin S8x2048x2048.rank) ∈ dot_S8x2048x2048_S8x2048x64_S8x2048x64_2_1_1_2_0_0.lhsNonContracting by decide)]
  rfl
theorem lhs_cx_2 (i : S8x2048x64.Idx) (q : dot_S8x2048x2048_S8x2048x64_S8x2048x64_2_1_1_2_0_0.contr.Idx) :
    (dot_S8x2048x2048_S8x2048x64_S8x2048x64_2_1_1_2_0_0.lhsIdx i q 2).val = (q ⟨0, by decide⟩).val :=
  dot_S8x2048x2048_S8x2048x64_S8x2048x64_2_1_1_2_0_0.lhsIdx_val_of_single rfl i q
theorem rhs_cx_0 (i : S8x2048x64.Idx) (q : dot_S8x2048x2048_S8x2048x64_S8x2048x64_2_1_1_2_0_0.contr.Idx) :
    (dot_S8x2048x2048_S8x2048x64_S8x2048x64_2_1_1_2_0_0.rhsIdx i q 0).val = (i 0).val := by
  unfold DotDims.rhsIdx
  rw [dif_pos (show (0 : Fin S8x2048x64.rank) ∈ dot_S8x2048x2048_S8x2048x64_S8x2048x64_2_1_1_2_0_0.rhsBatch by decide)]
  rfl
theorem rhs_cx_1 (i : S8x2048x64.Idx) (q : dot_S8x2048x2048_S8x2048x64_S8x2048x64_2_1_1_2_0_0.contr.Idx) :
    (dot_S8x2048x2048_S8x2048x64_S8x2048x64_2_1_1_2_0_0.rhsIdx i q 1).val = (q ⟨0, by decide⟩).val :=
  dot_S8x2048x2048_S8x2048x64_S8x2048x64_2_1_1_2_0_0.rhsIdx_val_of_single rfl i q
theorem rhs_cx_2 (i : S8x2048x64.Idx) (q : dot_S8x2048x2048_S8x2048x64_S8x2048x64_2_1_1_2_0_0.contr.Idx) :
    (dot_S8x2048x2048_S8x2048x64_S8x2048x64_2_1_1_2_0_0.rhsIdx i q 2).val = (i 2).val := by
  unfold DotDims.rhsIdx
  rw [dif_neg (show ¬(2 : Fin S8x2048x64.rank) ∈ dot_S8x2048x2048_S8x2048x64_S8x2048x64_2_1_1_2_0_0.rhsBatch by decide), dif_pos (show (2 : Fin S8x2048x64.rank) ∈ dot_S8x2048x2048_S8x2048x64_S8x2048x64_2_1_1_2_0_0.rhsNonContracting by decide)]
  rfl

/-- Weight row n against column c of the input rows of the same batch. -/
theorem ctxDot_apply (P : FVec Ideal S8x2048x2048 .f32) (X : FVec Ideal S8x2048x64 .f32) (b : Fin 8) (n : Fin 2048) (c : Fin 64) :
    Host.dotGeneral dot_S8x2048x2048_S8x2048x64_S8x2048x64_2_1_1_2_0_0 none P X (ix3 b n c) = ∑ k : Fin 2048, P (ix3 b n k) * X (ix3 b k c) := by
  simp only [Host.dotGeneral]
  rw [Ideal.dotGeneral_apply, ← Equiv.sum_comp (ValueIdx.contrEquiv1 dot_S8x2048x2048_S8x2048x64_S8x2048x64_2_1_1_2_0_0 2048 rfl rfl).symm]
  refine Finset.sum_congr rfl fun k _ => ?_
  have hk := ValueIdx.contrEquiv1_symm_val dot_S8x2048x2048_S8x2048x64_S8x2048x64_2_1_1_2_0_0 2048 rfl rfl k
  have el : dot_S8x2048x2048_S8x2048x64_S8x2048x64_2_1_1_2_0_0.lhsIdx (ix3 b n c) ((ValueIdx.contrEquiv1 dot_S8x2048x2048_S8x2048x64_S8x2048x64_2_1_1_2_0_0 2048 rfl rfl).symm k) = ix3 b n k := funext fun a => Fin.ext (by
    match a with
    | ⟨0, _⟩ => exact lhs_cx_0 _ _
    | ⟨1, _⟩ => exact lhs_cx_1 _ _
    | ⟨2, _⟩ => exact (lhs_cx_2 _ _).trans hk)
  have er : dot_S8x2048x2048_S8x2048x64_S8x2048x64_2_1_1_2_0_0.rhsIdx (ix3 b n c) ((ValueIdx.contrEquiv1 dot_S8x2048x2048_S8x2048x64_S8x2048x64_2_1_1_2_0_0 2048 rfl rfl).symm k) = ix3 b k c := funext fun a => Fin.ext (by
    match a with
    | ⟨0, _⟩ => exact rhs_cx_0 _ _
    | ⟨1, _⟩ => exact (rhs_cx_1 _ _).trans hk
    | ⟨2, _⟩ => exact rhs_cx_2 _ _)
  rw [el, er]

end Cert.ReferenceIdeal.RefRead

end
-- ==== Proof.RefStages.lean ====
/-
  The reference's stages read entry by entry, on the extended reals. Pointwise operations read through by
  computation; what is left is:
    * a bias repeated over batches and rows, and a per-row value repeated along the row: the entry it came from;
    * the rectifier: the program selects on "score ≥ 0", the specification on "0 < score"; at a zero score both
      branches are zero, so the two agree everywhere;
    * a row's maximum: the fold of max over the row from minus infinity, and taking the maximum with minus
      infinity once more changes nothing, minus infinity being the fold's own start;
    * a row's sum: the start value zero plus the finite sum over the row;
    * the gates: 1 / (1 + exp (−x)) with the word for 1 read as the number 1 is the logistic function by definition;
    * the candidate's argument: ((u + v) + w) + z regrouped as (u + v) + (w + z), addition being associative.
  None of these asks an entry to be finite.
-/
import proofs.«154985_j72576357368188_2_alg».proof.Proof.RefDots
import proofs.«154985_j72576357368188_2_alg».proof.Proof.Spec
import Idealize.ShloMosaic.PureOps.Reduce
import Idealize.ShloMosaic.PureOps.IdealRules

noncomputable section

open scoped BigOperators

namespace Cert.ReferenceIdeal.RefRead

open Cert.ReferenceIdeal Cert.ReferenceIdeal.Gen Cert.ReferenceIdeal.RefRun Idealize.ShloMosaic Idealize.ShloMosaic.ValueIdx

/-! ## Repeated values -/

/-- A bias of length 128 repeated over batches and rows reads the bias at the last coordinate. -/
theorem rowBias_apply (v : FVec Ideal S128 .f32) (b : Fin 8) (n : Fin 2048) (h : Fin 128) :
    rowBias v (ix3 b n h) = v (ix1 h) := by
  unfold rowBias broadcastInDim
  exact congrArg v (funext fun a => Fin.ext (by match a with | ⟨0, _⟩ => rfl))

/-- The same for a bias of length 64. -/
theorem rowBias64_apply (v : FVec Ideal S64 .f32) (b : Fin 8) (n : Fin 2048) (c : Fin 64) :
    rowBias64 v (ix3 b n c) = v (ix1 c) := by
  unfold rowBias64 broadcastInDim
  exact congrArg v (funext fun a => Fin.ext (by match a with | ⟨0, _⟩ => rfl))

/-- A value per batch and row repeated along the row reads that row's value. -/
theorem alongRow_apply (v : FVec Ideal S8x2048 .f32) (b : Fin 8) (n m : Fin 2048) :
    alongRow v (ix3 b n m) = v (ix2 b n) := by
  unfold alongRow broadcastInDim
  exact congrArg v (funext fun a => Fin.ext (by match a with | ⟨0, _⟩ => rfl | ⟨1, _⟩ => rfl))

/-! ## The rectifier -/

/-- Selecting on "s ≥ 0" between s and slope · s is the specification's rectifier, which selects on "0 < s". -/
theorem leaky_law (s : EReal) :
    Scalar.select (Ideal.cmp .oge s (Ideal.ofBits .f32 0x00000000#32)) s (Ideal.ofBits .f32 0x3C23D70A#32 * s)
      = Cert.Spec.leaky s := by
  unfold Cert.Spec.leaky Cert.Spec.c01 Scalar.select Ideal.cmp
  rw [Ideal.ofBits_zero_f32]
  by_cases h : (0 : EReal) ≤ s
  · rcases h.lt_or_eq with h' | h'
    · simp [h, h']
    · subst h'; simp
  · have h' : ¬ (0 : EReal) < s := fun hlt => h hlt.le
    simp [h, h']

/-- The rectified array at an entry. -/
theorem leakyArr_apply (S : FVec Ideal S8x2048x2048 .f32) (i : S8x2048x2048.Idx) :
    leakyArr S i = Cert.Spec.leaky (S i) :=
  leaky_law (S i)

/-! ## The softmax's pieces -/

/-- A row's maximum: the fold of max over the row from the word for minus infinity. -/
theorem rowMaxArr_apply (P : FVec Ideal S8x2048x2048 .f32) (b : Fin 8) (n : Fin 2048) :
    rowMaxArr P (ix2 b n)
      = (Finset.univ : Finset (Fin 2048)).fold max (Ideal.ofBits .f32 0xFF800000#32) (fun m => P (ix3 b n m)) := by
  have hR : S8x2048x2048.Reduces [2] S8x2048 := by decide
  unfold rowMaxArr
  refine (maximumf_apply _ _ _).trans ?_
  rw [Host.reduce_eq_fold_single FloatOps.maximumf P _ reducesTo_S8x2048x2048_S8x2048_d2 hR h_S_ (ix2 b n)]
  have e : (Finset.univ : Finset (Fin (S8x2048x2048.size 2))).fold FloatOps.maximumf
        (constant (F := Ideal) S_ .f32 0xFF800000#32 (Shape.Idx.first h_S_)) (P ∘ hR.lift (ix2 b n))
      = (Finset.univ : Finset (Fin 2048)).fold max (Ideal.ofBits .f32 0xFF800000#32) (fun m => P (ix3 b n m)) :=
    congrArg (fun f => (Finset.univ : Finset (Fin 2048)).fold max (Ideal.ofBits .f32 0xFF800000#32) f)
      (funext fun k => congrArg P (funext fun a => Fin.ext (by
        match a with | ⟨0, _⟩ => rfl | ⟨1, _⟩ => rfl | ⟨2, _⟩ => rfl)))
  have hb : broadcastInDim S8x2048 ![] bcast_S_S8x2048 (constant (F := Ideal) S_ .f32 0xFF800000#32) (ix2 b n)
      = Ideal.ofBits .f32 0xFF800000#32 := rfl
  rw [e, hb]
  exact max_eq_right ((Finset.le_fold_max _).2 (Or.inl le_rfl))

/-- A row's sum: zero plus the finite sum over the row. -/
theorem rowSumArr_apply (E : FVec Ideal S8x2048x2048 .f32) (b : Fin 8) (n : Fin 2048) :
    rowSumArr E (ix2 b n) = ∑ m : Fin 2048, E (ix3 b n m) := by
  have hR : S8x2048x2048.Reduces [2] S8x2048 := by decide
  unfold rowSumArr
  simp only [Host.reduceAdd, Ideal.hostReduceAdd_def]
  rw [Ideal.hostReduceAdd_single reducesTo_S8x2048x2048_S8x2048_d2 hR]
  have e0 : constant (F := Ideal) S_ .f32 0x00000000#32 (Shape.Idx.first h_S_) = (0 : EReal) := Ideal.ofBits_zero_f32
  rw [e0, zero_add]
  exact Finset.sum_congr rfl fun k _ => congrArg E (funext fun a => Fin.ext (by
    match a with | ⟨0, _⟩ => rfl | ⟨1, _⟩ => rfl | ⟨2, _⟩ => rfl))

/-- A shifted exponential at an entry. -/
theorem expArr_apply (P : FVec Ideal S8x2048x2048 .f32) (b : Fin 8) (n m : Fin 2048) :
    expArr P (ix3 b n m) = Ideal.exp (P (ix3 b n m) - rowMaxArr P (ix2 b n)) := by
  unfold expArr
  show Ideal.exp (P (ix3 b n m) - alongRow (rowMaxArr P) (ix3 b n m)) = _
  rw [alongRow_apply]

/-- A softmax weight at an entry. -/
theorem attnArr_apply (P : FVec Ideal S8x2048x2048 .f32) (b : Fin 8) (n m : Fin 2048) :
    attnArr P (ix3 b n m) = Ideal.div (expArr P (ix3 b n m)) (rowSumArr (expArr P) (ix2 b n)) := by
  unfold attnArr
  show Ideal.div (expArr P (ix3 b n m)) (alongRow (rowSumArr (expArr P)) (ix3 b n m)) = _
  rw [alongRow_apply]

/-! ## Gates, candidate, new state, output -/

/-- A gate at an entry: the logistic function of the projection plus the bias. -/
theorem gateArr_apply (C : FVec Ideal S8x2048x64 .f32) (W : FVec Ideal S128x64 .f32) (v : FVec Ideal S128 .f32)
    (b : Fin 8) (n : Fin 2048) (h : Fin 128) :
    gateArr C W v (ix3 b n h) = Ideal.logistic ((∑ c : Fin 64, C (ix3 b n c) * W (ix2 h c)) + v (ix1 h)) := by
  unfold gateArr
  show Ideal.div (Ideal.ofBits .f32 0x3F800000#32)
      (Ideal.ofBits .f32 0x3F800000#32 + Ideal.exp (-(proj64 C W (ix3 b n h) + rowBias v (ix3 b n h)))) = _
  rw [proj64_apply, rowBias_apply, show Ideal.ofBits .f32 0x3F800000#32 = (1 : EReal) from IdealRules.sign_bit.ideal_onePat .f32]
  rfl

/-- The candidate at an entry, its argument regrouped as (input half) + (state half). -/
theorem candArr_apply (X : FVec Ideal S8x2048x64 .f32) (Wxh : FVec Ideal S128x64 .f32) (bxh : FVec Ideal S128 .f32)
    (R Hp : FVec Ideal S8x2048x128 .f32) (Whh : FVec Ideal S128x128 .f32) (bhh : FVec Ideal S128 .f32)
    (b : Fin 8) (n : Fin 2048) (h : Fin 128) :
    candArr X Wxh bxh R Hp Whh bhh (ix3 b n h)
      = Ideal.tanh (((∑ c : Fin 64, X (ix3 b n c) * Wxh (ix2 h c)) + bxh (ix1 h))
          + ((∑ k : Fin 128, (R (ix3 b n k) * Hp (ix3 b n k)) * Whh (ix2 h k)) + bhh (ix1 h))) := by
  unfold candArr
  show Ideal.tanh (((proj64 X Wxh (ix3 b n h) + rowBias bxh (ix3 b n h)) + proj128 (mulf R Hp) Whh (ix3 b n h))
      + rowBias bhh (ix3 b n h)) = _
  rw [add_assoc (proj64 X Wxh (ix3 b n h) + rowBias bxh (ix3 b n h)) (proj128 (mulf R Hp) Whh (ix3 b n h)) (rowBias bhh (ix3 b n h))]
  rw [proj64_apply, proj128_apply, rowBias_apply, rowBias_apply]
  rfl

/-- The new state at an entry. -/
theorem newHArr_apply (Z Hp C : FVec Ideal S8x2048x128 .f32) (i : S8x2048x128.Idx) :
    newHArr Z Hp C i = Z i * Hp i + (Ideal.ofBits .f32 0x3F800000#32 - Z i) * C i := rfl

/-- The output at an entry. -/
theorem outYArr_apply (H : FVec Ideal S8x2048x128 .f32) (Wy : FVec Ideal S64x128 .f32) (v : FVec Ideal S64 .f32)
    (b : Fin 8) (n : Fin 2048) (c : Fin 64) :
    outYArr H Wy v (ix3 b n c) = (∑ k : Fin 128, H (ix3 b n k) * Wy (ix2 c k)) + v (ix1 c) := by
  unfold outYArr
  show projOut H Wy (ix3 b n c) + rowBias64 v (ix3 b n c) = _
  rw [projOut_apply, rowBias64_apply]

end Cert.ReferenceIdeal.RefRead

end
-- ==== Proof.RefRead.lean ====
/-
  The reference computes the specification. Stage by stage, at explicit coordinates, the reference's arrays are the
  specification's functions of the same fifteen arguments: the rectified scores, the row maxima, the shifted
  exponentials and their sums, the attended input, the two gates, the candidate, the new state and the output. Each
  step rewrites one stage by its entry-wise reading and the stages before it by the steps already proved; sums are
  compared term by term. The two results follow by extensionality over the index.
-/
import proofs.«154985_j72576357368188_2_alg».proof.Proof.RefStages

noncomputable section

open scoped BigOperators

namespace Cert.ReferenceIdeal.RefRead

open Cert.ReferenceIdeal Cert.ReferenceIdeal.Gen Cert.ReferenceIdeal.RefRun Idealize.ShloMosaic Idealize.ShloMosaic.ValueIdx

variable (A : Cert.Spec.Args)

/-- The rectified scores and the attended input of the specification's arguments, as the reference computes them. -/
local notation "actP" => refAct (F := Ideal) A.Hp A.X A.Wha1 A.Wha2 A.bha2
local notation "ctxP" => refCtx (F := Ideal) A.Hp A.X A.Wha1 A.Wha2 A.bha2

/-- The rectified scores. -/
theorem act_eq (b : Fin 8) (n m : Fin 2048) : actP (ix3 b n m) = Cert.Spec.act A b n m := by
  unfold refAct
  rw [leakyArr_apply]
  unfold Cert.Spec.act
  refine congrArg Cert.Spec.leaky ?_
  unfold scoreArr
  rw [scoreDot_apply]
  unfold Cert.Spec.score
  refine Finset.sum_congr rfl fun k _ => ?_
  rw [proj64_apply]
  show _ * (proj128 (F := Ideal) A.Hp A.Wha2 (ix3 b m k) + rowBias (F := Ideal) A.bha2 (ix3 b m k)) = _
  rw [proj128_apply, rowBias_apply]
  rfl

/-- The row maxima. -/
theorem rowMax_eq (b : Fin 8) (n : Fin 2048) : rowMaxArr actP (ix2 b n) = Cert.Spec.rowMax A b n := by
  rw [rowMaxArr_apply]
  unfold Cert.Spec.rowMax Cert.Spec.negInf
  exact congrArg (fun f => (Finset.univ : Finset (Fin 2048)).fold max (Ideal.ofBits .f32 0xFF800000#32) f)
    (funext fun m => act_eq A b n m)

/-- The shifted exponentials. -/
theorem ex_eq (b : Fin 8) (n m : Fin 2048) : expArr actP (ix3 b n m) = Cert.Spec.ex A b n m := by
  rw [expArr_apply, act_eq, rowMax_eq]
  rfl

/-- The row sums. -/
theorem rowSum_eq (b : Fin 8) (n : Fin 2048) : rowSumArr (expArr actP) (ix2 b n) = Cert.Spec.rowSum A b n := by
  rw [rowSumArr_apply]
  exact Finset.sum_congr rfl fun m _ => ex_eq A b n m

/-- The softmax weights. -/
theorem attn_eq (b : Fin 8) (n m : Fin 2048) : attnArr actP (ix3 b n m) = Cert.Spec.attn A b n m := by
  rw [attnArr_apply, ex_eq, rowSum_eq]
  rfl

/-- The attended input. -/
theorem ctx_eq (b : Fin 8) (n : Fin 2048) (c : Fin 64) : ctxP (ix3 b n c) = Cert.Spec.ctx A b n c := by
  unfold refCtx ctxArr
  rw [ctxDot_apply]
  unfold Cert.Spec.ctx
  exact Finset.sum_congr rfl fun m _ => congrArg (· * A.X (ix3 b m c)) (attn_eq A b n m)

/-- The reset gate. -/
theorem gateR_eq (b : Fin 8) (n : Fin 2048) (h : Fin 128) : gateArr ctxP A.Wxr A.bxr (ix3 b n h) = Cert.Spec.gateR A b n h := by
  rw [gateArr_apply]
  unfold Cert.Spec.gateR
  exact congrArg (fun s => Ideal.logistic (s + A.bxr (ix1 h)))
    (Finset.sum_congr rfl fun c _ => congrArg (· * A.Wxr (ix2 h c)) (ctx_eq A b n c))

/-- The update gate. -/
theorem gateZ_eq (b : Fin 8) (n : Fin 2048) (h : Fin 128) : gateArr ctxP A.Wxz A.bxz (ix3 b n h) = Cert.Spec.gateZ A b n h := by
  rw [gateArr_apply]
  unfold Cert.Spec.gateZ
  exact congrArg (fun s => Ideal.logistic (s + A.bxz (ix1 h)))
    (Finset.sum_congr rfl fun c _ => congrArg (· * A.Wxz (ix2 h c)) (ctx_eq A b n c))

/-- The candidate state. -/
theorem cand_eq (b : Fin 8) (n : Fin 2048) (h : Fin 128) :
    candArr (F := Ideal) A.X A.Wxh A.bxh (gateArr ctxP A.Wxr A.bxr) A.Hp A.Whh A.bhh (ix3 b n h) = Cert.Spec.cand A b n h := by
  rw [candArr_apply]
  unfold Cert.Spec.cand Cert.Spec.xh Cert.Spec.hh
  exact congrArg
    (fun s => Ideal.tanh (((∑ c : Fin 64, A.X (ix3 b n c) * A.Wxh (ix2 h c)) + A.bxh (ix1 h)) + (s + A.bhh (ix1 h))))
    (Finset.sum_congr rfl fun k _ => congrArg (fun g => (g * A.Hp (ix3 b n k)) * A.Whh (ix2 h k)) (gateR_eq A b n k))

/-- The new state, entry by entry. -/
theorem refH_apply (b : Fin 8) (n : Fin 2048) (h : Fin 128) :
    refH (F := Ideal) A.Hp A.X A.Wxr A.bxr A.Wxz A.bxz A.Wxh A.bxh A.Whh A.bhh A.Wha1 A.Wha2 A.bha2 A.Wy A.by_ (ix3 b n h) = Cert.Spec.newH A b n h := by
  unfold refH
  rw [newHArr_apply, gateZ_eq, cand_eq]
  rfl

/-- The output, entry by entry. -/
theorem refY_apply (b : Fin 8) (n : Fin 2048) (c : Fin 64) :
    refY (F := Ideal) A.Hp A.X A.Wxr A.bxr A.Wxz A.bxz A.Wxh A.bxh A.Whh A.bhh A.Wha1 A.Wha2 A.bha2 A.Wy A.by_ (ix3 b n c) = Cert.Spec.outY A b n c := by
  unfold refY
  rw [outYArr_apply]
  unfold Cert.Spec.outY
  exact congrArg (fun s => s + A.by_ (ix1 c))
    (Finset.sum_congr rfl fun k _ => congrArg (· * A.Wy (ix2 c k)) (refH_apply A b n k))

/-- The reference's new state is the specification's, as arrays. -/
theorem refH_eq (Hp : FVec Ideal S8x2048x128 .f32) (X : FVec Ideal S8x2048x64 .f32) (Wxr : FVec Ideal S128x64 .f32) (bxr : FVec Ideal S128 .f32)
    (Wxz : FVec Ideal S128x64 .f32) (bxz : FVec Ideal S128 .f32) (Wxh : FVec Ideal S128x64 .f32) (bxh : FVec Ideal S128 .f32)
    (Whh : FVec Ideal S128x128 .f32) (bhh : FVec Ideal S128 .f32) (Wha1 : FVec Ideal S128x64 .f32) (Wha2 : FVec Ideal S128x128 .f32)
    (bha2 : FVec Ideal S128 .f32) (Wy : FVec Ideal S64x128 .f32) (by_ : FVec Ideal S64 .f32) :
    refH Hp X Wxr bxr Wxz bxz Wxh bxh Whh bhh Wha1 Wha2 bha2 Wy by_ = Cert.Spec.specH ⟨Hp, X, Wxr, bxr, Wxz, bxz, Wxh, bxh, Whh, bhh, Wha1, Wha2, bha2, Wy, by_⟩ := by
  funext i
  obtain ⟨b, n, h, rfl⟩ : ∃ (b : Fin 8) (n : Fin 2048) (h : Fin 128), i = ix3 b n h := ⟨i 0, i 1, i 2, eq_ix3 i⟩
  exact refH_apply ⟨Hp, X, Wxr, bxr, Wxz, bxz, Wxh, bxh, Whh, bhh, Wha1, Wha2, bha2, Wy, by_⟩ b n h

/-- The reference's output is the specification's, as arrays. -/
theorem refY_eq (Hp : FVec Ideal S8x2048x128 .f32) (X : FVec Ideal S8x2048x64 .f32) (Wxr : FVec Ideal S128x64 .f32) (bxr : FVec Ideal S128 .f32)
    (Wxz : FVec Ideal S128x64 .f32) (bxz : FVec Ideal S128 .f32) (Wxh : FVec Ideal S128x64 .f32) (bxh : FVec Ideal S128 .f32)
    (Whh : FVec Ideal S128x128 .f32) (bhh : FVec Ideal S128 .f32) (Wha1 : FVec Ideal S128x64 .f32) (Wha2 : FVec Ideal S128x128 .f32)
    (bha2 : FVec Ideal S128 .f32) (Wy : FVec Ideal S64x128 .f32) (by_ : FVec Ideal S64 .f32) :
    refY Hp X Wxr bxr Wxz bxz Wxh bxh Whh bhh Wha1 Wha2 bha2 Wy by_ = Cert.Spec.specY ⟨Hp, X, Wxr, bxr, Wxz, bxz, Wxh, bxh, Whh, bhh, Wha1, Wha2, bha2, Wy, by_⟩ := by
  funext i
  obtain ⟨b, n, c, rfl⟩ : ∃ (b : Fin 8) (n : Fin 2048) (c : Fin 64), i = ix3 b n c := ⟨i 0, i 1, i 2, eq_ix3 i⟩
  exact refY_apply ⟨Hp, X, Wxr, bxr, Wxz, bxz, Wxh, bxh, Whh, bhh, Wha1, Wha2, bha2, Wy, by_⟩ b n c

end Cert.ReferenceIdeal.RefRead

end
-- ==== Proof.lean ====
/-
  The idealized kernel and the idealized reference compute one layer.

  The layer: for each batch, scores between every pair of rows (the input against Wha1 on one side, the previous state
  against Wha2 plus a bias on the other) pass through a leaky rectifier and a softmax over the second row; the softmax
  weights average the input rows; two logistic gates of that average, a tanh candidate built from the input, the gated
  previous state and two biases, and the update gate's mix of the previous state with the candidate give the new state;
  the output is the new state against Wy plus a bias (Proof/Spec.lean writes this as one function of the fifteen arrays,
  entry by entry, on the extended reals).

  The kernel walks a grid of 8 batches by 4 query tiles of 512 rows. At a batch's first tile it stores the batch's key
  rows (previous state against Wha2, plus the bias) in a buffer that the three following tiles read back; an induction
  over the grid points shows that after every point the buffer holds the key rows of the point's batch
  (Proof/KValue.lean). With that, each point's two stored blocks are the specification's new state and output at the
  rows 512·q + r of its batch (Proof/KPay.lean reads each stage of the body at an index, Proof/KTile.lean composes
  them), the 32 blocks of each result tile its array, and so both result arrays are the specification's functions.

  The reference computes the same layer with whole-array operations (Proof/RefRun.lean: its run, its one outlined
  rectifier written in place; Proof/RefRead.lean: each stage at an index). The two spellings differ only where no
  finiteness is needed: the rectifier's branch is chosen on S > 0 by one and on S ≥ 0 by the other (both branches are 0
  at 0); the reference takes the maximum with the starting value −∞ once more; its row sums start from the zero word;
  its logistic is spelt 1 / (1 + exp (−x)); and it adds the four summands of the candidate's argument in another
  grouping. So the proof never opens the precondition.

  The three frames: the kernel's two are the generated frame certificates; the reference's is its run with the
  results dropped. The ideal pass rewrote nothing, so the idealization claim is trivial.
-/
import proofs.«154985_j72576357368188_2_alg».proof.Defs
import proofs.«154985_j72576357368188_2_alg».proof.Proof.Gen.Kernel
import proofs.«154985_j72576357368188_2_alg».proof.Proof.Gen.Kernel.Skeleton
import proofs.«154985_j72576357368188_2_alg».proof.Proof.Gen.Kernel.Launch
import proofs.«154985_j72576357368188_2_alg».proof.Proof.Gen.Kernel.Points
import proofs.«154985_j72576357368188_2_alg».proof.Proof.Gen.Kernel.Frame
import proofs.«154985_j72576357368188_2_alg».proof.Proof.Gen.KernelIdeal
import proofs.«154985_j72576357368188_2_alg».proof.Proof.Gen.KernelIdeal.Skeleton
import proofs.«154985_j72576357368188_2_alg».proof.Proof.Gen.KernelIdeal.Launch
import proofs.«154985_j72576357368188_2_alg».proof.Proof.Gen.KernelIdeal.Points
import proofs.«154985_j72576357368188_2_alg».proof.Proof.Gen.KernelIdeal.Frame
import proofs.«154985_j72576357368188_2_alg».proof.Proof.Gen.KernelIdeal.Value
import proofs.«154985_j72576357368188_2_alg».proof.Proof.Gen.ReferenceIdeal
import proofs.«154985_j72576357368188_2_alg».proof.Proof.Gen.Pre_finite_inputs
import proofs.«154985_j72576357368188_2_alg».proof.Proof.KValue
import proofs.«154985_j72576357368188_2_alg».proof.Proof.RefRun
import proofs.«154985_j72576357368188_2_alg».proof.Proof.RefRead
import Idealize.ShloMosaic.Adequacy
import Idealize.ShloMosaic.Init

noncomputable section

namespace Cert.Proof

open Idealize.ShloMosaic Idealize.ShloMosaic.TcCoe Idealize.SL.Sem

/-- The two kernel programs run and leave their arguments as they were: the generated frames. -/
theorem frame_k : Cert.frame_Kernel := fun m ρ _ => Cert.Kernel.Gen.frame m ρ
theorem frame_ki : Cert.frame_KernelIdeal := fun m ρ _ => Cert.KernelIdeal.Gen.frame m ρ

/-- The reference runs and leaves its arguments as they were: its run, the two results dropped. -/
theorem frame_ri : Cert.frame_ReferenceIdeal := fun m ρ _ =>
  (θ_run Cert.ReferenceIdeal.defs _ _).mono (fun _ h c => (h c).2.2) (Cert.ReferenceIdeal.RefRun.run (F := Ideal) m ρ)

/-- The ideal pass rewrote no operation. -/
theorem preserves : Cert.preserves_Kernel_KernelIdeal := trivial

/-- From memories that agree on the fifteen arguments both programs end with the output and the new state of the
    specification at those arguments: the kernel by its run read back block by block, the reference by its run read
    back stage by stage. -/
theorem algebraic : Cert.algebraic_KernelIdeal_ReferenceIdeal := by
  intro m ρ m' ρ' _ hagree
  refine ⟨fun c => Cert.Spec.specY (Cert.KernelIdeal.KValue.args m c), fun c => Cert.Spec.specH (Cert.KernelIdeal.KValue.args m c),
    Cert.KernelIdeal.KValue.run m ρ, ?_⟩
  refine (θ_run Cert.ReferenceIdeal.defs _ _).mono (fun _ h c => ?_) (Cert.ReferenceIdeal.RefRun.run (F := Ideal) m' ρ')
  obtain ⟨hY, hH, hargs⟩ := h c
  obtain ⟨a0, a1, a2, a3, a4, a5, a6, a7, a8, a9, a10, a11, a12, a13, a14⟩ := hagree c
  refine ⟨hY.trans ?_, hH.trans ?_, hargs⟩
  · rw [Cert.ReferenceIdeal.RefRead.refY_eq, a0, a1, a2, a3, a4, a5, a6, a7, a8, a9, a10, a11, a12, a13, a14]
    rfl
  · rw [Cert.ReferenceIdeal.RefRead.refH_eq, a0, a1, a2, a3, a4, a5, a6, a7, a8, a9, a10, a11, a12, a13, a14]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
